-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x128 : Shape := ⟨2, ![5000, 128]⟩
abbrev S5000x256 : Shape := ⟨2, ![5000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 109
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .hbm, ⟨89, _⟩ => ⟨S50000x256, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000x256, .f32⟩
  | .hbm, ⟨99, _⟩ => ⟨S850000x1, .f32⟩
  | .hbm, ⟨100, _⟩ => ⟨S850000x256, .f32⟩
  | .hbm, ⟨101, _⟩ => ⟨S850000x256, .f32⟩
  | .hbm, ⟨102, _⟩ => ⟨S_, .f32⟩
  | .hbm, ⟨103, _⟩ => ⟨S50000x256, .f32⟩
  | .hbm, ⟨104, _⟩ => ⟨S850000x1, .i32⟩
  | .hbm, ⟨105, _⟩ => ⟨S50000x256, .f32⟩
  | .hbm, ⟨106, _⟩ => ⟨S1x256, .f32⟩
  | .hbm, ⟨107, _⟩ => ⟨S50000x256, .f32⟩
  | .hbm, ⟨108, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x256, .f32⟩
  | .local _ .vmem, ⟨13, _⟩ => ⟨S5000x256, .f32⟩
  | .local _ .vmem, ⟨14, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_14 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 175
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256x128, .f32⟩
  | 5 => ⟨S128, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S50000x256, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x256, .f32⟩
  | 56 => ⟨S850000x1, .f32⟩
  | 57 => ⟨S850000x256, .f32⟩
  | 58 => ⟨S850000x256, .f32⟩
  | 59 => ⟨S_, .f32⟩
  | 60 => ⟨S50000x256, .f32⟩
  | 61 => ⟨S850000x1, .i32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S_, .f32⟩
  | 70 => ⟨S850000, .f32⟩
  | 71 => ⟨S_, .f32⟩
  | 72 => ⟨S50000, .f32⟩
  | 73 => ⟨S850000x1, .i32⟩
  | 74 => ⟨S50000, .f32⟩
  | 75 => ⟨S_, .f32⟩
  | 76 => ⟨S50000, .f32⟩
  | 77 => ⟨S50000, .i1⟩
  | 78 => ⟨S50000, .f32⟩
  | 79 => ⟨S_, .f32⟩
  | 80 => ⟨S_, .f32⟩
  | 81 => ⟨S50000, .f32⟩
  | 82 => ⟨S50000, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S850000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S850000, .f32⟩
  | 102 => ⟨S50000x128, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x128, .f32⟩
  | 112 => ⟨S850000x1, .f32⟩
  | 113 => ⟨S850000x128, .f32⟩
  | 114 => ⟨S850000x128, .f32⟩
  | 115 => ⟨S_, .f32⟩
  | 116 => ⟨S50000x128, .f32⟩
  | 117 => ⟨S850000x1, .i32⟩
  | 118 => ⟨S50000x128, .f32⟩
  | 119 => ⟨S1x128, .f32⟩
  | 120 => ⟨S50000x128, .f32⟩
  | 121 => ⟨S50000x128, .f32⟩
  | 122 => ⟨S_, .f32⟩
  | 123 => ⟨S850000, .f32⟩
  | 124 => ⟨S_, .f32⟩
  | 125 => ⟨S50000, .f32⟩
  | 126 => ⟨S850000x1, .i32⟩
  | 127 => ⟨S50000, .f32⟩
  | _ => ⟨S50000x128, .f32⟩

abbrev hbmTy0_1 (i : Nat) : BufTy := match i % 128 with
  | 0 => ⟨S_, .f32⟩
  | 1 => ⟨S50000, .f32⟩
  | 2 => ⟨S50000, .i1⟩
  | 3 => ⟨S50000, .f32⟩
  | 4 => ⟨S_, .f32⟩
  | 5 => ⟨S_, .f32⟩
  | 6 => ⟨S50000, .f32⟩
  | 7 => ⟨S50000, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000, .f32⟩
  | 17 => ⟨S_, .i32⟩
  | 18 => ⟨S850000, .i32⟩
  | 19 => ⟨S850000, .i1⟩
  | 20 => ⟨S_, .i32⟩
  | 21 => ⟨S850000, .i32⟩
  | 22 => ⟨S850000, .i32⟩
  | 23 => ⟨S850000, .i32⟩
  | 24 => ⟨S850000x1, .i32⟩
  | 25 => ⟨S850000, .f32⟩
  | 26 => ⟨S850000, .f32⟩
  | 27 => ⟨S50000x256, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000x256, .f32⟩
  | 37 => ⟨S850000x1, .f32⟩
  | 38 => ⟨S850000x256, .f32⟩
  | 39 => ⟨S850000x256, .f32⟩
  | 40 => ⟨S_, .f32⟩
  | 41 => ⟨S50000x256, .f32⟩
  | 42 => ⟨S850000x1, .i32⟩
  | 43 => ⟨S50000x256, .f32⟩
  | 44 => ⟨S1x256, .f32⟩
  | 45 => ⟨S50000x256, .f32⟩
  | 46 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_20 : Ref sig .tc := ⟨.hbm, 122, rfl⟩
abbrev main_v88 : Ref sig .tc := ⟨.hbm, 123, rfl⟩
abbrev main_cst_21 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_22 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_23 : Ref sig .tc := ⟨.hbm, 132, rfl⟩
abbrev main_call3_v0 : Ref sig .tc := ⟨.hbm, 133, rfl⟩
abbrev main_call3_v1 : Ref sig .tc := ⟨.hbm, 134, rfl⟩
abbrev main_v95 : Ref sig .tc := ⟨.hbm, 135, rfl⟩
abbrev main_c_24 : Ref sig .tc := ⟨.hbm, 136, rfl⟩
abbrev main_v96 : Ref sig .tc := ⟨.hbm, 137, rfl⟩
abbrev main_v97 : Ref sig .tc := ⟨.hbm, 138, rfl⟩
abbrev main_c_25 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_c_26 : Ref sig .tc := ⟨.hbm, 145, rfl⟩
abbrev main_v103 : Ref sig .tc := ⟨.hbm, 146, rfl⟩
abbrev main_v104 : Ref sig .tc := ⟨.hbm, 147, rfl⟩
abbrev main_c_27 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_c_28 : Ref sig .tc := ⟨.hbm, 156, rfl⟩
abbrev main_v112 : Ref sig .tc := ⟨.hbm, 157, rfl⟩
abbrev main_v113 : Ref sig .tc := ⟨.hbm, 158, rfl⟩
abbrev main_c_29 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_30 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The kernel's run with its result named. The program is ten segments — host operations, then the three row-blocked
  products each followed by host operations — and the library's theorem for such a program says that every weakly fair
  execution terminates, nothing faulting, with every unscoped buffer at the contents the segments' fold reaches
  (the last boundary's valuation). The frame claim reads the six argument buffers off that final valuation; here the
  result buffer is read off it too: it ends at the last boundary's contents of the result buffer, which the following
  modules compute from the arguments.
-/
import proofs.«165587_j32126355374294_1_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting; the result buffer ends at the last
    boundary's contents and the six argument buffers as launched. -/
theorem run_result : θ_run defs (onTc (τ := τ) (main (F := F))) ⟨m, fun _ => 0, ρ⟩ (fun r => ∀ c : Dev nD,
      r.2.mem ((c.tc : Thread nD τ).loc main_v81) = W10 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v81 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.WholeRun

end
-- ==== Proof.Layers.lean ====
/-
  The host side of a graph convolution, as pure functions of arrays. With `src`, `dst` the endpoint lists of the
  edges followed by one self loop per node, `deg` the number of edges arriving at each node, and
  `w(e) = deg(src e)^(-1/2) · deg(dst e)^(-1/2)` (0 where a degree is 0), a layer sends a node-feature matrix `h` to
  `out[v] = Σ_{e : dst e = v} h[src e] · w(e) + b`: gather the source rows, scale by the edge weight, add up at the
  targets, add the bias. The network is three such layers — 128 → 256 with a rectifier, 256 → 128, 128 → 256 again with the
  first layer's weight and bias — each applied to the product of the features with the layer's weight matrix.
  Both programs compute exactly these functions around their matrix products; they are stated once here.
-/
import proofs.«165587_j32126355374294_1_alg».proof.Proof.Gen.ReferenceIdeal

noncomputable section

namespace Cert.Layers

open Idealize.ShloMosaic Idealize.ShloMosaic.TcCoe Idealize.SL.Sem
open Cert.ReferenceIdeal Cert.ReferenceIdeal.Facts₀

variable {F : FTy → Type} [FloatOps F]

/-- Source endpoints: row 0 of the edge list, then every node once (the self loops). -/
def sources (e : (⟨S2x800000, .i32⟩ : BufTy).Contents (Elt F)) : (⟨S850000, .i32⟩ : BufTy).Contents (Elt F) :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0

/-- Target endpoints: row 1 of the edge list, then every node once. -/
def targets (e : (⟨S2x800000, .i32⟩ : BufTy).Contents (Elt F)) : (⟨S850000, .i32⟩ : BufTy).Contents (Elt F) :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- The number of edges arriving at each node: a one added at every target. -/
def degree (dst : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant (F := F) S_ .f32 0x00000000#32))
    (broadcastInDim S850000x1 ![0] bcast_S850000_S850000x1_0 dst) (broadcastInDim S850000 ![] bcast_S_S850000 (constant (F := F) S_ .f32 0x3F800000#32))

/-- `deg^(-1/2)` where the degree is positive, 0 elsewhere. -/
def invSqrtDegree (dst : (⟨S850000, .i32⟩ : BufTy).Contents (Elt F)) : (⟨S50000, .f32⟩ : BufTy).Contents (Elt F) :=
  select (cmpf .ogt (degree dst) (broadcastInDim S50000 ![] bcast_S_S50000 (constant (F := F) S_ .f32 0x00000000#32))) (Host.rsqrt (degree dst))
    (broadcastInDim S50000 ![] bcast_S_S50000 (constant (F := F) S_ .f32 0x00000000#32))

/-- A node index below zero counts from the end: 50000 is added to it. -/
def wrapped (ix : (⟨S850000, .i32⟩ : BufTy).Contents (Elt F)) : (⟨S850000, .i32⟩ : BufTy).Contents (Elt F) :=
  select (cmpi .slt ix (broadcastInDim S850000 ![] bcast_S_S850000 (constantI S_ 32 0#32)))
    (addi ix (broadcastInDim S850000 ![] bcast_S_S850000 (constantI S_ 32 50000#32))) ix

/-- The weight of each edge from a per-node factor `f`: the product of the factor at its two endpoints. -/
def weightsFrom (f : (⟨S50000, .f32⟩ : BufTy).Contents (Elt F)) (src dst : (⟨S850000, .i32⟩ : BufTy).Contents (Elt F)) : (⟨S850000, .f32⟩ : BufTy).Contents (Elt F) :=
  mulf (Host.gather gather_S50000_S850000x1_S850000_n_0_n_n_0_1_1 f (broadcastInDim S850000x1 ![0] bcast_S850000_S850000x1_0 (wrapped (F := F) src)))
    (Host.gather gather_S50000_S850000x1_S850000_n_0_n_n_0_1_1 f (broadcastInDim S850000x1 ![0] bcast_S850000_S850000x1_0 (wrapped (F := F) dst)))

/-- The weight of each edge: the product of its two endpoints' `deg^(-1/2)`. -/
def edgeWeights (src dst : (⟨S850000, .i32⟩ : BufTy).Contents (Elt F)) : (⟨S850000, .f32⟩ : BufTy).Contents (Elt F) :=
  weightsFrom (invSqrtDegree (F := F) dst) src dst

/-- One layer's aggregation at width 256: the source rows of `h`, each scaled by its edge's weight, added up at the
    targets, plus the bias on every row. -/
def aggregate256 (h : (⟨S50000x256, .f32⟩ : BufTy).Contents (Elt F)) (src dst : (⟨S850000, .i32⟩ : BufTy).Contents (Elt F))
    (w : (⟨S850000, .f32⟩ : BufTy).Contents (Elt F)) (b : (⟨S256, .f32⟩ : BufTy).Contents (Elt F)) : (⟨S50000x256, .f32⟩ : BufTy).Contents (Elt F) :=
  addf (Host.scatterAdd scatter_S50000x256_S850000x1_S850000x256_1_0_0_1 (broadcastInDim S50000x256 ![] bcast_S_S50000x256 (constant (F := F) S_ .f32 0x00000000#32))
      (broadcastInDim S850000x1 ![0] bcast_S850000_S850000x1_0 dst)
      (mulf (Host.gather gather_S50000x256_S850000x1_S850000x256_1_0_n_n_0_1_1256 h (broadcastInDim S850000x1 ![0] bcast_S850000_S850000x1_0 (wrapped (F := F) src)))
        (broadcastInDim S850000x256 ![0, 1] bcast_S850000x1_S850000x256_0_1 (broadcastInDim S850000x1 ![0] bcast_S850000_S850000x1_0 w))))
    (broadcastInDim S50000x256 ![0, 1] bcast_S1x256_S50000x256_0_1 (broadcastInDim S1x256 ![1] bcast_S256_S1x256_1 b))

/-- The same at width 128. -/
def aggregate128 (h : (⟨S50000x128, .f32⟩ : BufTy).Contents (Elt F)) (src dst : (⟨S850000, .i32⟩ : BufTy).Contents (Elt F))
    (w : (⟨S850000, .f32⟩ : BufTy).Contents (Elt F)) (b : (⟨S128, .f32⟩ : BufTy).Contents (Elt F)) : (⟨S50000x128, .f32⟩ : BufTy).Contents (Elt F) :=
  addf (Host.scatterAdd scatter_S50000x128_S850000x1_S850000x128_1_0_0_1 (broadcastInDim S50000x128 ![] bcast_S_S50000x128 (constant (F := F) S_ .f32 0x00000000#32))
      (broadcastInDim S850000x1 ![0] bcast_S850000_S850000x1_0 dst)
      (mulf (Host.gather gather_S50000x128_S850000x1_S850000x128_1_0_n_n_0_1_1128 h (broadcastInDim S850000x1 ![0] bcast_S850000_S850000x1_0 (wrapped (F := F) src)))
        (broadcastInDim S850000x128 ![0, 1] bcast_S850000x1_S850000x128_0_1 (broadcastInDim S850000x1 ![0] bcast_S850000_S850000x1_0 w))))
    (broadcastInDim S50000x128 ![0, 1] bcast_S1x128_S50000x128_0_1 (broadcastInDim S1x128 ![1] bcast_S128_S1x128_1 b))

/-- The rectifier: the larger of each entry and 0. -/
def rectified (z : (⟨S50000x256, .f32⟩ : BufTy).Contents (Elt F)) : (⟨S50000x256, .f32⟩ : BufTy).Contents (Elt F) :=
  maximumf z (broadcastInDim S50000x256 ![] bcast_S_S50000x256 (constant (F := F) S_ .f32 0x00000000#32))

/-- The two matrix products of the network: features (· × 128) with the first weight, features (· × 256) with the second. -/
def product1 (X : (⟨S50000x128, .f32⟩ : BufTy).Contents (Elt F)) (W1 : (⟨S128x256, .f32⟩ : BufTy).Contents (Elt F)) : (⟨S50000x256, .f32⟩ : BufTy).Contents (Elt F) :=
  Host.dotGeneral dot_S50000x128_S128x256_S50000x256_1_0_0_1_n_n none X W1
def product2 (H : (⟨S50000x256, .f32⟩ : BufTy).Contents (Elt F)) (W2 : (⟨S256x128, .f32⟩ : BufTy).Contents (Elt F)) : (⟨S50000x128, .f32⟩ : BufTy).Contents (Elt F) :=
  Host.dotGeneral dot_S50000x256_S256x128_S50000x128_1_0_0_1_n_n none H W2

/-- The three layers on the products `p1`, `p2`, `p3` (each product a function of the features it is applied to), with the
    edge lists and weights `src`, `dst`, `w` shared. -/
def threeLayers (p1 : (⟨S50000x128, .f32⟩ : BufTy).Contents (Elt F) → (⟨S50000x256, .f32⟩ : BufTy).Contents (Elt F))
    (p2 : (⟨S50000x256, .f32⟩ : BufTy).Contents (Elt F) → (⟨S50000x128, .f32⟩ : BufTy).Contents (Elt F))
    (p3 : (⟨S50000x128, .f32⟩ : BufTy).Contents (Elt F) → (⟨S50000x256, .f32⟩ : BufTy).Contents (Elt F))
    (x : (⟨S50000x128, .f32⟩ : BufTy).Contents (Elt F)) (src dst : (⟨S850000, .i32⟩ : BufTy).Contents (Elt F)) (w : (⟨S850000, .f32⟩ : BufTy).Contents (Elt F))
    (b1 : (⟨S256, .f32⟩ : BufTy).Contents (Elt F)) (b2 : (⟨S128, .f32⟩ : BufTy).Contents (Elt F)) : (⟨S50000x256, .f32⟩ : BufTy).Contents (Elt F) :=
  aggregate256 (p3 (aggregate128 (p2 (rectified (aggregate256 (p1 x) src dst w b1))) src dst w b2)) src dst w b1

/-- The network of the arguments: features `x`, edge list `e`, weights and biases. -/
def network (x : (⟨S50000x128, .f32⟩ : BufTy).Contents (Elt F)) (e : (⟨S2x800000, .i32⟩ : BufTy).Contents (Elt F))
    (W1 : (⟨S128x256, .f32⟩ : BufTy).Contents (Elt F)) (b1 : (⟨S256, .f32⟩ : BufTy).Contents (Elt F))
    (W2 : (⟨S256x128, .f32⟩ : BufTy).Contents (Elt F)) (b2 : (⟨S128, .f32⟩ : BufTy).Contents (Elt F)) : (⟨S50000x256, .f32⟩ : BufTy).Contents (Elt F) :=
  threeLayers (product1 · W1) (product2 · W2) (product1 · W1) x (sources e) (targets e) (edgeWeights (sources e) (targets e)) b1 b2

end Cert.Layers

end
-- ==== Proof.RowBlocks0.lean ====
/-
  Region 0 multiplies the node features by the first weight matrix, 5000 rows at a time. Grid point `t` reads rows
  5000·t … 5000·t + 4999 of the 50000 × 128 array and the whole 128 × 256 weight, and writes the same rows of the
  50000 × 256 result. At the ideal values the change of format to bf16 is the identity and a product into the zero
  accumulator is the plain sum over the 128 contracted positions, so entry (r, j) of point `t`'s block is
  Σ_k x[5000·t + r, k] · w[k, j] — entry (5000·t + r, j) of the ONE whole product of the two arrays. The ten blocks tile
  the rows (row `i` lies in block `i / 5000`), so the array the region leaves is the whole product of the arrays it found.
-/
import proofs.«165587_j32126355374294_1_alg».proof.Proof.Gen.KernelIdeal.Frame
import proofs.«165587_j32126355374294_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.RowBlocks0

open Idealize.ShloMosaic Idealize.ShloMosaic.TcCoe Idealize.SL.Sem
open Idealize.ShloMosaic.Pipeline (Dat)
open Cert.KernelIdeal Cert.KernelIdeal.Gen

/-! ## One entry of a product, as a sum over the contracted axis -/

/-- Row `i 0`, position `k` of a 50000 × 128 array. -/
abbrev rowAt (i : S50000x256.Idx) (k : Fin 128) : S50000x128.Idx := fun a => match a with
  | ⟨0, _⟩ => ⟨(i 0).val, (i 0).isLt⟩
  | ⟨1, _⟩ => ⟨k.val, k.isLt⟩
/-- Position `k`, column `i 1` of the 128 × 256 weight. -/
abbrev colAt (i : S50000x256.Idx) (k : Fin 128) : S128x256.Idx := fun a => match a with
  | ⟨0, _⟩ => ⟨k.val, k.isLt⟩
  | ⟨1, _⟩ => ⟨(i 1).val, (i 1).isLt⟩
/-- The same two inside a 5000-row block. -/
abbrev blockRowAt (y : S5000x256.Idx) (k : Fin 128) : S5000x128.Idx := fun a => match a with
  | ⟨0, _⟩ => ⟨(y 0).val, (y 0).isLt⟩
  | ⟨1, _⟩ => ⟨k.val, k.isLt⟩
abbrev blockColAt (y : S5000x256.Idx) (k : Fin 128) : S128x256.Idx := fun a => match a with
  | ⟨0, _⟩ => ⟨k.val, k.isLt⟩
  | ⟨1, _⟩ => ⟨(y 1).val, (y 1).isLt⟩

/-- The whole product of a 50000 × 128 array with the 128 × 256 weight. -/
abbrev wholeProduct (X : FVec Ideal S50000x128 .f32) (Wt : FVec Ideal S128x256 .f32) :
    FVec Ideal S50000x256 .f32 :=
  Host.dotGeneral (F := Ideal) Cert.ReferenceIdeal.dot_S50000x128_S128x256_S50000x256_1_0_0_1_n_n none X Wt

theorem whole_lhs_row (i : S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 0).val = (i 0).val := by
  unfold DotDims.lhsIdx
  rw [dif_neg (show ¬(0 : Fin S50000x128.rank) ∈ Cert.ReferenceIdeal.dot_S50000x128_S128x256_S50000x256_1_0_0_1_n_n.lhsBatch by decide), dif_pos (show (0 : Fin S50000x128.rank) ∈ Cert.ReferenceIdeal.dot_S50000x128_S128x256_S50000x256_1_0_0_1_n_n.lhsNonContracting by decide)]
  rfl
theorem whole_lhs_pos (i : S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 1).val = (q ⟨0, by decide⟩).val :=
  Cert.ReferenceIdeal.dot_S50000x128_S128x256_S50000x256_1_0_0_1_n_n.lhsIdx_val_of_single rfl i q
theorem whole_rhs_pos (i : S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 0).val = (q ⟨0, by decide⟩).val :=
  Cert.ReferenceIdeal.dot_S50000x128_S128x256_S50000x256_1_0_0_1_n_n.rhsIdx_val_of_single rfl i q
theorem whole_rhs_col (i : S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 1).val = (i 1).val := by
  unfold DotDims.rhsIdx
  rw [dif_neg (show ¬(1 : Fin S128x256.rank) ∈ Cert.ReferenceIdeal.dot_S50000x128_S128x256_S50000x256_1_0_0_1_n_n.rhsBatch by decide), dif_pos (show (1 : Fin S128x256.rank) ∈ Cert.ReferenceIdeal.dot_S50000x128_S128x256_S50000x256_1_0_0_1_n_n.rhsNonContracting by decide)]
  rfl

/-- Entry `i` of the whole product: the sum over the 128 positions of row `i 0` against column `i 1`. -/
theorem wholeProduct_apply (X : FVec Ideal S50000x128 .f32) (Wt : FVec Ideal S128x256 .f32) (i : S50000x256.Idx) :
    wholeProduct X Wt i = ∑ k : Fin 128, X (rowAt i k) * Wt (colAt i k) := by
  unfold wholeProduct
  simp only [Host.dotGeneral]
  rw [Ideal.dotGeneral_apply, ← Equiv.sum_comp (ValueIdx.contrEquiv1 Cert.ReferenceIdeal.dot_S50000x128_S128x256_S50000x256_1_0_0_1_n_n 128 rfl rfl).symm]
  refine Finset.sum_congr rfl fun k _ => ?_
  have hk := ValueIdx.contrEquiv1_symm_val Cert.ReferenceIdeal.dot_S50000x128_S128x256_S50000x256_1_0_0_1_n_n 128 rfl rfl k
  have el : Cert.ReferenceIdeal.dot_S50000x128_S128x256_S50000x256_1_0_0_1_n_n.lhsIdx i ((ValueIdx.contrEquiv1 Cert.ReferenceIdeal.dot_S50000x128_S128x256_S50000x256_1_0_0_1_n_n 128 rfl rfl).symm k) = rowAt i k := funext fun a => Fin.ext (by
    match a with
    | ⟨0, _⟩ => exact whole_lhs_row _ _
    | ⟨1, _⟩ => exact (whole_lhs_pos _ _).trans hk)
  have er : Cert.ReferenceIdeal.dot_S50000x128_S128x256_S50000x256_1_0_0_1_n_n.rhsIdx i ((ValueIdx.contrEquiv1 Cert.ReferenceIdeal.dot_S50000x128_S128x256_S50000x256_1_0_0_1_n_n 128 rfl rfl).symm k) = colAt i k := funext fun a => Fin.ext (by
    match a with
    | ⟨0, _⟩ => exact (whole_rhs_pos _ _).trans hk
    | ⟨1, _⟩ => exact whole_rhs_col _ _)
  rw [el, er]

theorem block_lhs_row (y : S5000x256.Idx) (q : dot_S5000x128_S128x256_S5000x256_1_0_0_1_n_n.contr.Idx) :
    (dot_S5000x128_S128x256_S5000x256_1_0_0_1_n_n.lhsIdx y q 0).val = (y 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem block_lhs_pos (y : S5000x256.Idx) (q : dot_S5000x128_S128x256_S5000x256_1_0_0_1_n_n.contr.Idx) :
    (dot_S5000x128_S128x256_S5000x256_1_0_0_1_n_n.lhsIdx y q 1).val = (q ⟨0, by decide⟩).val :=
  dot_S5000x128_S128x256_S5000x256_1_0_0_1_n_n.lhsIdx_val_of_single rfl y q
theorem block_rhs_pos (y : S5000x256.Idx) (q : dot_S5000x128_S128x256_S5000x256_1_0_0_1_n_n.contr.Idx) :
    (dot_S5000x128_S128x256_S5000x256_1_0_0_1_n_n.rhsIdx y q 0).val = (q ⟨0, by decide⟩).val :=
  dot_S5000x128_S128x256_S5000x256_1_0_0_1_n_n.rhsIdx_val_of_single rfl y q
theorem block_rhs_col (y : S5000x256.Idx) (q : dot_S5000x128_S128x256_S5000x256_1_0_0_1_n_n.contr.Idx) :
    (dot_S5000x128_S128x256_S5000x256_1_0_0_1_n_n.rhsIdx y q 1).val = (y 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- Entry `y` of a block's product into the zero accumulator, the operands passed through the change of format (the
    identity at the ideal values): the same sum, over the block's row. -/
theorem blockProduct_apply (x0 : Vec Ideal S5000x128 .f32) (x1 : Vec Ideal S128x256 .f32) (y : S5000x256.Idx) :
    matmul (F := Ideal) dot_S5000x128_S128x256_S5000x256_1_0_0_1_n_n none (truncf .bf16 x0 bitsLt_bf16_f32) (truncf .bf16 x1 bitsLt_bf16_f32)
        (constant S5000x256 .f32 0x00000000#32) y
      = ∑ k : Fin 128, x0 (blockRowAt y k) * x1 (blockColAt y k) := by
  simp only [matmul]
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx y ((ValueIdx.contrEquiv1 dot_S5000x128_S128x256_S5000x256_1_0_0_1_n_n 128 rfl rfl).symm k) = blockRowAt y k := funext fun a => Fin.ext (by
    match a with
    | ⟨0, _⟩ => exact block_lhs_row _ _
    | ⟨1, _⟩ => exact (block_lhs_pos _ _).trans hk)
  have er : dot_S5000x128_S128x256_S5000x256_1_0_0_1_n_n.rhsIdx y ((ValueIdx.contrEquiv1 dot_S5000x128_S128x256_S5000x256_1_0_0_1_n_n 128 rfl rfl).symm k) = blockColAt y k := funext fun a => Fin.ext (by
    match a with
    | ⟨0, _⟩ => exact (block_rhs_pos _ _).trans hk
    | ⟨1, _⟩ => exact block_rhs_col _ _)
  show truncf (F := Ideal) .bf16 x0 bitsLt_bf16_f32 _ * truncf (F := Ideal) .bf16 x1 bitsLt_bf16_f32 _ = _
  rw [el, er]
  rfl

/-! ## From the ten blocks to the array -/

theorem origin : (![0, 0] : Fin 2 → Nat) = fun _ => 0 := funext fun a => by fin_cases a <;> rfl

/-- The printed index maps over the ten points: the feature window and the result window sit at row block `t`, the weight
    window at its one block. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

-- the buffer contents the region is entered with
variable (V : (c : Dev nD) → (b : Ref sig .tc) → Buf (Elt Ideal) ((c : Thread nD τ).loc b))

/-- What point `t` writes back is rows 5000·t … 5000·t + 4999 of the whole product of the two arrays the region found. -/
theorem flushed_block (c : Dev nD) (t : Fin cfg0.N) :
    (dat0 (F := Ideal) V c).flushed 2 t
      = ((cfg0.win 2).blk t).view.read (Elt Ideal) (wholeProduct (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x256) origin]
  obtain ⟨e0, e1, e2, e3, e4, e5⟩ := index_maps t
  funext j
  show k0_pay1 (iblk0 V c 0 t) (iblk0 V c 1 t) j = wholeProduct (V c main_arg0) (V c main_arg2) (((cfg0.win 2).blk t).view.emb j)
  rw [wholeProduct_apply]
  refine (blockProduct_apply _ _ j).trans ?_
  refine Finset.sum_congr rfl fun k _ => ?_
  have h0 : iblk0 V c 0 t (blockRowAt j k) = V c main_arg0 (rowAt (((cfg0.win 2).blk t).view.emb j) k) := by
    show V c main_arg0 (((cfg0.win 0).blk t).view.emb (blockRowAt j k)) = _
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : iblk0 V c 1 t (blockColAt j k) = V c main_arg2 (colAt (((cfg0.win 2).blk t).view.emb j) k) := by
    show V c main_arg2 (((cfg0.win 1).blk t).view.emb (blockColAt j k)) = _
    refine congrArg _ (funext fun a => Fin.ext ?_)
    match a with
    | ⟨0, _⟩ => show win0_1.index t (0 : Fin 2) * 128 + 1 * k.val = k.val; omega
    | ⟨1, _⟩ => show win0_1.index t (1 : Fin 2) * 256 + 1 * (j 1).val = win0_2.index t (1 : Fin 2) * 256 + 1 * (j 1).val; omega
  rw [h0, h1]

/-- An index of the result array is in point `t`'s block iff each coordinate is in the block's range on its axis. -/
theorem mem_block (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v30).slice (win0_2.rect t)).set ↔ _
  rw [View.set_slice_whole, Rect.mem_set_unit]
  exact Iff.rfl

/-- The blocks tile the rows: row `i 0` lies in the block of point `i 0 / 5000`. -/
theorem rows_covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : (i 0).val / 5000 < grid0.N := by rw [N_0]; omega
  obtain ⟨e0, e1, e2, e3, e4, e5⟩ := index_maps ⟨(i 0).val / 5000, hN⟩
  refine ⟨⟨(i 0).val / 5000, hN⟩, flush0_2 _, ?_⟩
  rw [mem_block]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hN⟩ (1 : Fin 2) * 256 ≤ (i 1).val ∧ (i 1).val < win0_2.index ⟨(i 0).val / 5000, hN⟩ (1 : Fin 2) * 256 + 256
    rw [e5]; omega

/-- The array region 0 leaves: the whole product of the feature array and the weight it was entered with. -/
theorem product_array (c : Dev nD) :
    (dat0 (F := Ideal) V c).arrAt 2 cfg0.N = wholeProduct (V c main_arg0) (V c main_arg2) :=
  (dat0 V c).arrAt_eq_of_cover 2 _ (fun t _ => flushed_block V c t) rows_covered

end Cert.KernelIdeal.RowBlocks0

end
-- ==== Proof.RowBlocks1.lean ====
/-
  Region 1 multiplies the first layer's output after the rectifier (50000 × 256) by the second weight matrix
  (256 × 128), 5000 rows at a time: point `t` reads rows 5000·t … 5000·t + 4999 and the whole weight and writes the same
  rows of the 50000 × 128 result. At the ideal values the change of format to bf16 is the identity, the reshaping of the
  loaded block to its own shape is the identity, and a product into the zero accumulator is the plain sum over the 256
  contracted positions; so entry (r, j) of point `t`'s block is Σ_k h[5000·t + r, k] · w[k, j], entry (5000·t + r, j) of
  the ONE whole product. The ten blocks tile the rows, so the array the region leaves is the whole product.
-/
import proofs.«165587_j32126355374294_1_alg».proof.Proof.Gen.KernelIdeal.Frame
import proofs.«165587_j32126355374294_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.RowBlocks1

open Idealize.ShloMosaic Idealize.ShloMosaic.TcCoe Idealize.SL.Sem
open Idealize.ShloMosaic.Pipeline (Dat)
open Cert.KernelIdeal Cert.KernelIdeal.Gen

/-! ## One entry of a product, as a sum over the contracted axis -/

/-- Row `i 0`, position `k` of a 50000 × 256 array. -/
abbrev rowAt (i : S50000x128.Idx) (k : Fin 256) : S50000x256.Idx := fun a => match a with
  | ⟨0, _⟩ => ⟨(i 0).val, (i 0).isLt⟩
  | ⟨1, _⟩ => ⟨k.val, k.isLt⟩
/-- Position `k`, column `i 1` of the 256 × 128 weight. -/
abbrev colAt (i : S50000x128.Idx) (k : Fin 256) : S256x128.Idx := fun a => match a with
  | ⟨0, _⟩ => ⟨k.val, k.isLt⟩
  | ⟨1, _⟩ => ⟨(i 1).val, (i 1).isLt⟩
/-- The same two inside a 5000-row block. -/
abbrev blockRowAt (y : S5000x128.Idx) (k : Fin 256) : S5000x256.Idx := fun a => match a with
  | ⟨0, _⟩ => ⟨(y 0).val, (y 0).isLt⟩
  | ⟨1, _⟩ => ⟨k.val, k.isLt⟩
abbrev blockColAt (y : S5000x128.Idx) (k : Fin 256) : S256x128.Idx := fun a => match a with
  | ⟨0, _⟩ => ⟨k.val, k.isLt⟩
  | ⟨1, _⟩ => ⟨(y 1).val, (y 1).isLt⟩

/-- The whole product of a 50000 × 256 array with the 256 × 128 weight. -/
abbrev wholeProduct (X : FVec Ideal S50000x256 .f32) (Wt : FVec Ideal S256x128 .f32) :
    FVec Ideal S50000x128 .f32 :=
  Host.dotGeneral (F := Ideal) Cert.ReferenceIdeal.dot_S50000x256_S256x128_S50000x128_1_0_0_1_n_n none X Wt

theorem whole_lhs_row (i : S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 0).val = (i 0).val := by
  unfold DotDims.lhsIdx
  rw [dif_neg (show ¬(0 : Fin S50000x256.rank) ∈ Cert.ReferenceIdeal.dot_S50000x256_S256x128_S50000x128_1_0_0_1_n_n.lhsBatch by decide), dif_pos (show (0 : Fin S50000x256.rank) ∈ Cert.ReferenceIdeal.dot_S50000x256_S256x128_S50000x128_1_0_0_1_n_n.lhsNonContracting by decide)]
  rfl
theorem whole_lhs_pos (i : S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 1).val = (q ⟨0, by decide⟩).val :=
  Cert.ReferenceIdeal.dot_S50000x256_S256x128_S50000x128_1_0_0_1_n_n.lhsIdx_val_of_single rfl i q
theorem whole_rhs_pos (i : S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 0).val = (q ⟨0, by decide⟩).val :=
  Cert.ReferenceIdeal.dot_S50000x256_S256x128_S50000x128_1_0_0_1_n_n.rhsIdx_val_of_single rfl i q
theorem whole_rhs_col (i : S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 1).val = (i 1).val := by
  unfold DotDims.rhsIdx
  rw [dif_neg (show ¬(1 : Fin S256x128.rank) ∈ Cert.ReferenceIdeal.dot_S50000x256_S256x128_S50000x128_1_0_0_1_n_n.rhsBatch by decide), dif_pos (show (1 : Fin S256x128.rank) ∈ Cert.ReferenceIdeal.dot_S50000x256_S256x128_S50000x128_1_0_0_1_n_n.rhsNonContracting by decide)]
  rfl

/-- Entry `i` of the whole product: the sum over the 256 positions of row `i 0` against column `i 1`. -/
theorem wholeProduct_apply (X : FVec Ideal S50000x256 .f32) (Wt : FVec Ideal S256x128 .f32) (i : S50000x128.Idx) :
    wholeProduct X Wt i = ∑ k : Fin 256, X (rowAt i k) * Wt (colAt i k) := by
  unfold wholeProduct
  simp only [Host.dotGeneral]
  rw [Ideal.dotGeneral_apply, ← Equiv.sum_comp (ValueIdx.contrEquiv1 Cert.ReferenceIdeal.dot_S50000x256_S256x128_S50000x128_1_0_0_1_n_n 256 rfl rfl).symm]
  refine Finset.sum_congr rfl fun k _ => ?_
  have hk := ValueIdx.contrEquiv1_symm_val Cert.ReferenceIdeal.dot_S50000x256_S256x128_S50000x128_1_0_0_1_n_n 256 rfl rfl k
  have el : Cert.ReferenceIdeal.dot_S50000x256_S256x128_S50000x128_1_0_0_1_n_n.lhsIdx i ((ValueIdx.contrEquiv1 Cert.ReferenceIdeal.dot_S50000x256_S256x128_S50000x128_1_0_0_1_n_n 256 rfl rfl).symm k) = rowAt i k := funext fun a => Fin.ext (by
    match a with
    | ⟨0, _⟩ => exact whole_lhs_row _ _
    | ⟨1, _⟩ => exact (whole_lhs_pos _ _).trans hk)
  have er : Cert.ReferenceIdeal.dot_S50000x256_S256x128_S50000x128_1_0_0_1_n_n.rhsIdx i ((ValueIdx.contrEquiv1 Cert.ReferenceIdeal.dot_S50000x256_S256x128_S50000x128_1_0_0_1_n_n 256 rfl rfl).symm k) = colAt i k := funext fun a => Fin.ext (by
    match a with
    | ⟨0, _⟩ => exact (whole_rhs_pos _ _).trans hk
    | ⟨1, _⟩ => exact whole_rhs_col _ _)
  rw [el, er]

theorem block_lhs_row (y : S5000x128.Idx) (q : dot_S5000x256_S256x128_S5000x128_1_0_0_1_n_n.contr.Idx) :
    (dot_S5000x256_S256x128_S5000x128_1_0_0_1_n_n.lhsIdx y q 0).val = (y 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem block_lhs_pos (y : S5000x128.Idx) (q : dot_S5000x256_S256x128_S5000x128_1_0_0_1_n_n.contr.Idx) :
    (dot_S5000x256_S256x128_S5000x128_1_0_0_1_n_n.lhsIdx y q 1).val = (q ⟨0, by decide⟩).val :=
  dot_S5000x256_S256x128_S5000x128_1_0_0_1_n_n.lhsIdx_val_of_single rfl y q
theorem block_rhs_pos (y : S5000x128.Idx) (q : dot_S5000x256_S256x128_S5000x128_1_0_0_1_n_n.contr.Idx) :
    (dot_S5000x256_S256x128_S5000x128_1_0_0_1_n_n.rhsIdx y q 0).val = (q ⟨0, by decide⟩).val :=
  dot_S5000x256_S256x128_S5000x128_1_0_0_1_n_n.rhsIdx_val_of_single rfl y q
theorem block_rhs_col (y : S5000x128.Idx) (q : dot_S5000x256_S256x128_S5000x128_1_0_0_1_n_n.contr.Idx) :
    (dot_S5000x256_S256x128_S5000x128_1_0_0_1_n_n.rhsIdx y q 1).val = (y 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Entry `y` of a block's product into the zero accumulator, the operands passed through the change of format (the
    identity at the ideal values): the same sum, over the block's row. -/
theorem blockProduct_apply (x0 : Vec Ideal S5000x256 .f32) (x1 : Vec Ideal S256x128 .f32) (y : S5000x128.Idx) :
    matmul (F := Ideal) dot_S5000x256_S256x128_S5000x128_1_0_0_1_n_n none (truncf .bf16 x0 bitsLt_bf16_f32) (truncf .bf16 x1 bitsLt_bf16_f32)
        (constant S5000x128 .f32 0x00000000#32) y
      = ∑ k : Fin 256, x0 (blockRowAt y k) * x1 (blockColAt y k) := by
  simp only [matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx y ((ValueIdx.contrEquiv1 dot_S5000x256_S256x128_S5000x128_1_0_0_1_n_n 256 rfl rfl).symm k) = blockRowAt y k := funext fun a => Fin.ext (by
    match a with
    | ⟨0, _⟩ => exact block_lhs_row _ _
    | ⟨1, _⟩ => exact (block_lhs_pos _ _).trans hk)
  have er : dot_S5000x256_S256x128_S5000x128_1_0_0_1_n_n.rhsIdx y ((ValueIdx.contrEquiv1 dot_S5000x256_S256x128_S5000x128_1_0_0_1_n_n 256 rfl rfl).symm k) = blockColAt y k := funext fun a => Fin.ext (by
    match a with
    | ⟨0, _⟩ => exact (block_rhs_pos _ _).trans hk
    | ⟨1, _⟩ => exact block_rhs_col _ _)
  show truncf (F := Ideal) .bf16 x0 bitsLt_bf16_f32 _ * truncf (F := Ideal) .bf16 x1 bitsLt_bf16_f32 _ = _
  rw [el, er]
  rfl

/-- The body's product: the reshaping of the loaded block to its own shape is the identity. -/
theorem payload_eq (x0 : Vec Ideal S5000x256 .f32) (x1 : Vec Ideal S256x128 .f32) :
    k1_pay1 (F := Ideal) x0 x1
      = matmul (F := Ideal) dot_S5000x256_S256x128_S5000x128_1_0_0_1_n_n none (truncf .bf16 x0 bitsLt_bf16_f32) (truncf .bf16 x1 bitsLt_bf16_f32)
          (constant S5000x128 .f32 0x00000000#32) := by
  unfold k1_pay1
  rw [shapeCast_self]

/-! ## From the ten blocks to the array -/

theorem origin : (![0, 0] : Fin 2 → Nat) = fun _ => 0 := funext fun a => by fin_cases a <;> rfl

/-- The printed index maps over the ten points: the input window and the result window sit at row block `t`, the weight
    window at its one block. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

-- the buffer contents the region is entered with
variable (V : (c : Dev nD) → (b : Ref sig .tc) → Buf (Elt Ideal) ((c : Thread nD τ).loc b))

/-- What point `t` writes back is rows 5000·t … 5000·t + 4999 of the whole product of the two arrays the region found. -/
theorem flushed_block (c : Dev nD) (t : Fin cfg1.N) :
    (dat1 (F := Ideal) V c).flushed 2 t
      = ((cfg1.win 2).blk t).view.read (Elt Ideal) (wholeProduct (V c main_v47) (V c main_arg4)) := by
  show (cfg1.win 2).cut (grid1.coords t) ((dat1 V c).after 2 t) = _
  rw [after1_2]
  unfold out1_2
  rw [View.canon_unit_zero origin]
  simp only [View.ld_unit_zero (S := S5000x256) origin, View.ld_unit_zero (S := S256x128) origin]
  obtain ⟨e0, e1, e2, e3, e4, e5⟩ := index_maps t
  funext j
  show k1_pay1 (iblk1 V c 0 t) (iblk1 V c 1 t) j = wholeProduct (V c main_v47) (V c main_arg4) (((cfg1.win 2).blk t).view.emb j)
  rw [wholeProduct_apply]
  refine (congrFun (payload_eq _ _) j).trans ?_
  refine (blockProduct_apply _ _ j).trans ?_
  refine Finset.sum_congr rfl fun k _ => ?_
  have h0 : iblk1 V c 0 t (blockRowAt j k) = V c main_v47 (rowAt (((cfg1.win 2).blk t).view.emb j) k) := by
    show V c main_v47 (((cfg1.win 0).blk t).view.emb (blockRowAt j k)) = _
    refine congrArg _ (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 256 + 1 * k.val = k.val; omega
  have h1 : iblk1 V c 1 t (blockColAt j k) = V c main_arg4 (colAt (((cfg1.win 2).blk t).view.emb j) k) := by
    show V c main_arg4 (((cfg1.win 1).blk t).view.emb (blockColAt j k)) = _
    refine congrArg _ (funext fun a => Fin.ext ?_)
    match a with
    | ⟨0, _⟩ => show win1_1.index t (0 : Fin 2) * 256 + 1 * k.val = k.val; omega
    | ⟨1, _⟩ => show win1_1.index t (1 : Fin 2) * 128 + 1 * (j 1).val = win1_2.index t (1 : Fin 2) * 128 + 1 * (j 1).val; omega
  rw [h0, h1]

/-- An index of the result array is in point `t`'s block iff each coordinate is in the block's range on its axis. -/
theorem mem_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- The blocks tile the rows: row `i 0` lies in the block of point `i 0 / 5000`. -/
theorem rows_covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : (i 0).val / 5000 < grid1.N := by rw [N_1]; omega
  obtain ⟨e0, e1, e2, e3, e4, e5⟩ := index_maps ⟨(i 0).val / 5000, hN⟩
  refine ⟨⟨(i 0).val / 5000, hN⟩, flush1_2 _, ?_⟩
  rw [mem_block]
  intro a
  match a with
  | ⟨0, _⟩ =>
    show win1_2.index ⟨(i 0).val / 5000, hN⟩ (0 : Fin 2) * 5000 ≤ (i 0).val ∧ (i 0).val < win1_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hN⟩ (1 : Fin 2) * 128 ≤ (i 1).val ∧ (i 1).val < win1_2.index ⟨(i 0).val / 5000, hN⟩ (1 : Fin 2) * 128 + 128
    rw [e5]; omega

/-- The array region 1 leaves: the whole product of the array it read and the weight it was entered with. -/
theorem product_array (c : Dev nD) :
    (dat1 (F := Ideal) V c).arrAt 2 cfg1.N = wholeProduct (V c main_v47) (V c main_arg4) :=
  (dat1 V c).arrAt_eq_of_cover 2 _ (fun t _ => flushed_block V c t) rows_covered

end Cert.KernelIdeal.RowBlocks1

end
-- ==== Proof.RowBlocks2.lean ====
/-
  Region 2 multiplies the second layer's output (50000 × 128) by the first weight matrix again, 5000 rows at a time, as
  region 0 did with the node features: point `t` reads rows 5000·t … 5000·t + 4999 and the whole 128 × 256 weight and
  writes the same rows of the 50000 × 256 result. Its body differs from region 0's only by a reshaping of the loaded
  block to its own shape, which is the identity; so again entry (r, j) of point `t`'s block is
  Σ_k h[5000·t + r, k] · w[k, j], the ten blocks tile the rows, and the array the region leaves is the whole product.
-/
import proofs.«165587_j32126355374294_1_alg».proof.Proof.RowBlocks0

set_option maxRecDepth 16384

noncomputable section

namespace Cert.KernelIdeal.RowBlocks2

open Idealize.ShloMosaic Idealize.ShloMosaic.TcCoe Idealize.SL.Sem
open Idealize.ShloMosaic.Pipeline (Dat)
open Cert.KernelIdeal Cert.KernelIdeal.Gen
open Cert.KernelIdeal.RowBlocks0 (wholeProduct wholeProduct_apply blockProduct_apply rowAt colAt blockRowAt blockColAt origin)

/-- The body's product is region 0's: the reshaping of the block to its own shape is the identity. -/
theorem payload_eq (x0 : Vec Ideal S5000x128 .f32) (x1 : Vec Ideal S128x256 .f32) :
    k2_pay1 (F := Ideal) x0 x1
      = matmul (F := Ideal) dot_S5000x128_S128x256_S5000x256_1_0_0_1_n_n none (truncf .bf16 x0 bitsLt_bf16_f32) (truncf .bf16 x1 bitsLt_bf16_f32)
          (constant S5000x256 .f32 0x00000000#32) := by
  unfold k2_pay1
  rw [shapeCast_self]

/-- The printed index maps over the ten points: the input window and the result window sit at row block `t`, the weight
    window at its one block. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

-- the buffer contents the region is entered with
variable (V : (c : Dev nD) → (b : Ref sig .tc) → Buf (Elt Ideal) ((c : Thread nD τ).loc b))

/-- What point `t` writes back is rows 5000·t … 5000·t + 4999 of the whole product of the two arrays the region found. -/
theorem flushed_block (c : Dev nD) (t : Fin cfg2.N) :
    (dat2 (F := Ideal) V c).flushed 2 t
      = ((cfg2.win 2).blk t).view.read (Elt Ideal) (wholeProduct (V c main_v64) (V c main_arg2)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x256) origin]
  obtain ⟨e0, e1, e2, e3, e4, e5⟩ := index_maps t
  funext j
  show k2_pay1 (iblk2 V c 0 t) (iblk2 V c 1 t) j = wholeProduct (V c main_v64) (V c main_arg2) (((cfg2.win 2).blk t).view.emb j)
  rw [wholeProduct_apply]
  refine (congrFun (payload_eq _ _) j).trans ?_
  refine (blockProduct_apply _ _ j).trans ?_
  refine Finset.sum_congr rfl fun k _ => ?_
  have h0 : iblk2 V c 0 t (blockRowAt j k) = V c main_v64 (rowAt (((cfg2.win 2).blk t).view.emb j) k) := by
    show V c main_v64 (((cfg2.win 0).blk t).view.emb (blockRowAt j k)) = _
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : iblk2 V c 1 t (blockColAt j k) = V c main_arg2 (colAt (((cfg2.win 2).blk t).view.emb j) k) := by
    show V c main_arg2 (((cfg2.win 1).blk t).view.emb (blockColAt j k)) = _
    refine congrArg _ (funext fun a => Fin.ext ?_)
    match a with
    | ⟨0, _⟩ => show win2_1.index t (0 : Fin 2) * 128 + 1 * k.val = k.val; omega
    | ⟨1, _⟩ => show win2_1.index t (1 : Fin 2) * 256 + 1 * (j 1).val = win2_2.index t (1 : Fin 2) * 256 + 1 * (j 1).val; omega
  rw [h0, h1]

/-- An index of the result array is in point `t`'s block iff each coordinate is in the block's range on its axis. -/
theorem mem_block (t : Fin cfg2.N) (i : S50000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v65).slice (win2_2.rect t)).set ↔ _
  rw [View.set_slice_whole, Rect.mem_set_unit]
  exact Iff.rfl

/-- The blocks tile the rows: row `i 0` lies in the block of point `i 0 / 5000`. -/
theorem rows_covered (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : (i 0).val / 5000 < grid2.N := by rw [N_2]; omega
  obtain ⟨e0, e1, e2, e3, e4, e5⟩ := index_maps ⟨(i 0).val / 5000, hN⟩
  refine ⟨⟨(i 0).val / 5000, hN⟩, flush2_2 _, ?_⟩
  rw [mem_block]
  intro a
  match a with
  | ⟨0, _⟩ =>
    show win2_2.index ⟨(i 0).val / 5000, hN⟩ (0 : Fin 2) * 5000 ≤ (i 0).val ∧ (i 0).val < win2_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hN⟩ (1 : Fin 2) * 256 ≤ (i 1).val ∧ (i 1).val < win2_2.index ⟨(i 0).val / 5000, hN⟩ (1 : Fin 2) * 256 + 256
    rw [e5]; omega

/-- The array region 2 leaves: the whole product of the array it read and the weight it was entered with. -/
theorem product_array (c : Dev nD) :
    (dat2 (F := Ideal) V c).arrAt 2 cfg2.N = wholeProduct (V c main_v64) (V c main_arg2) :=
  (dat2 V c).arrAt_eq_of_cover 2 _ (fun t _ => flushed_block V c t) rows_covered

end Cert.KernelIdeal.RowBlocks2

end
-- ==== Proof.KernelFold.lean ====
/-
  The kernel's result buffer at the last boundary, computed from the arguments. The buffer contents are followed through
  the program's ten segments: a stretch of host operations rewrites the buffers it writes to its operations' values of the
  buffers it reads and leaves the others; a row-blocked product leaves its result array at the whole product of the two
  arrays it read (the three row-block modules) and every other buffer as it found it. Level by level the live buffers are
  the two endpoint lists and the edge weights (computed before the first product and read by every layer), the running
  features, and the arguments; at the end the result buffer holds the three-layer network of the arguments.
-/
import proofs.«165587_j32126355374294_1_alg».proof.Proof.Gen.KernelIdeal.Frame
import proofs.«165587_j32126355374294_1_alg».proof.Proof.Layers
import proofs.«165587_j32126355374294_1_alg».proof.Proof.RowBlocks0
import proofs.«165587_j32126355374294_1_alg».proof.Proof.RowBlocks1
import proofs.«165587_j32126355374294_1_alg».proof.Proof.RowBlocks2
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Idealize.ShloMosaic.Pipeline (Dat)
open Cert.KernelIdeal Cert.KernelIdeal.Gen
open Cert.Layers

/-- A buffer that no operation of a stretch writes keeps its contents: every operation's written buffer is another one. -/
macro "not_written" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## One stretch of host operations at a time, from any entry contents `V` -/

section Stretches

theorem hostOps0_keeps_main_arg0 (V : Valuation τ sig (Elt Ideal)) : StableHlo.after hostOps0 V (Proc.devRef .tc main_arg0) = V (Proc.devRef .tc main_arg0) := by not_written hostOps0
theorem hostOps0_keeps_main_arg1 (V : Valuation τ sig (Elt Ideal)) : StableHlo.after hostOps0 V (Proc.devRef .tc main_arg1) = V (Proc.devRef .tc main_arg1) := by not_written hostOps0
theorem hostOps0_keeps_main_arg2 (V : Valuation τ sig (Elt Ideal)) : StableHlo.after hostOps0 V (Proc.devRef .tc main_arg2) = V (Proc.devRef .tc main_arg2) := by not_written hostOps0
theorem hostOps0_keeps_main_arg3 (V : Valuation τ sig (Elt Ideal)) : StableHlo.after hostOps0 V (Proc.devRef .tc main_arg3) = V (Proc.devRef .tc main_arg3) := by not_written hostOps0
theorem hostOps0_keeps_main_arg4 (V : Valuation τ sig (Elt Ideal)) : StableHlo.after hostOps0 V (Proc.devRef .tc main_arg4) = V (Proc.devRef .tc main_arg4) := by not_written hostOps0
theorem hostOps0_keeps_main_arg5 (V : Valuation τ sig (Elt Ideal)) : StableHlo.after hostOps0 V (Proc.devRef .tc main_arg5) = V (Proc.devRef .tc main_arg5) := by not_written hostOps0

theorem hostOps0_1_keeps_main_v5 (V : Valuation τ sig (Elt Ideal)) : StableHlo.after hostOps0_1 V (Proc.devRef .tc main_v5) = V (Proc.devRef .tc main_v5) := by not_written hostOps0_1
theorem hostOps0_1_keeps_main_v6 (V : Valuation τ sig (Elt Ideal)) : StableHlo.after hostOps0_1 V (Proc.devRef .tc main_v6) = V (Proc.devRef .tc main_v6) := by not_written hostOps0_1
theorem hostOps0_1_keeps_main_arg0 (V : Valuation τ sig (Elt Ideal)) : StableHlo.after hostOps0_1 V (Proc.devRef .tc main_arg0) = V (Proc.devRef .tc main_arg0) := by not_written hostOps0_1
theorem hostOps0_1_keeps_main_arg1 (V : Valuation τ sig (Elt Ideal)) : StableHlo.after hostOps0_1 V (Proc.devRef .tc main_arg1) = V (Proc.devRef .tc main_arg1) := by not_written hostOps0_1
theorem hostOps0_1_keeps_main_arg2 (V : Valuation τ sig (Elt Ideal)) : StableHlo.after hostOps0_1 V (Proc.devRef .tc main_arg2) = V (Proc.devRef .tc main_arg2) := by not_written hostOps0_1
theorem hostOps0_1_keeps_main_arg3 (V : Valuation τ sig (Elt Ideal)) : StableHlo.after hostOps0_1 V (Proc.devRef .tc main_arg3) = V (Proc.devRef .tc main_arg3) := by not_written hostOps0_1
theorem hostOps0_1_keeps_main_arg4 (V : Valuation τ sig (Elt Ideal)) : StableHlo.after hostOps0_1 V (Proc.devRef .tc main_arg4) = V (Proc.devRef .tc main_arg4) := by not_written hostOps0_1
theorem hostOps0_1_keeps_main_arg5 (V : Valuation τ sig (Elt Ideal)) : StableHlo.after hostOps0_1 V (Proc.devRef .tc main_arg5) = V (Proc.devRef .tc main_arg5) := by not_written hostOps0_1

theorem hostOps0_2_keeps_main_v5 (V : Valuation τ sig (Elt Ideal)) : StableHlo.after hostOps0_2 V (Proc.devRef .tc main_v5) = V (Proc.devRef .tc main_v5) := by not_written hostOps0_2
theorem hostOps0_2_keeps_main_v6 (V : Valuation τ sig (Elt Ideal)) : StableHlo.after hostOps0_2 V (Proc.devRef .tc main_v6) = V (Proc.devRef .tc main_v6) := by not_written hostOps0_2
theorem hostOps0_2_keeps_main_arg0 (V : Valuation τ sig (Elt Ideal)) : StableHlo.after hostOps0_2 V (Proc.devRef .tc main_arg0) = V (Proc.devRef .tc main_arg0) := by not_written hostOps0_2
theorem hostOps0_2_keeps_main_arg1 (V : Valuation τ sig (Elt Ideal)) : StableHlo.after hostOps0_2 V (Proc.devRef .tc main_arg1) = V (Proc.devRef .tc main_arg1) := by not_written hostOps0_2
theorem hostOps0_2_keeps_main_arg2 (V : Valuation τ sig (Elt Ideal)) : StableHlo.after hostOps0_2 V (Proc.devRef .tc main_arg2) = V (Proc.devRef .tc main_arg2) := by not_written hostOps0_2
theorem hostOps0_2_keeps_main_arg3 (V : Valuation τ sig (Elt Ideal)) : StableHlo.after hostOps0_2 V (Proc.devRef .tc main_arg3) = V (Proc.devRef .tc main_arg3) := by not_written hostOps0_2
theorem hostOps0_2_keeps_main_arg4 (V : Valuation τ sig (Elt Ideal)) : StableHlo.after hostOps0_2 V (Proc.devRef .tc main_arg4) = V (Proc.devRef .tc main_arg4) := by not_written hostOps0_2
theorem hostOps0_2_keeps_main_arg5 (V : Valuation τ sig (Elt Ideal)) : StableHlo.after hostOps0_2 V (Proc.devRef .tc main_arg5) = V (Proc.devRef .tc main_arg5) := by not_written hostOps0_2

theorem hostOps1_keeps_main_v5 (V : Valuation τ sig (Elt Ideal)) : StableHlo.after hostOps1 V (Proc.devRef .tc main_v5) = V (Proc.devRef .tc main_v5) := by not_written hostOps1
theorem hostOps1_keeps_main_v6 (V : Valuation τ sig (Elt Ideal)) : StableHlo.after hostOps1 V (Proc.devRef .tc main_v6) = V (Proc.devRef .tc main_v6) := by not_written hostOps1
theorem hostOps1_keeps_main_v29 (V : Valuation τ sig (Elt Ideal)) : StableHlo.after hostOps1 V (Proc.devRef .tc main_v29) = V (Proc.devRef .tc main_v29) := by not_written hostOps1
theorem hostOps1_keeps_main_arg2 (V : Valuation τ sig (Elt Ideal)) : StableHlo.after hostOps1 V (Proc.devRef .tc main_arg2) = V (Proc.devRef .tc main_arg2) := by not_written hostOps1
theorem hostOps1_keeps_main_arg3 (V : Valuation τ sig (Elt Ideal)) : StableHlo.after hostOps1 V (Proc.devRef .tc main_arg3) = V (Proc.devRef .tc main_arg3) := by not_written hostOps1
theorem hostOps1_keeps_main_arg4 (V : Valuation τ sig (Elt Ideal)) : StableHlo.after hostOps1 V (Proc.devRef .tc main_arg4) = V (Proc.devRef .tc main_arg4) := by not_written hostOps1
theorem hostOps1_keeps_main_arg5 (V : Valuation τ sig (Elt Ideal)) : StableHlo.after hostOps1 V (Proc.devRef .tc main_arg5) = V (Proc.devRef .tc main_arg5) := by not_written hostOps1

theorem hostOps1_1_keeps_main_v5 (V : Valuation τ sig (Elt Ideal)) : StableHlo.after hostOps1_1 V (Proc.devRef .tc main_v5) = V (Proc.devRef .tc main_v5) := by not_written hostOps1_1
theorem hostOps1_1_keeps_main_v6 (V : Valuation τ sig (Elt Ideal)) : StableHlo.after hostOps1_1 V (Proc.devRef .tc main_v6) = V (Proc.devRef .tc main_v6) := by not_written hostOps1_1
theorem hostOps1_1_keeps_main_v29 (V : Valuation τ sig (Elt Ideal)) : StableHlo.after hostOps1_1 V (Proc.devRef .tc main_v29) = V (Proc.devRef .tc main_v29) := by not_written hostOps1_1
theorem hostOps1_1_keeps_main_arg2 (V : Valuation τ sig (Elt Ideal)) : StableHlo.after hostOps1_1 V (Proc.devRef .tc main_arg2) = V (Proc.devRef .tc main_arg2) := by not_written hostOps1_1
theorem hostOps1_1_keeps_main_arg3 (V : Valuation τ sig (Elt Ideal)) : StableHlo.after hostOps1_1 V (Proc.devRef .tc main_arg3) = V (Proc.devRef .tc main_arg3) := by not_written hostOps1_1
theorem hostOps1_1_keeps_main_arg4 (V : Valuation τ sig (Elt Ideal)) : StableHlo.after hostOps1_1 V (Proc.devRef .tc main_arg4) = V (Proc.devRef .tc main_arg4) := by not_written hostOps1_1
theorem hostOps1_1_keeps_main_arg5 (V : Valuation τ sig (Elt Ideal)) : StableHlo.after hostOps1_1 V (Proc.devRef .tc main_arg5) = V (Proc.devRef .tc main_arg5) := by not_written hostOps1_1

theorem hostOps2_keeps_main_v5 (V : Valuation τ sig (Elt Ideal)) : StableHlo.after hostOps2 V (Proc.devRef .tc main_v5) = V (Proc.devRef .tc main_v5) := by not_written hostOps2
theorem hostOps2_keeps_main_v6 (V : Valuation τ sig (Elt Ideal)) : StableHlo.after hostOps2 V (Proc.devRef .tc main_v6) = V (Proc.devRef .tc main_v6) := by not_written hostOps2
theorem hostOps2_keeps_main_v29 (V : Valuation τ sig (Elt Ideal)) : StableHlo.after hostOps2 V (Proc.devRef .tc main_v29) = V (Proc.devRef .tc main_v29) := by not_written hostOps2
theorem hostOps2_keeps_main_arg2 (V : Valuation τ sig (Elt Ideal)) : StableHlo.after hostOps2 V (Proc.devRef .tc main_arg2) = V (Proc.devRef .tc main_arg2) := by not_written hostOps2
theorem hostOps2_keeps_main_arg3 (V : Valuation τ sig (Elt Ideal)) : StableHlo.after hostOps2 V (Proc.devRef .tc main_arg3) = V (Proc.devRef .tc main_arg3) := by not_written hostOps2

variable (V : Valuation τ sig (Elt Ideal))

/-- The first stretch: the endpoint lists, and the degree's comparison with 0 and inverse square root. -/
theorem hostOps0_sources : StableHlo.after hostOps0 V (Proc.devRef .tc main_v5) = sources (V (Proc.devRef .tc main_arg1)) := by
  after_results
  rfl
theorem hostOps0_targets : StableHlo.after hostOps0 V (Proc.devRef .tc main_v6) = targets (V (Proc.devRef .tc main_arg1)) := by
  after_results
  rfl
theorem hostOps0_positive : StableHlo.after hostOps0 V (Proc.devRef .tc main_v12)
    = cmpf .ogt (degree (targets (V (Proc.devRef .tc main_arg1)))) (broadcastInDim S50000 ![] Cert.ReferenceIdeal.Facts₀.bcast_S_S50000 (constant (F := Ideal) S_ .f32 0x00000000#32)) := by
  after_results
  rfl
theorem hostOps0_rsqrt : StableHlo.after hostOps0 V (Proc.devRef .tc main_v13) = Host.rsqrt (degree (targets (V (Proc.devRef .tc main_arg1)))) := by
  after_results
  rfl
theorem hostOps0_zero : StableHlo.after hostOps0 V (Proc.devRef .tc main_cst_2) = constant (F := Ideal) S_ .f32 0x00000000#32 := by
  after_results

/-- The selection: the inverse square root where the degree is positive, 0 elsewhere. -/
theorem hostOps0_1_select : StableHlo.after hostOps0_1 V (Proc.devRef .tc main_v14)
    = select (V (Proc.devRef .tc main_v12)) (V (Proc.devRef .tc main_v13)) (broadcastInDim S50000 ![] Cert.ReferenceIdeal.Facts₀.bcast_S_S50000 (V (Proc.devRef .tc main_cst_2))) := by
  after_results
  rfl

/-- The edge weights from the selected values and the endpoint lists. -/
theorem hostOps0_2_weights : StableHlo.after hostOps0_2 V (Proc.devRef .tc main_v29)
    = weightsFrom (V (Proc.devRef .tc main_v14)) (V (Proc.devRef .tc main_v5)) (V (Proc.devRef .tc main_v6)) := by
  after_results_simp
  rfl

/-- The aggregation stretches and the rectifier. -/
theorem hostOps1_aggregate : StableHlo.after hostOps1 V (Proc.devRef .tc main_v46)
    = aggregate256 (V (Proc.devRef .tc main_v30)) (V (Proc.devRef .tc main_v5)) (V (Proc.devRef .tc main_v6)) (V (Proc.devRef .tc main_v29)) (V (Proc.devRef .tc main_arg3)) := by
  after_results_simp
  rfl
theorem hostOps1_1_rectify : StableHlo.after hostOps1_1 V (Proc.devRef .tc main_v47) = rectified (V (Proc.devRef .tc main_v46)) := by
  after_results
  rfl
theorem hostOps2_aggregate : StableHlo.after hostOps2 V (Proc.devRef .tc main_v64)
    = aggregate128 (V (Proc.devRef .tc main_v48)) (V (Proc.devRef .tc main_v5)) (V (Proc.devRef .tc main_v6)) (V (Proc.devRef .tc main_v29)) (V (Proc.devRef .tc main_arg5)) := by
  after_results_simp
  rfl
theorem hostOps3_aggregate : StableHlo.after hostOps3 V (Proc.devRef .tc main_v81)
    = aggregate256 (V (Proc.devRef .tc main_v65)) (V (Proc.devRef .tc main_v5)) (V (Proc.devRef .tc main_v6)) (V (Proc.devRef .tc main_v29)) (V (Proc.devRef .tc main_arg3)) := by
  after_results_simp
  rfl

end Stretches

/-! ## Level by level

The contents are written as the fold itself — `StableHlo.after` of a stretch applied to the previous contents, and
`W4`, `W7`, `W9` at the three products' exits — so that each stretch's lemma applies to it as it stands. -/

section Levels

variable (m : (ℓ : Loc nD τ sig) → Buf (Elt Ideal) ℓ) (ρ : Dev nD → PrngReg)

/-! ### At the first product's entry -/

theorem at3_arg0 (c : Dev nD) : (StableHlo.after hostOps0_2 (StableHlo.after hostOps0_1 (StableHlo.after hostOps0 (W0 m ρ c)))) (Proc.devRef .tc main_arg0) = (m ((c : Thread nD τ).loc main_arg0)) :=
  (hostOps0_2_keeps_main_arg0 _).trans ((hostOps0_1_keeps_main_arg0 _).trans (hostOps0_keeps_main_arg0 _))
theorem at3_arg1 (c : Dev nD) : (StableHlo.after hostOps0_2 (StableHlo.after hostOps0_1 (StableHlo.after hostOps0 (W0 m ρ c)))) (Proc.devRef .tc main_arg1) = (m ((c : Thread nD τ).loc main_arg1)) :=
  (hostOps0_2_keeps_main_arg1 _).trans ((hostOps0_1_keeps_main_arg1 _).trans (hostOps0_keeps_main_arg1 _))
theorem at3_arg2 (c : Dev nD) : (StableHlo.after hostOps0_2 (StableHlo.after hostOps0_1 (StableHlo.after hostOps0 (W0 m ρ c)))) (Proc.devRef .tc main_arg2) = (m ((c : Thread nD τ).loc main_arg2)) :=
  (hostOps0_2_keeps_main_arg2 _).trans ((hostOps0_1_keeps_main_arg2 _).trans (hostOps0_keeps_main_arg2 _))
theorem at3_arg3 (c : Dev nD) : (StableHlo.after hostOps0_2 (StableHlo.after hostOps0_1 (StableHlo.after hostOps0 (W0 m ρ c)))) (Proc.devRef .tc main_arg3) = (m ((c : Thread nD τ).loc main_arg3)) :=
  (hostOps0_2_keeps_main_arg3 _).trans ((hostOps0_1_keeps_main_arg3 _).trans (hostOps0_keeps_main_arg3 _))
theorem at3_arg4 (c : Dev nD) : (StableHlo.after hostOps0_2 (StableHlo.after hostOps0_1 (StableHlo.after hostOps0 (W0 m ρ c)))) (Proc.devRef .tc main_arg4) = (m ((c : Thread nD τ).loc main_arg4)) :=
  (hostOps0_2_keeps_main_arg4 _).trans ((hostOps0_1_keeps_main_arg4 _).trans (hostOps0_keeps_main_arg4 _))
theorem at3_arg5 (c : Dev nD) : (StableHlo.after hostOps0_2 (StableHlo.after hostOps0_1 (StableHlo.after hostOps0 (W0 m ρ c)))) (Proc.devRef .tc main_arg5) = (m ((c : Thread nD τ).loc main_arg5)) :=
  (hostOps0_2_keeps_main_arg5 _).trans ((hostOps0_1_keeps_main_arg5 _).trans (hostOps0_keeps_main_arg5 _))
theorem at3_v5 (c : Dev nD) : (StableHlo.after hostOps0_2 (StableHlo.after hostOps0_1 (StableHlo.after hostOps0 (W0 m ρ c)))) (Proc.devRef .tc main_v5) = (sources (m ((c : Thread nD τ).loc main_arg1))) :=
  (hostOps0_2_keeps_main_v5 _).trans ((hostOps0_1_keeps_main_v5 _).trans (hostOps0_sources _))
theorem at3_v6 (c : Dev nD) : (StableHlo.after hostOps0_2 (StableHlo.after hostOps0_1 (StableHlo.after hostOps0 (W0 m ρ c)))) (Proc.devRef .tc main_v6) = (targets (m ((c : Thread nD τ).loc main_arg1))) :=
  (hostOps0_2_keeps_main_v6 _).trans ((hostOps0_1_keeps_main_v6 _).trans (hostOps0_targets _))
/-- The per-node factor: the degree's inverse square root where the degree is positive. -/
theorem at2_factor (c : Dev nD) : (StableHlo.after hostOps0_1 (StableHlo.after hostOps0 (W0 m ρ c))) (Proc.devRef .tc main_v14) = invSqrtDegree (targets (m ((c : Thread nD τ).loc main_arg1))) :=
  (hostOps0_1_select (StableHlo.after hostOps0 (W0 m ρ c))).trans (by
    rw [hostOps0_positive, hostOps0_rsqrt, hostOps0_zero]
    rfl)
theorem at3_v29 (c : Dev nD) : (StableHlo.after hostOps0_2 (StableHlo.after hostOps0_1 (StableHlo.after hostOps0 (W0 m ρ c)))) (Proc.devRef .tc main_v29) = (edgeWeights (sources (m ((c : Thread nD τ).loc main_arg1))) (targets (m ((c : Thread nD τ).loc main_arg1)))) :=
  (hostOps0_2_weights (StableHlo.after hostOps0_1 (StableHlo.after hostOps0 (W0 m ρ c)))).trans (by
    rw [at2_factor m ρ c, hostOps0_1_keeps_main_v5, hostOps0_1_keeps_main_v6, hostOps0_sources, hostOps0_targets]
    rfl)

/-! ### After the first product -/

/-- The first product's array: the whole product of the features and the first weight. -/
theorem at4_v30 (c : Dev nD) : (W4 m ρ c) (Proc.devRef .tc main_v30) = product1 (m ((c : Thread nD τ).loc main_arg0)) (m ((c : Thread nD τ).loc main_arg2)) :=
  (W4_arr m ρ c 2).trans ((RowBlocks0.product_array (V3 m ρ) c).trans
    ((congrArg₂ RowBlocks0.wholeProduct (at3_arg0 m ρ c) (at3_arg2 m ρ c)).trans rfl))
theorem at4_v5 (c : Dev nD) : (W4 m ρ c) (Proc.devRef .tc main_v5) = (sources (m ((c : Thread nD τ).loc main_arg1))) :=
  (W4_of_ne m ρ c main_v5 (by decide)).trans (at3_v5 m ρ c)
theorem at4_v6 (c : Dev nD) : (W4 m ρ c) (Proc.devRef .tc main_v6) = (targets (m ((c : Thread nD τ).loc main_arg1))) :=
  (W4_of_ne m ρ c main_v6 (by decide)).trans (at3_v6 m ρ c)
theorem at4_v29 (c : Dev nD) : (W4 m ρ c) (Proc.devRef .tc main_v29) = (edgeWeights (sources (m ((c : Thread nD τ).loc main_arg1))) (targets (m ((c : Thread nD τ).loc main_arg1)))) :=
  (W4_of_ne m ρ c main_v29 (by decide)).trans (at3_v29 m ρ c)
theorem at4_arg3 (c : Dev nD) : (W4 m ρ c) (Proc.devRef .tc main_arg3) = (m ((c : Thread nD τ).loc main_arg3)) :=
  (W4_of_ne m ρ c main_arg3 (by decide)).trans (at3_arg3 m ρ c)
theorem at4_arg4 (c : Dev nD) : (W4 m ρ c) (Proc.devRef .tc main_arg4) = (m ((c : Thread nD τ).loc main_arg4)) :=
  (W4_of_ne m ρ c main_arg4 (by decide)).trans (at3_arg4 m ρ c)
theorem at4_arg5 (c : Dev nD) : (W4 m ρ c) (Proc.devRef .tc main_arg5) = (m ((c : Thread nD τ).loc main_arg5)) :=
  (W4_of_ne m ρ c main_arg5 (by decide)).trans (at3_arg5 m ρ c)
/-- The first weight is one of the first product's input arrays: it is left as found. -/
theorem at4_arg2 (c : Dev nD) : (W4 m ρ c) (Proc.devRef .tc main_arg2) = (m ((c : Thread nD τ).loc main_arg2)) :=
  (W4_arr m ρ c 1).trans (((dat0 (V3 m ρ) c).arrAt_in 1 rfl _).trans ((A_eq0 (V3 m ρ) c 1).trans (at3_arg2 m ρ c)))

/-! ### At the second product's entry: the first layer, rectified -/

theorem at6_v47 (c : Dev nD) : (StableHlo.after hostOps1_1 (StableHlo.after hostOps1 (W4 m ρ c))) (Proc.devRef .tc main_v47) = (rectified (aggregate256 (product1 (m ((c : Thread nD τ).loc main_arg0)) (m ((c : Thread nD τ).loc main_arg2))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg3)))) :=
  (hostOps1_1_rectify (StableHlo.after hostOps1 (W4 m ρ c))).trans (by
    rw [hostOps1_aggregate, at4_v30 m ρ c, at4_v5 m ρ c, at4_v6 m ρ c, at4_v29 m ρ c, at4_arg3 m ρ c])
theorem at6_v5 (c : Dev nD) : (StableHlo.after hostOps1_1 (StableHlo.after hostOps1 (W4 m ρ c))) (Proc.devRef .tc main_v5) = (sources (m ((c : Thread nD τ).loc main_arg1))) :=
  (hostOps1_1_keeps_main_v5 _).trans ((hostOps1_keeps_main_v5 _).trans (at4_v5 m ρ c))
theorem at6_v6 (c : Dev nD) : (StableHlo.after hostOps1_1 (StableHlo.after hostOps1 (W4 m ρ c))) (Proc.devRef .tc main_v6) = (targets (m ((c : Thread nD τ).loc main_arg1))) :=
  (hostOps1_1_keeps_main_v6 _).trans ((hostOps1_keeps_main_v6 _).trans (at4_v6 m ρ c))
theorem at6_v29 (c : Dev nD) : (StableHlo.after hostOps1_1 (StableHlo.after hostOps1 (W4 m ρ c))) (Proc.devRef .tc main_v29) = (edgeWeights (sources (m ((c : Thread nD τ).loc main_arg1))) (targets (m ((c : Thread nD τ).loc main_arg1)))) :=
  (hostOps1_1_keeps_main_v29 _).trans ((hostOps1_keeps_main_v29 _).trans (at4_v29 m ρ c))
theorem at6_arg2 (c : Dev nD) : (StableHlo.after hostOps1_1 (StableHlo.after hostOps1 (W4 m ρ c))) (Proc.devRef .tc main_arg2) = (m ((c : Thread nD τ).loc main_arg2)) :=
  (hostOps1_1_keeps_main_arg2 _).trans ((hostOps1_keeps_main_arg2 _).trans (at4_arg2 m ρ c))
theorem at6_arg3 (c : Dev nD) : (StableHlo.after hostOps1_1 (StableHlo.after hostOps1 (W4 m ρ c))) (Proc.devRef .tc main_arg3) = (m ((c : Thread nD τ).loc main_arg3)) :=
  (hostOps1_1_keeps_main_arg3 _).trans ((hostOps1_keeps_main_arg3 _).trans (at4_arg3 m ρ c))
theorem at6_arg4 (c : Dev nD) : (StableHlo.after hostOps1_1 (StableHlo.after hostOps1 (W4 m ρ c))) (Proc.devRef .tc main_arg4) = (m ((c : Thread nD τ).loc main_arg4)) :=
  (hostOps1_1_keeps_main_arg4 _).trans ((hostOps1_keeps_main_arg4 _).trans (at4_arg4 m ρ c))
theorem at6_arg5 (c : Dev nD) : (StableHlo.after hostOps1_1 (StableHlo.after hostOps1 (W4 m ρ c))) (Proc.devRef .tc main_arg5) = (m ((c : Thread nD τ).loc main_arg5)) :=
  (hostOps1_1_keeps_main_arg5 _).trans ((hostOps1_keeps_main_arg5 _).trans (at4_arg5 m ρ c))

/-! ### After the second product -/

theorem at7_v48 (c : Dev nD) : (W7 m ρ c) (Proc.devRef .tc main_v48) = (product2 (rectified (aggregate256 (product1 (m ((c : Thread nD τ).loc main_arg0)) (m ((c : Thread nD τ).loc main_arg2))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg3)))) (m ((c : Thread nD τ).loc main_arg4))) :=
  (W7_arr m ρ c 2).trans ((RowBlocks1.product_array (V6 m ρ) c).trans
    ((congrArg₂ RowBlocks1.wholeProduct (at6_v47 m ρ c) (at6_arg4 m ρ c)).trans rfl))
theorem at7_v5 (c : Dev nD) : (W7 m ρ c) (Proc.devRef .tc main_v5) = (sources (m ((c : Thread nD τ).loc main_arg1))) :=
  (W7_of_ne m ρ c main_v5 (by decide)).trans (at6_v5 m ρ c)
theorem at7_v6 (c : Dev nD) : (W7 m ρ c) (Proc.devRef .tc main_v6) = (targets (m ((c : Thread nD τ).loc main_arg1))) :=
  (W7_of_ne m ρ c main_v6 (by decide)).trans (at6_v6 m ρ c)
theorem at7_v29 (c : Dev nD) : (W7 m ρ c) (Proc.devRef .tc main_v29) = (edgeWeights (sources (m ((c : Thread nD τ).loc main_arg1))) (targets (m ((c : Thread nD τ).loc main_arg1)))) :=
  (W7_of_ne m ρ c main_v29 (by decide)).trans (at6_v29 m ρ c)
theorem at7_arg2 (c : Dev nD) : (W7 m ρ c) (Proc.devRef .tc main_arg2) = (m ((c : Thread nD τ).loc main_arg2)) :=
  (W7_of_ne m ρ c main_arg2 (by decide)).trans (at6_arg2 m ρ c)
theorem at7_arg3 (c : Dev nD) : (W7 m ρ c) (Proc.devRef .tc main_arg3) = (m ((c : Thread nD τ).loc main_arg3)) :=
  (W7_of_ne m ρ c main_arg3 (by decide)).trans (at6_arg3 m ρ c)
theorem at7_arg5 (c : Dev nD) : (W7 m ρ c) (Proc.devRef .tc main_arg5) = (m ((c : Thread nD τ).loc main_arg5)) :=
  (W7_of_ne m ρ c main_arg5 (by decide)).trans (at6_arg5 m ρ c)

/-! ### At the third product's entry: the second layer -/

theorem at8_v64 (c : Dev nD) : (StableHlo.after hostOps2 (W7 m ρ c)) (Proc.devRef .tc main_v64) = (aggregate128 (product2 (rectified (aggregate256 (product1 (m ((c : Thread nD τ).loc main_arg0)) (m ((c : Thread nD τ).loc main_arg2))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg3)))) (m ((c : Thread nD τ).loc main_arg4))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg5))) :=
  (hostOps2_aggregate (W7 m ρ c)).trans (by
    rw [at7_v48 m ρ c, at7_v5 m ρ c, at7_v6 m ρ c, at7_v29 m ρ c, at7_arg5 m ρ c])
theorem at8_v5 (c : Dev nD) : (StableHlo.after hostOps2 (W7 m ρ c)) (Proc.devRef .tc main_v5) = (sources (m ((c : Thread nD τ).loc main_arg1))) :=
  (hostOps2_keeps_main_v5 _).trans (at7_v5 m ρ c)
theorem at8_v6 (c : Dev nD) : (StableHlo.after hostOps2 (W7 m ρ c)) (Proc.devRef .tc main_v6) = (targets (m ((c : Thread nD τ).loc main_arg1))) :=
  (hostOps2_keeps_main_v6 _).trans (at7_v6 m ρ c)
theorem at8_v29 (c : Dev nD) : (StableHlo.after hostOps2 (W7 m ρ c)) (Proc.devRef .tc main_v29) = (edgeWeights (sources (m ((c : Thread nD τ).loc main_arg1))) (targets (m ((c : Thread nD τ).loc main_arg1)))) :=
  (hostOps2_keeps_main_v29 _).trans (at7_v29 m ρ c)
theorem at8_arg2 (c : Dev nD) : (StableHlo.after hostOps2 (W7 m ρ c)) (Proc.devRef .tc main_arg2) = (m ((c : Thread nD τ).loc main_arg2)) :=
  (hostOps2_keeps_main_arg2 _).trans (at7_arg2 m ρ c)
theorem at8_arg3 (c : Dev nD) : (StableHlo.after hostOps2 (W7 m ρ c)) (Proc.devRef .tc main_arg3) = (m ((c : Thread nD τ).loc main_arg3)) :=
  (hostOps2_keeps_main_arg3 _).trans (at7_arg3 m ρ c)

/-! ### After the third product -/

theorem at9_v65 (c : Dev nD) : (W9 m ρ c) (Proc.devRef .tc main_v65) = (product1 (aggregate128 (product2 (rectified (aggregate256 (product1 (m ((c : Thread nD τ).loc main_arg0)) (m ((c : Thread nD τ).loc main_arg2))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg3)))) (m ((c : Thread nD τ).loc main_arg4))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg5))) (m ((c : Thread nD τ).loc main_arg2))) :=
  (W9_arr m ρ c 2).trans ((RowBlocks2.product_array (V8 m ρ) c).trans
    ((congrArg₂ RowBlocks0.wholeProduct (at8_v64 m ρ c) (at8_arg2 m ρ c)).trans rfl))
theorem at9_v5 (c : Dev nD) : (W9 m ρ c) (Proc.devRef .tc main_v5) = (sources (m ((c : Thread nD τ).loc main_arg1))) :=
  (W9_of_ne m ρ c main_v5 (by decide)).trans (at8_v5 m ρ c)
theorem at9_v6 (c : Dev nD) : (W9 m ρ c) (Proc.devRef .tc main_v6) = (targets (m ((c : Thread nD τ).loc main_arg1))) :=
  (W9_of_ne m ρ c main_v6 (by decide)).trans (at8_v6 m ρ c)
theorem at9_v29 (c : Dev nD) : (W9 m ρ c) (Proc.devRef .tc main_v29) = (edgeWeights (sources (m ((c : Thread nD τ).loc main_arg1))) (targets (m ((c : Thread nD τ).loc main_arg1)))) :=
  (W9_of_ne m ρ c main_v29 (by decide)).trans (at8_v29 m ρ c)
theorem at9_arg3 (c : Dev nD) : (W9 m ρ c) (Proc.devRef .tc main_arg3) = (m ((c : Thread nD τ).loc main_arg3)) :=
  (W9_of_ne m ρ c main_arg3 (by decide)).trans (at8_arg3 m ρ c)

/-! ### The result -/

/-- The result buffer at the last boundary: the three-layer network of the six arguments. -/
theorem result (c : Dev nD) :
    W10 m ρ c (Proc.devRef .tc main_v81)
      = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (hostOps3_aggregate (W9 m ρ c)).trans (by
    rw [at9_v65 m ρ c, at9_v5 m ρ c, at9_v6 m ρ c, at9_v29 m ρ c, at9_arg3 m ρ c]
    rfl)

end Levels

end Cert.KernelIdeal.Fold

end
-- ==== Proof.ReferenceRun.lean ====
/-
  The reference's run. The reference is a straight line of 169 host operations (the calls of the selection and of the
  rectifier stand as their bodies' operations on the calls' own buffers), so every weakly fair execution of it terminates,
  nothing faulting, with every buffer at the fold of the operations over the launch contents: an operation rewrites the
  buffer it writes to its function's value of the buffers it reads and leaves the others. The list is cut, in order, into
  the stretches between its three matrix products, and the fold over the whole list is the fold over the stretches one
  after the other.
-/
import proofs.«165587_j32126355374294_1_alg».proof.Proof.Gen.ReferenceIdeal
import Idealize.ShloMosaic.Lib.StableHlo.Run

noncomputable section

namespace Cert.ReferenceIdeal.Straight

open Cert.ReferenceIdeal Idealize.ShloMosaic Idealize.ShloMosaic.TcCoe Idealize.SL.Sem Idealize.ShloMosaic.StableHlo
open Cert.ReferenceIdeal.Facts₀

variable {F : FTy → Type} [FloatOps F]

/-- @main's 169 operations, in order. -/
abbrev ops : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v12 : StableHlo.TRef sig ⟨S50000, .i1⟩) (.of main_v13 : StableHlo.TRef sig ⟨S50000, .f32⟩) (.of main_call0_v1 : StableHlo.TRef sig ⟨S50000, .f32⟩) (.of main_v14 : StableHlo.TRef sig ⟨S50000, .f32⟩) select,
    StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)),
    StableHlo.binary main_arg0 main_arg2 main_v30 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v3 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v30 main_v36 main_v37 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x256 ![0, 1] bcast_S850000x1_S850000x256_0_1 : (⟨S850000x1, .f32⟩ : BufTy).Contents (Elt F) → (⟨S850000x256, .f32⟩ : BufTy).Contents (Elt F)),
    StableHlo.binary main_v37 main_v39 main_v40 (mulf : (⟨S850000x256, .f32⟩ : BufTy).Contents (Elt F) → (⟨S850000x256, .f32⟩ : BufTy).Contents (Elt F) → (⟨S850000x256, .f32⟩ : BufTy).Contents (Elt F)),
    StableHlo.nullary main_cst_8 (constant S_ .f32 0x00000000#32),
    StableHlo.unary main_cst_8 main_v41 (broadcastInDim S50000x256 ![] bcast_S_S50000x256 : (⟨S_, .f32⟩ : BufTy).Contents (Elt F) → (⟨S50000x256, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg3 main_v44 (broadcastInDim S1x256 ![1] bcast_S256_S1x256_1 : (⟨S256, .f32⟩ : BufTy).Contents (Elt F) → (⟨S1x256, .f32⟩ : BufTy).Contents (Elt F)),
    StableHlo.unary main_v44 main_v45 (broadcastInDim S50000x256 ![0, 1] bcast_S1x256_S50000x256_0_1 : (⟨S1x256, .f32⟩ : BufTy).Contents (Elt F) → (⟨S50000x256, .f32⟩ : BufTy).Contents (Elt F)),
    StableHlo.binary main_v43 main_v45 main_v46 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x256, .f32⟩) (broadcastInDim S50000x256 ![] bcast_S_S50000x256),
    StableHlo.TRef.binary (.of main_v46 : StableHlo.TRef sig ⟨S50000x256, .f32⟩) (.of main_call1_v0 : StableHlo.TRef sig ⟨S50000x256, .f32⟩) (.of main_v47 : StableHlo.TRef sig ⟨S50000x256, .f32⟩) maximumf,
    StableHlo.nullary main_cst_9 (constant S_ .f32 0x3F800000#32),
    StableHlo.unary main_cst_9 main_v48 (broadcastInDim S850000 ![] bcast_S_S850000 : (⟨S_, .f32⟩ : BufTy).Contents (Elt F) → (⟨S850000, .f32⟩ : BufTy).Contents (Elt F)),
    StableHlo.nullary main_cst_10 (constant S_ .f32 0x00000000#32),
    StableHlo.unary main_cst_10 main_v49 (broadcastInDim S50000 ![] bcast_S_S50000 : (⟨S_, .f32⟩ : BufTy).Contents (Elt F) → (⟨S50000, .f32⟩ : BufTy).Contents (Elt F)),
    StableHlo.unary main_v6 main_v50 (broadcastInDim S850000x1 ![0] bcast_S850000_S850000x1_0 : (⟨S850000, .i32⟩ : BufTy).Contents (Elt F) → (⟨S850000x1, .i32⟩ : BufTy).Contents (Elt F)),
    StableHlo.ternary main_v49 main_v50 main_v48 main_v51 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_11 (constant S_ .f32 0x00000000#32),
    StableHlo.unary main_cst_11 main_v52 (broadcastInDim S50000 ![] bcast_S_S50000 : (⟨S_, .f32⟩ : BufTy).Contents (Elt F) → (⟨S50000, .f32⟩ : BufTy).Contents (Elt F)),
    StableHlo.binary main_v51 main_v52 main_v53 (cmpf .ogt : (⟨S50000, .f32⟩ : BufTy).Contents (Elt F) → (⟨S50000, .f32⟩ : BufTy).Contents (Elt F) → (⟨S50000, .i1⟩ : BufTy).Contents (Elt F)),
    StableHlo.unary main_v51 main_v54 (Host.rsqrt : (⟨S50000, .f32⟩ : BufTy).Contents (Elt F) → (⟨S50000, .f32⟩ : BufTy).Contents (Elt F)),
    StableHlo.nullary main_cst_12 (constant S_ .f32 0x00000000#32),
    StableHlo.TRef.unary (.of main_cst_12 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S50000, .f32⟩) (broadcastInDim S50000 ![] bcast_S_S50000),
    StableHlo.TRef.ternary (.of main_v53 : StableHlo.TRef sig ⟨S50000, .i1⟩) (.of main_v54 : StableHlo.TRef sig ⟨S50000, .f32⟩) (.of main_call2_v1 : StableHlo.TRef sig ⟨S50000, .f32⟩) (.of main_v55 : StableHlo.TRef sig ⟨S50000, .f32⟩) select,
    StableHlo.nullary main_c_13 (constantI S_ 32 0#32),
    StableHlo.unary main_c_13 main_v56 (broadcastInDim S850000 ![] bcast_S_S850000 : (⟨S_, .i32⟩ : BufTy).Contents (Elt F) → (⟨S850000, .i32⟩ : BufTy).Contents (Elt F)),
    StableHlo.binary main_v3 main_v56 main_v57 (cmpi .slt : (⟨S850000, .i32⟩ : BufTy).Contents (Elt F) → (⟨S850000, .i32⟩ : BufTy).Contents (Elt F) → (⟨S850000, .i1⟩ : BufTy).Contents (Elt F)),
    StableHlo.nullary main_c_14 (constantI S_ 32 50000#32),
    StableHlo.unary main_c_14 main_v58 (broadcastInDim S850000 ![] bcast_S_S850000 : (⟨S_, .i32⟩ : BufTy).Contents (Elt F) → (⟨S850000, .i32⟩ : BufTy).Contents (Elt F)),
    StableHlo.binary main_v3 main_v58 main_v59 (addi : (⟨S850000, .i32⟩ : BufTy).Contents (Elt F) → (⟨S850000, .i32⟩ : BufTy).Contents (Elt F) → (⟨S850000, .i32⟩ : BufTy).Contents (Elt F)),
    StableHlo.ternary main_v57 main_v59 main_v3 main_v60 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v60 main_v61 (broadcastInDim S850000x1 ![0] bcast_S850000_S850000x1_0 : (⟨S850000, .i32⟩ : BufTy).Contents (Elt F) → (⟨S850000x1, .i32⟩ : BufTy).Contents (Elt F)),
    StableHlo.binary main_v55 main_v61 main_v62 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_15 (constantI S_ 32 0#32),
    StableHlo.unary main_c_15 main_v63 (broadcastInDim S850000 ![] bcast_S_S850000 : (⟨S_, .i32⟩ : BufTy).Contents (Elt F) → (⟨S850000, .i32⟩ : BufTy).Contents (Elt F)),
    StableHlo.binary main_v6 main_v63 main_v64 (cmpi .slt : (⟨S850000, .i32⟩ : BufTy).Contents (Elt F) → (⟨S850000, .i32⟩ : BufTy).Contents (Elt F) → (⟨S850000, .i1⟩ : BufTy).Contents (Elt F)),
    StableHlo.nullary main_c_16 (constantI S_ 32 50000#32),
    StableHlo.unary main_c_16 main_v65 (broadcastInDim S850000 ![] bcast_S_S850000 : (⟨S_, .i32⟩ : BufTy).Contents (Elt F) → (⟨S850000, .i32⟩ : BufTy).Contents (Elt F)),
    StableHlo.binary main_v6 main_v65 main_v66 (addi : (⟨S850000, .i32⟩ : BufTy).Contents (Elt F) → (⟨S850000, .i32⟩ : BufTy).Contents (Elt F) → (⟨S850000, .i32⟩ : BufTy).Contents (Elt F)),
    StableHlo.ternary main_v64 main_v66 main_v6 main_v67 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v67 main_v68 (broadcastInDim S850000x1 ![0] bcast_S850000_S850000x1_0 : (⟨S850000, .i32⟩ : BufTy).Contents (Elt F) → (⟨S850000x1, .i32⟩ : BufTy).Contents (Elt F)),
    StableHlo.binary main_v55 main_v68 main_v69 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v62 main_v69 main_v70 (mulf : (⟨S850000, .f32⟩ : BufTy).Contents (Elt F) → (⟨S850000, .f32⟩ : BufTy).Contents (Elt F) → (⟨S850000, .f32⟩ : BufTy).Contents (Elt F)),
    StableHlo.binary main_v47 main_arg4 main_v71 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.nullary main_c_17 (constantI S_ 32 0#32),
    StableHlo.unary main_c_17 main_v72 (broadcastInDim S850000 ![] bcast_S_S850000 : (⟨S_, .i32⟩ : BufTy).Contents (Elt F) → (⟨S850000, .i32⟩ : BufTy).Contents (Elt F)),
    StableHlo.binary main_v3 main_v72 main_v73 (cmpi .slt : (⟨S850000, .i32⟩ : BufTy).Contents (Elt F) → (⟨S850000, .i32⟩ : BufTy).Contents (Elt F) → (⟨S850000, .i1⟩ : BufTy).Contents (Elt F)),
    StableHlo.nullary main_c_18 (constantI S_ 32 50000#32),
    StableHlo.unary main_c_18 main_v74 (broadcastInDim S850000 ![] bcast_S_S850000 : (⟨S_, .i32⟩ : BufTy).Contents (Elt F) → (⟨S850000, .i32⟩ : BufTy).Contents (Elt F)),
    StableHlo.binary main_v3 main_v74 main_v75 (addi : (⟨S850000, .i32⟩ : BufTy).Contents (Elt F) → (⟨S850000, .i32⟩ : BufTy).Contents (Elt F) → (⟨S850000, .i32⟩ : BufTy).Contents (Elt F)),
    StableHlo.ternary main_v73 main_v75 main_v3 main_v76 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v76 main_v77 (broadcastInDim S850000x1 ![0] bcast_S850000_S850000x1_0 : (⟨S850000, .i32⟩ : BufTy).Contents (Elt F) → (⟨S850000x1, .i32⟩ : BufTy).Contents (Elt F)),
    StableHlo.binary main_v71 main_v77 main_v78 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v70 main_v79 (broadcastInDim S850000x1 ![0] bcast_S850000_S850000x1_0 : (⟨S850000, .f32⟩ : BufTy).Contents (Elt F) → (⟨S850000x1, .f32⟩ : BufTy).Contents (Elt F)),
    StableHlo.unary main_v79 main_v80 (broadcastInDim S850000x128 ![0, 1] bcast_S850000x1_S850000x128_0_1 : (⟨S850000x1, .f32⟩ : BufTy).Contents (Elt F) → (⟨S850000x128, .f32⟩ : BufTy).Contents (Elt F)),
    StableHlo.binary main_v78 main_v80 main_v81 (mulf : (⟨S850000x128, .f32⟩ : BufTy).Contents (Elt F) → (⟨S850000x128, .f32⟩ : BufTy).Contents (Elt F) → (⟨S850000x128, .f32⟩ : BufTy).Contents (Elt F)),
    StableHlo.nullary main_cst_19 (constant S_ .f32 0x00000000#32),
    StableHlo.unary main_cst_19 main_v82 (broadcastInDim S50000x128 ![] bcast_S_S50000x128 : (⟨S_, .f32⟩ : BufTy).Contents (Elt F) → (⟨S50000x128, .f32⟩ : BufTy).Contents (Elt F)),
    StableHlo.unary main_v6 main_v83 (broadcastInDim S850000x1 ![0] bcast_S850000_S850000x1_0 : (⟨S850000, .i32⟩ : BufTy).Contents (Elt F) → (⟨S850000x1, .i32⟩ : BufTy).Contents (Elt F)),
    StableHlo.ternary main_v82 main_v83 main_v81 main_v84 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg5 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S50000x128 ![0, 1] bcast_S1x128_S50000x128_0_1 : (⟨S1x128, .f32⟩ : BufTy).Contents (Elt F) → (⟨S50000x128, .f32⟩ : BufTy).Contents (Elt F)),
    StableHlo.binary main_v84 main_v86 main_v87 (addf : (⟨S50000x128, .f32⟩ : BufTy).Contents (Elt F) → (⟨S50000x128, .f32⟩ : BufTy).Contents (Elt F) → (⟨S50000x128, .f32⟩ : BufTy).Contents (Elt F)),
    StableHlo.nullary main_cst_20 (constant S_ .f32 0x3F800000#32),
    StableHlo.unary main_cst_20 main_v88 (broadcastInDim S850000 ![] bcast_S_S850000 : (⟨S_, .f32⟩ : BufTy).Contents (Elt F) → (⟨S850000, .f32⟩ : BufTy).Contents (Elt F)),
    StableHlo.nullary main_cst_21 (constant S_ .f32 0x00000000#32),
    StableHlo.unary main_cst_21 main_v89 (broadcastInDim S50000 ![] bcast_S_S50000 : (⟨S_, .f32⟩ : BufTy).Contents (Elt F) → (⟨S50000, .f32⟩ : BufTy).Contents (Elt F)),
    StableHlo.unary main_v6 main_v90 (broadcastInDim S850000x1 ![0] bcast_S850000_S850000x1_0 : (⟨S850000, .i32⟩ : BufTy).Contents (Elt F) → (⟨S850000x1, .i32⟩ : BufTy).Contents (Elt F)),
    StableHlo.ternary main_v89 main_v90 main_v88 main_v91 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_22 (constant S_ .f32 0x00000000#32),
    StableHlo.unary main_cst_22 main_v92 (broadcastInDim S50000 ![] bcast_S_S50000 : (⟨S_, .f32⟩ : BufTy).Contents (Elt F) → (⟨S50000, .f32⟩ : BufTy).Contents (Elt F)),
    StableHlo.binary main_v91 main_v92 main_v93 (cmpf .ogt : (⟨S50000, .f32⟩ : BufTy).Contents (Elt F) → (⟨S50000, .f32⟩ : BufTy).Contents (Elt F) → (⟨S50000, .i1⟩ : BufTy).Contents (Elt F)),
    StableHlo.unary main_v91 main_v94 (Host.rsqrt : (⟨S50000, .f32⟩ : BufTy).Contents (Elt F) → (⟨S50000, .f32⟩ : BufTy).Contents (Elt F)),
    StableHlo.nullary main_cst_23 (constant S_ .f32 0x00000000#32),
    StableHlo.TRef.unary (.of main_cst_23 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S50000, .f32⟩) (broadcastInDim S50000 ![] bcast_S_S50000),
    StableHlo.TRef.ternary (.of main_v93 : StableHlo.TRef sig ⟨S50000, .i1⟩) (.of main_v94 : StableHlo.TRef sig ⟨S50000, .f32⟩) (.of main_call3_v1 : StableHlo.TRef sig ⟨S50000, .f32⟩) (.of main_v95 : StableHlo.TRef sig ⟨S50000, .f32⟩) select,
    StableHlo.nullary main_c_24 (constantI S_ 32 0#32),
    StableHlo.unary main_c_24 main_v96 (broadcastInDim S850000 ![] bcast_S_S850000 : (⟨S_, .i32⟩ : BufTy).Contents (Elt F) → (⟨S850000, .i32⟩ : BufTy).Contents (Elt F)),
    StableHlo.binary main_v3 main_v96 main_v97 (cmpi .slt : (⟨S850000, .i32⟩ : BufTy).Contents (Elt F) → (⟨S850000, .i32⟩ : BufTy).Contents (Elt F) → (⟨S850000, .i1⟩ : BufTy).Contents (Elt F)),
    StableHlo.nullary main_c_25 (constantI S_ 32 50000#32),
    StableHlo.unary main_c_25 main_v98 (broadcastInDim S850000 ![] bcast_S_S850000 : (⟨S_, .i32⟩ : BufTy).Contents (Elt F) → (⟨S850000, .i32⟩ : BufTy).Contents (Elt F)),
    StableHlo.binary main_v3 main_v98 main_v99 (addi : (⟨S850000, .i32⟩ : BufTy).Contents (Elt F) → (⟨S850000, .i32⟩ : BufTy).Contents (Elt F) → (⟨S850000, .i32⟩ : BufTy).Contents (Elt F)),
    StableHlo.ternary main_v97 main_v99 main_v3 main_v100 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v100 main_v101 (broadcastInDim S850000x1 ![0] bcast_S850000_S850000x1_0 : (⟨S850000, .i32⟩ : BufTy).Contents (Elt F) → (⟨S850000x1, .i32⟩ : BufTy).Contents (Elt F)),
    StableHlo.binary main_v95 main_v101 main_v102 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_26 (constantI S_ 32 0#32),
    StableHlo.unary main_c_26 main_v103 (broadcastInDim S850000 ![] bcast_S_S850000 : (⟨S_, .i32⟩ : BufTy).Contents (Elt F) → (⟨S850000, .i32⟩ : BufTy).Contents (Elt F)),
    StableHlo.binary main_v6 main_v103 main_v104 (cmpi .slt : (⟨S850000, .i32⟩ : BufTy).Contents (Elt F) → (⟨S850000, .i32⟩ : BufTy).Contents (Elt F) → (⟨S850000, .i1⟩ : BufTy).Contents (Elt F)),
    StableHlo.nullary main_c_27 (constantI S_ 32 50000#32),
    StableHlo.unary main_c_27 main_v105 (broadcastInDim S850000 ![] bcast_S_S850000 : (⟨S_, .i32⟩ : BufTy).Contents (Elt F) → (⟨S850000, .i32⟩ : BufTy).Contents (Elt F)),
    StableHlo.binary main_v6 main_v105 main_v106 (addi : (⟨S850000, .i32⟩ : BufTy).Contents (Elt F) → (⟨S850000, .i32⟩ : BufTy).Contents (Elt F) → (⟨S850000, .i32⟩ : BufTy).Contents (Elt F)),
    StableHlo.ternary main_v104 main_v106 main_v6 main_v107 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v107 main_v108 (broadcastInDim S850000x1 ![0] bcast_S850000_S850000x1_0 : (⟨S850000, .i32⟩ : BufTy).Contents (Elt F) → (⟨S850000x1, .i32⟩ : BufTy).Contents (Elt F)),
    StableHlo.binary main_v95 main_v108 main_v109 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v102 main_v109 main_v110 (mulf : (⟨S850000, .f32⟩ : BufTy).Contents (Elt F) → (⟨S850000, .f32⟩ : BufTy).Contents (Elt F) → (⟨S850000, .f32⟩ : BufTy).Contents (Elt F)),
    StableHlo.binary main_v87 main_arg2 main_v111 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.nullary main_c_28 (constantI S_ 32 0#32),
    StableHlo.unary main_c_28 main_v112 (broadcastInDim S850000 ![] bcast_S_S850000 : (⟨S_, .i32⟩ : BufTy).Contents (Elt F) → (⟨S850000, .i32⟩ : BufTy).Contents (Elt F)),
    StableHlo.binary main_v3 main_v112 main_v113 (cmpi .slt : (⟨S850000, .i32⟩ : BufTy).Contents (Elt F) → (⟨S850000, .i32⟩ : BufTy).Contents (Elt F) → (⟨S850000, .i1⟩ : BufTy).Contents (Elt F)),
    StableHlo.nullary main_c_29 (constantI S_ 32 50000#32),
    StableHlo.unary main_c_29 main_v114 (broadcastInDim S850000 ![] bcast_S_S850000 : (⟨S_, .i32⟩ : BufTy).Contents (Elt F) → (⟨S850000, .i32⟩ : BufTy).Contents (Elt F)),
    StableHlo.binary main_v3 main_v114 main_v115 (addi : (⟨S850000, .i32⟩ : BufTy).Contents (Elt F) → (⟨S850000, .i32⟩ : BufTy).Contents (Elt F) → (⟨S850000, .i32⟩ : BufTy).Contents (Elt F)),
    StableHlo.ternary main_v113 main_v115 main_v3 main_v116 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v116 main_v117 (broadcastInDim S850000x1 ![0] bcast_S850000_S850000x1_0 : (⟨S850000, .i32⟩ : BufTy).Contents (Elt F) → (⟨S850000x1, .i32⟩ : BufTy).Contents (Elt F)),
    StableHlo.binary main_v111 main_v117 main_v118 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v110 main_v119 (broadcastInDim S850000x1 ![0] bcast_S850000_S850000x1_0 : (⟨S850000, .f32⟩ : BufTy).Contents (Elt F) → (⟨S850000x1, .f32⟩ : BufTy).Contents (Elt F)),
    StableHlo.unary main_v119 main_v120 (broadcastInDim S850000x256 ![0, 1] bcast_S850000x1_S850000x256_0_1 : (⟨S850000x1, .f32⟩ : BufTy).Contents (Elt F) → (⟨S850000x256, .f32⟩ : BufTy).Contents (Elt F)),
    StableHlo.binary main_v118 main_v120 main_v121 (mulf : (⟨S850000x256, .f32⟩ : BufTy).Contents (Elt F) → (⟨S850000x256, .f32⟩ : BufTy).Contents (Elt F) → (⟨S850000x256, .f32⟩ : BufTy).Contents (Elt F)),
    StableHlo.nullary main_cst_30 (constant S_ .f32 0x00000000#32),
    StableHlo.unary main_cst_30 main_v122 (broadcastInDim S50000x256 ![] bcast_S_S50000x256 : (⟨S_, .f32⟩ : BufTy).Contents (Elt F) → (⟨S50000x256, .f32⟩ : BufTy).Contents (Elt F)),
    StableHlo.unary main_v6 main_v123 (broadcastInDim S850000x1 ![0] bcast_S850000_S850000x1_0 : (⟨S850000, .i32⟩ : BufTy).Contents (Elt F) → (⟨S850000x1, .i32⟩ : BufTy).Contents (Elt F)),
    StableHlo.ternary main_v122 main_v123 main_v121 main_v124 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg3 main_v125 (broadcastInDim S1x256 ![1] bcast_S256_S1x256_1 : (⟨S256, .f32⟩ : BufTy).Contents (Elt F) → (⟨S1x256, .f32⟩ : BufTy).Contents (Elt F)),
    StableHlo.unary main_v125 main_v126 (broadcastInDim S50000x256 ![0, 1] bcast_S1x256_S50000x256_0_1 : (⟨S1x256, .f32⟩ : BufTy).Contents (Elt F) → (⟨S50000x256, .f32⟩ : BufTy).Contents (Elt F)),
    StableHlo.binary main_v124 main_v126 main_v127 (addf : (⟨S50000x256, .f32⟩ : BufTy).Contents (Elt F) → (⟨S50000x256, .f32⟩ : BufTy).Contents (Elt F) → (⟨S50000x256, .f32⟩ : BufTy).Contents (Elt F)) ]

set_option maxRecDepth 8192 in
set_option maxHeartbeats 4000000 in
/-- The printed @main is the straight line of these operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
set_option maxHeartbeats 8000000 in
/-- Every weakly fair execution terminates, nothing faulting, with every buffer at the fold of the operations over the
    launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-! ## The stretches -/

/-- A fold over two lists one after the other is the fold over the second of the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

abbrev prefix0 : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32) ]

abbrev where0 : List (HloOp τ sig (Elt F)) :=
  [ StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v12 : StableHlo.TRef sig ⟨S50000, .i1⟩) (.of main_v13 : StableHlo.TRef sig ⟨S50000, .f32⟩) (.of main_call0_v1 : StableHlo.TRef sig ⟨S50000, .f32⟩) (.of main_v14 : StableHlo.TRef sig ⟨S50000, .f32⟩) select ]

abbrev weights0 : List (HloOp τ sig (Elt F)) :=
  [ StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)) ]

abbrev dot1 : List (HloOp τ sig (Elt F)) :=
  [ StableHlo.binary main_arg0 main_arg2 main_v30 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)) ]

abbrev layer1 : List (HloOp τ sig (Elt F)) :=
  [ StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v3 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v30 main_v36 main_v37 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x256 ![0, 1] bcast_S850000x1_S850000x256_0_1 : (⟨S850000x1, .f32⟩ : BufTy).Contents (Elt F) → (⟨S850000x256, .f32⟩ : BufTy).Contents (Elt F)),
    StableHlo.binary main_v37 main_v39 main_v40 (mulf : (⟨S850000x256, .f32⟩ : BufTy).Contents (Elt F) → (⟨S850000x256, .f32⟩ : BufTy).Contents (Elt F) → (⟨S850000x256, .f32⟩ : BufTy).Contents (Elt F)),
    StableHlo.nullary main_cst_8 (constant S_ .f32 0x00000000#32),
    StableHlo.unary main_cst_8 main_v41 (broadcastInDim S50000x256 ![] bcast_S_S50000x256 : (⟨S_, .f32⟩ : BufTy).Contents (Elt F) → (⟨S50000x256, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg3 main_v44 (broadcastInDim S1x256 ![1] bcast_S256_S1x256_1 : (⟨S256, .f32⟩ : BufTy).Contents (Elt F) → (⟨S1x256, .f32⟩ : BufTy).Contents (Elt F)),
    StableHlo.unary main_v44 main_v45 (broadcastInDim S50000x256 ![0, 1] bcast_S1x256_S50000x256_0_1 : (⟨S1x256, .f32⟩ : BufTy).Contents (Elt F) → (⟨S50000x256, .f32⟩ : BufTy).Contents (Elt F)),
    StableHlo.binary main_v43 main_v45 main_v46 (addf : (⟨S50000x256, .f32⟩ : BufTy).Contents (Elt F) → (⟨S50000x256, .f32⟩ : BufTy).Contents (Elt F) → (⟨S50000x256, .f32⟩ : BufTy).Contents (Elt F)) ]

abbrev relu1 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x256, .f32⟩) (broadcastInDim S50000x256 ![] bcast_S_S50000x256),
    StableHlo.TRef.binary (.of main_v46 : StableHlo.TRef sig ⟨S50000x256, .f32⟩) (.of main_call1_v0 : StableHlo.TRef sig ⟨S50000x256, .f32⟩) (.of main_v47 : StableHlo.TRef sig ⟨S50000x256, .f32⟩) maximumf ]

abbrev prefix2 : List (HloOp τ sig (Elt F)) :=
  [ StableHlo.nullary main_cst_9 (constant S_ .f32 0x3F800000#32),
    StableHlo.unary main_cst_9 main_v48 (broadcastInDim S850000 ![] bcast_S_S850000 : (⟨S_, .f32⟩ : BufTy).Contents (Elt F) → (⟨S850000, .f32⟩ : BufTy).Contents (Elt F)),
    StableHlo.nullary main_cst_10 (constant S_ .f32 0x00000000#32),
    StableHlo.unary main_cst_10 main_v49 (broadcastInDim S50000 ![] bcast_S_S50000 : (⟨S_, .f32⟩ : BufTy).Contents (Elt F) → (⟨S50000, .f32⟩ : BufTy).Contents (Elt F)),
    StableHlo.unary main_v6 main_v50 (broadcastInDim S850000x1 ![0] bcast_S850000_S850000x1_0 : (⟨S850000, .i32⟩ : BufTy).Contents (Elt F) → (⟨S850000x1, .i32⟩ : BufTy).Contents (Elt F)),
    StableHlo.ternary main_v49 main_v50 main_v48 main_v51 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_11 (constant S_ .f32 0x00000000#32),
    StableHlo.unary main_cst_11 main_v52 (broadcastInDim S50000 ![] bcast_S_S50000 : (⟨S_, .f32⟩ : BufTy).Contents (Elt F) → (⟨S50000, .f32⟩ : BufTy).Contents (Elt F)),
    StableHlo.binary main_v51 main_v52 main_v53 (cmpf .ogt : (⟨S50000, .f32⟩ : BufTy).Contents (Elt F) → (⟨S50000, .f32⟩ : BufTy).Contents (Elt F) → (⟨S50000, .i1⟩ : BufTy).Contents (Elt F)),
    StableHlo.unary main_v51 main_v54 (Host.rsqrt : (⟨S50000, .f32⟩ : BufTy).Contents (Elt F) → (⟨S50000, .f32⟩ : BufTy).Contents (Elt F)),
    StableHlo.nullary main_cst_12 (constant S_ .f32 0x00000000#32) ]

abbrev where2 : List (HloOp τ sig (Elt F)) :=
  [ StableHlo.TRef.unary (.of main_cst_12 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S50000, .f32⟩) (broadcastInDim S50000 ![] bcast_S_S50000),
    StableHlo.TRef.ternary (.of main_v53 : StableHlo.TRef sig ⟨S50000, .i1⟩) (.of main_v54 : StableHlo.TRef sig ⟨S50000, .f32⟩) (.of main_call2_v1 : StableHlo.TRef sig ⟨S50000, .f32⟩) (.of main_v55 : StableHlo.TRef sig ⟨S50000, .f32⟩) select ]

abbrev weights2 : List (HloOp τ sig (Elt F)) :=
  [ StableHlo.nullary main_c_13 (constantI S_ 32 0#32),
    StableHlo.unary main_c_13 main_v56 (broadcastInDim S850000 ![] bcast_S_S850000 : (⟨S_, .i32⟩ : BufTy).Contents (Elt F) → (⟨S850000, .i32⟩ : BufTy).Contents (Elt F)),
    StableHlo.binary main_v3 main_v56 main_v57 (cmpi .slt : (⟨S850000, .i32⟩ : BufTy).Contents (Elt F) → (⟨S850000, .i32⟩ : BufTy).Contents (Elt F) → (⟨S850000, .i1⟩ : BufTy).Contents (Elt F)),
    StableHlo.nullary main_c_14 (constantI S_ 32 50000#32),
    StableHlo.unary main_c_14 main_v58 (broadcastInDim S850000 ![] bcast_S_S850000 : (⟨S_, .i32⟩ : BufTy).Contents (Elt F) → (⟨S850000, .i32⟩ : BufTy).Contents (Elt F)),
    StableHlo.binary main_v3 main_v58 main_v59 (addi : (⟨S850000, .i32⟩ : BufTy).Contents (Elt F) → (⟨S850000, .i32⟩ : BufTy).Contents (Elt F) → (⟨S850000, .i32⟩ : BufTy).Contents (Elt F)),
    StableHlo.ternary main_v57 main_v59 main_v3 main_v60 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v60 main_v61 (broadcastInDim S850000x1 ![0] bcast_S850000_S850000x1_0 : (⟨S850000, .i32⟩ : BufTy).Contents (Elt F) → (⟨S850000x1, .i32⟩ : BufTy).Contents (Elt F)),
    StableHlo.binary main_v55 main_v61 main_v62 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_15 (constantI S_ 32 0#32),
    StableHlo.unary main_c_15 main_v63 (broadcastInDim S850000 ![] bcast_S_S850000 : (⟨S_, .i32⟩ : BufTy).Contents (Elt F) → (⟨S850000, .i32⟩ : BufTy).Contents (Elt F)),
    StableHlo.binary main_v6 main_v63 main_v64 (cmpi .slt : (⟨S850000, .i32⟩ : BufTy).Contents (Elt F) → (⟨S850000, .i32⟩ : BufTy).Contents (Elt F) → (⟨S850000, .i1⟩ : BufTy).Contents (Elt F)),
    StableHlo.nullary main_c_16 (constantI S_ 32 50000#32),
    StableHlo.unary main_c_16 main_v65 (broadcastInDim S850000 ![] bcast_S_S850000 : (⟨S_, .i32⟩ : BufTy).Contents (Elt F) → (⟨S850000, .i32⟩ : BufTy).Contents (Elt F)),
    StableHlo.binary main_v6 main_v65 main_v66 (addi : (⟨S850000, .i32⟩ : BufTy).Contents (Elt F) → (⟨S850000, .i32⟩ : BufTy).Contents (Elt F) → (⟨S850000, .i32⟩ : BufTy).Contents (Elt F)),
    StableHlo.ternary main_v64 main_v66 main_v6 main_v67 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v67 main_v68 (broadcastInDim S850000x1 ![0] bcast_S850000_S850000x1_0 : (⟨S850000, .i32⟩ : BufTy).Contents (Elt F) → (⟨S850000x1, .i32⟩ : BufTy).Contents (Elt F)),
    StableHlo.binary main_v55 main_v68 main_v69 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v62 main_v69 main_v70 (mulf : (⟨S850000, .f32⟩ : BufTy).Contents (Elt F) → (⟨S850000, .f32⟩ : BufTy).Contents (Elt F) → (⟨S850000, .f32⟩ : BufTy).Contents (Elt F)) ]

abbrev dot2 : List (HloOp τ sig (Elt F)) :=
  [ StableHlo.binary main_v47 main_arg4 main_v71 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ]

abbrev layer2 : List (HloOp τ sig (Elt F)) :=
  [ StableHlo.nullary main_c_17 (constantI S_ 32 0#32),
    StableHlo.unary main_c_17 main_v72 (broadcastInDim S850000 ![] bcast_S_S850000 : (⟨S_, .i32⟩ : BufTy).Contents (Elt F) → (⟨S850000, .i32⟩ : BufTy).Contents (Elt F)),
    StableHlo.binary main_v3 main_v72 main_v73 (cmpi .slt : (⟨S850000, .i32⟩ : BufTy).Contents (Elt F) → (⟨S850000, .i32⟩ : BufTy).Contents (Elt F) → (⟨S850000, .i1⟩ : BufTy).Contents (Elt F)),
    StableHlo.nullary main_c_18 (constantI S_ 32 50000#32),
    StableHlo.unary main_c_18 main_v74 (broadcastInDim S850000 ![] bcast_S_S850000 : (⟨S_, .i32⟩ : BufTy).Contents (Elt F) → (⟨S850000, .i32⟩ : BufTy).Contents (Elt F)),
    StableHlo.binary main_v3 main_v74 main_v75 (addi : (⟨S850000, .i32⟩ : BufTy).Contents (Elt F) → (⟨S850000, .i32⟩ : BufTy).Contents (Elt F) → (⟨S850000, .i32⟩ : BufTy).Contents (Elt F)),
    StableHlo.ternary main_v73 main_v75 main_v3 main_v76 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v76 main_v77 (broadcastInDim S850000x1 ![0] bcast_S850000_S850000x1_0 : (⟨S850000, .i32⟩ : BufTy).Contents (Elt F) → (⟨S850000x1, .i32⟩ : BufTy).Contents (Elt F)),
    StableHlo.binary main_v71 main_v77 main_v78 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v70 main_v79 (broadcastInDim S850000x1 ![0] bcast_S850000_S850000x1_0 : (⟨S850000, .f32⟩ : BufTy).Contents (Elt F) → (⟨S850000x1, .f32⟩ : BufTy).Contents (Elt F)),
    StableHlo.unary main_v79 main_v80 (broadcastInDim S850000x128 ![0, 1] bcast_S850000x1_S850000x128_0_1 : (⟨S850000x1, .f32⟩ : BufTy).Contents (Elt F) → (⟨S850000x128, .f32⟩ : BufTy).Contents (Elt F)),
    StableHlo.binary main_v78 main_v80 main_v81 (mulf : (⟨S850000x128, .f32⟩ : BufTy).Contents (Elt F) → (⟨S850000x128, .f32⟩ : BufTy).Contents (Elt F) → (⟨S850000x128, .f32⟩ : BufTy).Contents (Elt F)),
    StableHlo.nullary main_cst_19 (constant S_ .f32 0x00000000#32),
    StableHlo.unary main_cst_19 main_v82 (broadcastInDim S50000x128 ![] bcast_S_S50000x128 : (⟨S_, .f32⟩ : BufTy).Contents (Elt F) → (⟨S50000x128, .f32⟩ : BufTy).Contents (Elt F)),
    StableHlo.unary main_v6 main_v83 (broadcastInDim S850000x1 ![0] bcast_S850000_S850000x1_0 : (⟨S850000, .i32⟩ : BufTy).Contents (Elt F) → (⟨S850000x1, .i32⟩ : BufTy).Contents (Elt F)),
    StableHlo.ternary main_v82 main_v83 main_v81 main_v84 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg5 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S50000x128 ![0, 1] bcast_S1x128_S50000x128_0_1 : (⟨S1x128, .f32⟩ : BufTy).Contents (Elt F) → (⟨S50000x128, .f32⟩ : BufTy).Contents (Elt F)),
    StableHlo.binary main_v84 main_v86 main_v87 (addf : (⟨S50000x128, .f32⟩ : BufTy).Contents (Elt F) → (⟨S50000x128, .f32⟩ : BufTy).Contents (Elt F) → (⟨S50000x128, .f32⟩ : BufTy).Contents (Elt F)) ]

abbrev prefix3 : List (HloOp τ sig (Elt F)) :=
  [ StableHlo.nullary main_cst_20 (constant S_ .f32 0x3F800000#32),
    StableHlo.unary main_cst_20 main_v88 (broadcastInDim S850000 ![] bcast_S_S850000 : (⟨S_, .f32⟩ : BufTy).Contents (Elt F) → (⟨S850000, .f32⟩ : BufTy).Contents (Elt F)),
    StableHlo.nullary main_cst_21 (constant S_ .f32 0x00000000#32),
    StableHlo.unary main_cst_21 main_v89 (broadcastInDim S50000 ![] bcast_S_S50000 : (⟨S_, .f32⟩ : BufTy).Contents (Elt F) → (⟨S50000, .f32⟩ : BufTy).Contents (Elt F)),
    StableHlo.unary main_v6 main_v90 (broadcastInDim S850000x1 ![0] bcast_S850000_S850000x1_0 : (⟨S850000, .i32⟩ : BufTy).Contents (Elt F) → (⟨S850000x1, .i32⟩ : BufTy).Contents (Elt F)),
    StableHlo.ternary main_v89 main_v90 main_v88 main_v91 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_22 (constant S_ .f32 0x00000000#32),
    StableHlo.unary main_cst_22 main_v92 (broadcastInDim S50000 ![] bcast_S_S50000 : (⟨S_, .f32⟩ : BufTy).Contents (Elt F) → (⟨S50000, .f32⟩ : BufTy).Contents (Elt F)),
    StableHlo.binary main_v91 main_v92 main_v93 (cmpf .ogt : (⟨S50000, .f32⟩ : BufTy).Contents (Elt F) → (⟨S50000, .f32⟩ : BufTy).Contents (Elt F) → (⟨S50000, .i1⟩ : BufTy).Contents (Elt F)),
    StableHlo.unary main_v91 main_v94 (Host.rsqrt : (⟨S50000, .f32⟩ : BufTy).Contents (Elt F) → (⟨S50000, .f32⟩ : BufTy).Contents (Elt F)),
    StableHlo.nullary main_cst_23 (constant S_ .f32 0x00000000#32) ]

abbrev where3 : List (HloOp τ sig (Elt F)) :=
  [ StableHlo.TRef.unary (.of main_cst_23 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S50000, .f32⟩) (broadcastInDim S50000 ![] bcast_S_S50000),
    StableHlo.TRef.ternary (.of main_v93 : StableHlo.TRef sig ⟨S50000, .i1⟩) (.of main_v94 : StableHlo.TRef sig ⟨S50000, .f32⟩) (.of main_call3_v1 : StableHlo.TRef sig ⟨S50000, .f32⟩) (.of main_v95 : StableHlo.TRef sig ⟨S50000, .f32⟩) select ]

abbrev weights3 : List (HloOp τ sig (Elt F)) :=
  [ StableHlo.nullary main_c_24 (constantI S_ 32 0#32),
    StableHlo.unary main_c_24 main_v96 (broadcastInDim S850000 ![] bcast_S_S850000 : (⟨S_, .i32⟩ : BufTy).Contents (Elt F) → (⟨S850000, .i32⟩ : BufTy).Contents (Elt F)),
    StableHlo.binary main_v3 main_v96 main_v97 (cmpi .slt : (⟨S850000, .i32⟩ : BufTy).Contents (Elt F) → (⟨S850000, .i32⟩ : BufTy).Contents (Elt F) → (⟨S850000, .i1⟩ : BufTy).Contents (Elt F)),
    StableHlo.nullary main_c_25 (constantI S_ 32 50000#32),
    StableHlo.unary main_c_25 main_v98 (broadcastInDim S850000 ![] bcast_S_S850000 : (⟨S_, .i32⟩ : BufTy).Contents (Elt F) → (⟨S850000, .i32⟩ : BufTy).Contents (Elt F)),
    StableHlo.binary main_v3 main_v98 main_v99 (addi : (⟨S850000, .i32⟩ : BufTy).Contents (Elt F) → (⟨S850000, .i32⟩ : BufTy).Contents (Elt F) → (⟨S850000, .i32⟩ : BufTy).Contents (Elt F)),
    StableHlo.ternary main_v97 main_v99 main_v3 main_v100 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v100 main_v101 (broadcastInDim S850000x1 ![0] bcast_S850000_S850000x1_0 : (⟨S850000, .i32⟩ : BufTy).Contents (Elt F) → (⟨S850000x1, .i32⟩ : BufTy).Contents (Elt F)),
    StableHlo.binary main_v95 main_v101 main_v102 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_26 (constantI S_ 32 0#32),
    StableHlo.unary main_c_26 main_v103 (broadcastInDim S850000 ![] bcast_S_S850000 : (⟨S_, .i32⟩ : BufTy).Contents (Elt F) → (⟨S850000, .i32⟩ : BufTy).Contents (Elt F)),
    StableHlo.binary main_v6 main_v103 main_v104 (cmpi .slt : (⟨S850000, .i32⟩ : BufTy).Contents (Elt F) → (⟨S850000, .i32⟩ : BufTy).Contents (Elt F) → (⟨S850000, .i1⟩ : BufTy).Contents (Elt F)),
    StableHlo.nullary main_c_27 (constantI S_ 32 50000#32),
    StableHlo.unary main_c_27 main_v105 (broadcastInDim S850000 ![] bcast_S_S850000 : (⟨S_, .i32⟩ : BufTy).Contents (Elt F) → (⟨S850000, .i32⟩ : BufTy).Contents (Elt F)),
    StableHlo.binary main_v6 main_v105 main_v106 (addi : (⟨S850000, .i32⟩ : BufTy).Contents (Elt F) → (⟨S850000, .i32⟩ : BufTy).Contents (Elt F) → (⟨S850000, .i32⟩ : BufTy).Contents (Elt F)),
    StableHlo.ternary main_v104 main_v106 main_v6 main_v107 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v107 main_v108 (broadcastInDim S850000x1 ![0] bcast_S850000_S850000x1_0 : (⟨S850000, .i32⟩ : BufTy).Contents (Elt F) → (⟨S850000x1, .i32⟩ : BufTy).Contents (Elt F)),
    StableHlo.binary main_v95 main_v108 main_v109 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v102 main_v109 main_v110 (mulf : (⟨S850000, .f32⟩ : BufTy).Contents (Elt F) → (⟨S850000, .f32⟩ : BufTy).Contents (Elt F) → (⟨S850000, .f32⟩ : BufTy).Contents (Elt F)) ]

abbrev dot3 : List (HloOp τ sig (Elt F)) :=
  [ StableHlo.binary main_v87 main_arg2 main_v111 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)) ]

abbrev layer3 : List (HloOp τ sig (Elt F)) :=
  [ StableHlo.nullary main_c_28 (constantI S_ 32 0#32),
    StableHlo.unary main_c_28 main_v112 (broadcastInDim S850000 ![] bcast_S_S850000 : (⟨S_, .i32⟩ : BufTy).Contents (Elt F) → (⟨S850000, .i32⟩ : BufTy).Contents (Elt F)),
    StableHlo.binary main_v3 main_v112 main_v113 (cmpi .slt : (⟨S850000, .i32⟩ : BufTy).Contents (Elt F) → (⟨S850000, .i32⟩ : BufTy).Contents (Elt F) → (⟨S850000, .i1⟩ : BufTy).Contents (Elt F)),
    StableHlo.nullary main_c_29 (constantI S_ 32 50000#32),
    StableHlo.unary main_c_29 main_v114 (broadcastInDim S850000 ![] bcast_S_S850000 : (⟨S_, .i32⟩ : BufTy).Contents (Elt F) → (⟨S850000, .i32⟩ : BufTy).Contents (Elt F)),
    StableHlo.binary main_v3 main_v114 main_v115 (addi : (⟨S850000, .i32⟩ : BufTy).Contents (Elt F) → (⟨S850000, .i32⟩ : BufTy).Contents (Elt F) → (⟨S850000, .i32⟩ : BufTy).Contents (Elt F)),
    StableHlo.ternary main_v113 main_v115 main_v3 main_v116 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v116 main_v117 (broadcastInDim S850000x1 ![0] bcast_S850000_S850000x1_0 : (⟨S850000, .i32⟩ : BufTy).Contents (Elt F) → (⟨S850000x1, .i32⟩ : BufTy).Contents (Elt F)),
    StableHlo.binary main_v111 main_v117 main_v118 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v110 main_v119 (broadcastInDim S850000x1 ![0] bcast_S850000_S850000x1_0 : (⟨S850000, .f32⟩ : BufTy).Contents (Elt F) → (⟨S850000x1, .f32⟩ : BufTy).Contents (Elt F)),
    StableHlo.unary main_v119 main_v120 (broadcastInDim S850000x256 ![0, 1] bcast_S850000x1_S850000x256_0_1 : (⟨S850000x1, .f32⟩ : BufTy).Contents (Elt F) → (⟨S850000x256, .f32⟩ : BufTy).Contents (Elt F)),
    StableHlo.binary main_v118 main_v120 main_v121 (mulf : (⟨S850000x256, .f32⟩ : BufTy).Contents (Elt F) → (⟨S850000x256, .f32⟩ : BufTy).Contents (Elt F) → (⟨S850000x256, .f32⟩ : BufTy).Contents (Elt F)),
    StableHlo.nullary main_cst_30 (constant S_ .f32 0x00000000#32),
    StableHlo.unary main_cst_30 main_v122 (broadcastInDim S50000x256 ![] bcast_S_S50000x256 : (⟨S_, .f32⟩ : BufTy).Contents (Elt F) → (⟨S50000x256, .f32⟩ : BufTy).Contents (Elt F)),
    StableHlo.unary main_v6 main_v123 (broadcastInDim S850000x1 ![0] bcast_S850000_S850000x1_0 : (⟨S850000, .i32⟩ : BufTy).Contents (Elt F) → (⟨S850000x1, .i32⟩ : BufTy).Contents (Elt F)),
    StableHlo.ternary main_v122 main_v123 main_v121 main_v124 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg3 main_v125 (broadcastInDim S1x256 ![1] bcast_S256_S1x256_1 : (⟨S256, .f32⟩ : BufTy).Contents (Elt F) → (⟨S1x256, .f32⟩ : BufTy).Contents (Elt F)),
    StableHlo.unary main_v125 main_v126 (broadcastInDim S50000x256 ![0, 1] bcast_S1x256_S50000x256_0_1 : (⟨S1x256, .f32⟩ : BufTy).Contents (Elt F) → (⟨S50000x256, .f32⟩ : BufTy).Contents (Elt F)),
    StableHlo.binary main_v124 main_v126 main_v127 (addf : (⟨S50000x256, .f32⟩ : BufTy).Contents (Elt F) → (⟨S50000x256, .f32⟩ : BufTy).Contents (Elt F) → (⟨S50000x256, .f32⟩ : BufTy).Contents (Elt F)) ]

set_option maxRecDepth 8192 in
set_option maxHeartbeats 4000000 in
/-- The operations are the stretches in order. -/
theorem ops_eq : (ops : List (HloOp τ sig (Elt F))) = prefix0 ++ where0 ++ weights0 ++ dot1 ++ layer1 ++ relu1 ++ prefix2 ++ where2 ++ weights2 ++ dot2 ++ layer2 ++ prefix3 ++ where3 ++ weights3 ++ dot3 ++ layer3 := rfl

end Cert.ReferenceIdeal.Straight

end
-- ==== Proof.ReferenceFold.lean ====
/-
  The reference's result, computed from the arguments: its buffer contents followed through the sixteen stretches of its
  straight line. The endpoint lists are computed once, in the first stretch; the degree's inverse square root and the edge
  weights are computed before each of the three products, each time by the same operations of the same target list, so each
  time they are the same functions of the edge list; each product is followed by its layer's aggregation (the first by the
  rectifier too). At the end the result buffer holds the three-layer network of the arguments, and no operation writes an
  argument.
-/
import proofs.«165587_j32126355374294_1_alg».proof.Proof.ReferenceRun
import proofs.«165587_j32126355374294_1_alg».proof.Proof.Layers
import Idealize.ShloMosaic.PureOps.Ideal

set_option maxRecDepth 16384

noncomputable section

namespace Cert.ReferenceIdeal.Fold

open Cert.ReferenceIdeal Idealize.ShloMosaic Idealize.ShloMosaic.TcCoe Idealize.SL.Sem Idealize.ShloMosaic.StableHlo
open Cert.ReferenceIdeal.Facts₀ Cert.ReferenceIdeal.Straight
open Cert.Layers

/-- A buffer that no operation of a stretch writes keeps its contents: every operation's written buffer is another one. -/
macro "not_written" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## One stretch at a time, from any entry contents `V` -/

section Stretches

theorem where0_keeps_main_v3 (V : Valuation τ sig (Elt Ideal)) : after where0 V (Proc.devRef .tc main_v3) = V (Proc.devRef .tc main_v3) := by not_written where0
theorem weights0_keeps_main_v3 (V : Valuation τ sig (Elt Ideal)) : after weights0 V (Proc.devRef .tc main_v3) = V (Proc.devRef .tc main_v3) := by not_written weights0
theorem dot1_keeps_main_v3 (V : Valuation τ sig (Elt Ideal)) : after dot1 V (Proc.devRef .tc main_v3) = V (Proc.devRef .tc main_v3) := by not_written dot1
theorem layer1_keeps_main_v3 (V : Valuation τ sig (Elt Ideal)) : after layer1 V (Proc.devRef .tc main_v3) = V (Proc.devRef .tc main_v3) := by not_written layer1
theorem relu1_keeps_main_v3 (V : Valuation τ sig (Elt Ideal)) : after relu1 V (Proc.devRef .tc main_v3) = V (Proc.devRef .tc main_v3) := by not_written relu1
theorem prefix2_keeps_main_v3 (V : Valuation τ sig (Elt Ideal)) : after prefix2 V (Proc.devRef .tc main_v3) = V (Proc.devRef .tc main_v3) := by not_written prefix2
theorem where2_keeps_main_v3 (V : Valuation τ sig (Elt Ideal)) : after where2 V (Proc.devRef .tc main_v3) = V (Proc.devRef .tc main_v3) := by not_written where2
theorem weights2_keeps_main_v3 (V : Valuation τ sig (Elt Ideal)) : after weights2 V (Proc.devRef .tc main_v3) = V (Proc.devRef .tc main_v3) := by not_written weights2
theorem dot2_keeps_main_v3 (V : Valuation τ sig (Elt Ideal)) : after dot2 V (Proc.devRef .tc main_v3) = V (Proc.devRef .tc main_v3) := by not_written dot2
theorem layer2_keeps_main_v3 (V : Valuation τ sig (Elt Ideal)) : after layer2 V (Proc.devRef .tc main_v3) = V (Proc.devRef .tc main_v3) := by not_written layer2
theorem prefix3_keeps_main_v3 (V : Valuation τ sig (Elt Ideal)) : after prefix3 V (Proc.devRef .tc main_v3) = V (Proc.devRef .tc main_v3) := by not_written prefix3
theorem where3_keeps_main_v3 (V : Valuation τ sig (Elt Ideal)) : after where3 V (Proc.devRef .tc main_v3) = V (Proc.devRef .tc main_v3) := by not_written where3
theorem weights3_keeps_main_v3 (V : Valuation τ sig (Elt Ideal)) : after weights3 V (Proc.devRef .tc main_v3) = V (Proc.devRef .tc main_v3) := by not_written weights3
theorem dot3_keeps_main_v3 (V : Valuation τ sig (Elt Ideal)) : after dot3 V (Proc.devRef .tc main_v3) = V (Proc.devRef .tc main_v3) := by not_written dot3
theorem where0_keeps_main_v6 (V : Valuation τ sig (Elt Ideal)) : after where0 V (Proc.devRef .tc main_v6) = V (Proc.devRef .tc main_v6) := by not_written where0
theorem weights0_keeps_main_v6 (V : Valuation τ sig (Elt Ideal)) : after weights0 V (Proc.devRef .tc main_v6) = V (Proc.devRef .tc main_v6) := by not_written weights0
theorem dot1_keeps_main_v6 (V : Valuation τ sig (Elt Ideal)) : after dot1 V (Proc.devRef .tc main_v6) = V (Proc.devRef .tc main_v6) := by not_written dot1
theorem layer1_keeps_main_v6 (V : Valuation τ sig (Elt Ideal)) : after layer1 V (Proc.devRef .tc main_v6) = V (Proc.devRef .tc main_v6) := by not_written layer1
theorem relu1_keeps_main_v6 (V : Valuation τ sig (Elt Ideal)) : after relu1 V (Proc.devRef .tc main_v6) = V (Proc.devRef .tc main_v6) := by not_written relu1
theorem prefix2_keeps_main_v6 (V : Valuation τ sig (Elt Ideal)) : after prefix2 V (Proc.devRef .tc main_v6) = V (Proc.devRef .tc main_v6) := by not_written prefix2
theorem where2_keeps_main_v6 (V : Valuation τ sig (Elt Ideal)) : after where2 V (Proc.devRef .tc main_v6) = V (Proc.devRef .tc main_v6) := by not_written where2
theorem weights2_keeps_main_v6 (V : Valuation τ sig (Elt Ideal)) : after weights2 V (Proc.devRef .tc main_v6) = V (Proc.devRef .tc main_v6) := by not_written weights2
theorem dot2_keeps_main_v6 (V : Valuation τ sig (Elt Ideal)) : after dot2 V (Proc.devRef .tc main_v6) = V (Proc.devRef .tc main_v6) := by not_written dot2
theorem layer2_keeps_main_v6 (V : Valuation τ sig (Elt Ideal)) : after layer2 V (Proc.devRef .tc main_v6) = V (Proc.devRef .tc main_v6) := by not_written layer2
theorem prefix3_keeps_main_v6 (V : Valuation τ sig (Elt Ideal)) : after prefix3 V (Proc.devRef .tc main_v6) = V (Proc.devRef .tc main_v6) := by not_written prefix3
theorem where3_keeps_main_v6 (V : Valuation τ sig (Elt Ideal)) : after where3 V (Proc.devRef .tc main_v6) = V (Proc.devRef .tc main_v6) := by not_written where3
theorem weights3_keeps_main_v6 (V : Valuation τ sig (Elt Ideal)) : after weights3 V (Proc.devRef .tc main_v6) = V (Proc.devRef .tc main_v6) := by not_written weights3
theorem dot3_keeps_main_v6 (V : Valuation τ sig (Elt Ideal)) : after dot3 V (Proc.devRef .tc main_v6) = V (Proc.devRef .tc main_v6) := by not_written dot3
theorem prefix0_keeps_main_arg0 (V : Valuation τ sig (Elt Ideal)) : after prefix0 V (Proc.devRef .tc main_arg0) = V (Proc.devRef .tc main_arg0) := by not_written prefix0
theorem where0_keeps_main_arg0 (V : Valuation τ sig (Elt Ideal)) : after where0 V (Proc.devRef .tc main_arg0) = V (Proc.devRef .tc main_arg0) := by not_written where0
theorem weights0_keeps_main_arg0 (V : Valuation τ sig (Elt Ideal)) : after weights0 V (Proc.devRef .tc main_arg0) = V (Proc.devRef .tc main_arg0) := by not_written weights0
theorem prefix0_keeps_main_arg2 (V : Valuation τ sig (Elt Ideal)) : after prefix0 V (Proc.devRef .tc main_arg2) = V (Proc.devRef .tc main_arg2) := by not_written prefix0
theorem where0_keeps_main_arg2 (V : Valuation τ sig (Elt Ideal)) : after where0 V (Proc.devRef .tc main_arg2) = V (Proc.devRef .tc main_arg2) := by not_written where0
theorem weights0_keeps_main_arg2 (V : Valuation τ sig (Elt Ideal)) : after weights0 V (Proc.devRef .tc main_arg2) = V (Proc.devRef .tc main_arg2) := by not_written weights0
theorem dot1_keeps_main_arg2 (V : Valuation τ sig (Elt Ideal)) : after dot1 V (Proc.devRef .tc main_arg2) = V (Proc.devRef .tc main_arg2) := by not_written dot1
theorem layer1_keeps_main_arg2 (V : Valuation τ sig (Elt Ideal)) : after layer1 V (Proc.devRef .tc main_arg2) = V (Proc.devRef .tc main_arg2) := by not_written layer1
theorem relu1_keeps_main_arg2 (V : Valuation τ sig (Elt Ideal)) : after relu1 V (Proc.devRef .tc main_arg2) = V (Proc.devRef .tc main_arg2) := by not_written relu1
theorem prefix2_keeps_main_arg2 (V : Valuation τ sig (Elt Ideal)) : after prefix2 V (Proc.devRef .tc main_arg2) = V (Proc.devRef .tc main_arg2) := by not_written prefix2
theorem where2_keeps_main_arg2 (V : Valuation τ sig (Elt Ideal)) : after where2 V (Proc.devRef .tc main_arg2) = V (Proc.devRef .tc main_arg2) := by not_written where2
theorem weights2_keeps_main_arg2 (V : Valuation τ sig (Elt Ideal)) : after weights2 V (Proc.devRef .tc main_arg2) = V (Proc.devRef .tc main_arg2) := by not_written weights2
theorem dot2_keeps_main_arg2 (V : Valuation τ sig (Elt Ideal)) : after dot2 V (Proc.devRef .tc main_arg2) = V (Proc.devRef .tc main_arg2) := by not_written dot2
theorem layer2_keeps_main_arg2 (V : Valuation τ sig (Elt Ideal)) : after layer2 V (Proc.devRef .tc main_arg2) = V (Proc.devRef .tc main_arg2) := by not_written layer2
theorem prefix3_keeps_main_arg2 (V : Valuation τ sig (Elt Ideal)) : after prefix3 V (Proc.devRef .tc main_arg2) = V (Proc.devRef .tc main_arg2) := by not_written prefix3
theorem where3_keeps_main_arg2 (V : Valuation τ sig (Elt Ideal)) : after where3 V (Proc.devRef .tc main_arg2) = V (Proc.devRef .tc main_arg2) := by not_written where3
theorem weights3_keeps_main_arg2 (V : Valuation τ sig (Elt Ideal)) : after weights3 V (Proc.devRef .tc main_arg2) = V (Proc.devRef .tc main_arg2) := by not_written weights3
theorem prefix0_keeps_main_arg3 (V : Valuation τ sig (Elt Ideal)) : after prefix0 V (Proc.devRef .tc main_arg3) = V (Proc.devRef .tc main_arg3) := by not_written prefix0
theorem where0_keeps_main_arg3 (V : Valuation τ sig (Elt Ideal)) : after where0 V (Proc.devRef .tc main_arg3) = V (Proc.devRef .tc main_arg3) := by not_written where0
theorem weights0_keeps_main_arg3 (V : Valuation τ sig (Elt Ideal)) : after weights0 V (Proc.devRef .tc main_arg3) = V (Proc.devRef .tc main_arg3) := by not_written weights0
theorem dot1_keeps_main_arg3 (V : Valuation τ sig (Elt Ideal)) : after dot1 V (Proc.devRef .tc main_arg3) = V (Proc.devRef .tc main_arg3) := by not_written dot1
theorem layer1_keeps_main_arg3 (V : Valuation τ sig (Elt Ideal)) : after layer1 V (Proc.devRef .tc main_arg3) = V (Proc.devRef .tc main_arg3) := by not_written layer1
theorem relu1_keeps_main_arg3 (V : Valuation τ sig (Elt Ideal)) : after relu1 V (Proc.devRef .tc main_arg3) = V (Proc.devRef .tc main_arg3) := by not_written relu1
theorem prefix2_keeps_main_arg3 (V : Valuation τ sig (Elt Ideal)) : after prefix2 V (Proc.devRef .tc main_arg3) = V (Proc.devRef .tc main_arg3) := by not_written prefix2
theorem where2_keeps_main_arg3 (V : Valuation τ sig (Elt Ideal)) : after where2 V (Proc.devRef .tc main_arg3) = V (Proc.devRef .tc main_arg3) := by not_written where2
theorem weights2_keeps_main_arg3 (V : Valuation τ sig (Elt Ideal)) : after weights2 V (Proc.devRef .tc main_arg3) = V (Proc.devRef .tc main_arg3) := by not_written weights2
theorem dot2_keeps_main_arg3 (V : Valuation τ sig (Elt Ideal)) : after dot2 V (Proc.devRef .tc main_arg3) = V (Proc.devRef .tc main_arg3) := by not_written dot2
theorem layer2_keeps_main_arg3 (V : Valuation τ sig (Elt Ideal)) : after layer2 V (Proc.devRef .tc main_arg3) = V (Proc.devRef .tc main_arg3) := by not_written layer2
theorem prefix3_keeps_main_arg3 (V : Valuation τ sig (Elt Ideal)) : after prefix3 V (Proc.devRef .tc main_arg3) = V (Proc.devRef .tc main_arg3) := by not_written prefix3
theorem where3_keeps_main_arg3 (V : Valuation τ sig (Elt Ideal)) : after where3 V (Proc.devRef .tc main_arg3) = V (Proc.devRef .tc main_arg3) := by not_written where3
theorem weights3_keeps_main_arg3 (V : Valuation τ sig (Elt Ideal)) : after weights3 V (Proc.devRef .tc main_arg3) = V (Proc.devRef .tc main_arg3) := by not_written weights3
theorem dot3_keeps_main_arg3 (V : Valuation τ sig (Elt Ideal)) : after dot3 V (Proc.devRef .tc main_arg3) = V (Proc.devRef .tc main_arg3) := by not_written dot3
theorem prefix0_keeps_main_arg4 (V : Valuation τ sig (Elt Ideal)) : after prefix0 V (Proc.devRef .tc main_arg4) = V (Proc.devRef .tc main_arg4) := by not_written prefix0
theorem where0_keeps_main_arg4 (V : Valuation τ sig (Elt Ideal)) : after where0 V (Proc.devRef .tc main_arg4) = V (Proc.devRef .tc main_arg4) := by not_written where0
theorem weights0_keeps_main_arg4 (V : Valuation τ sig (Elt Ideal)) : after weights0 V (Proc.devRef .tc main_arg4) = V (Proc.devRef .tc main_arg4) := by not_written weights0
theorem dot1_keeps_main_arg4 (V : Valuation τ sig (Elt Ideal)) : after dot1 V (Proc.devRef .tc main_arg4) = V (Proc.devRef .tc main_arg4) := by not_written dot1
theorem layer1_keeps_main_arg4 (V : Valuation τ sig (Elt Ideal)) : after layer1 V (Proc.devRef .tc main_arg4) = V (Proc.devRef .tc main_arg4) := by not_written layer1
theorem relu1_keeps_main_arg4 (V : Valuation τ sig (Elt Ideal)) : after relu1 V (Proc.devRef .tc main_arg4) = V (Proc.devRef .tc main_arg4) := by not_written relu1
theorem prefix2_keeps_main_arg4 (V : Valuation τ sig (Elt Ideal)) : after prefix2 V (Proc.devRef .tc main_arg4) = V (Proc.devRef .tc main_arg4) := by not_written prefix2
theorem where2_keeps_main_arg4 (V : Valuation τ sig (Elt Ideal)) : after where2 V (Proc.devRef .tc main_arg4) = V (Proc.devRef .tc main_arg4) := by not_written where2
theorem weights2_keeps_main_arg4 (V : Valuation τ sig (Elt Ideal)) : after weights2 V (Proc.devRef .tc main_arg4) = V (Proc.devRef .tc main_arg4) := by not_written weights2
theorem prefix0_keeps_main_arg5 (V : Valuation τ sig (Elt Ideal)) : after prefix0 V (Proc.devRef .tc main_arg5) = V (Proc.devRef .tc main_arg5) := by not_written prefix0
theorem where0_keeps_main_arg5 (V : Valuation τ sig (Elt Ideal)) : after where0 V (Proc.devRef .tc main_arg5) = V (Proc.devRef .tc main_arg5) := by not_written where0
theorem weights0_keeps_main_arg5 (V : Valuation τ sig (Elt Ideal)) : after weights0 V (Proc.devRef .tc main_arg5) = V (Proc.devRef .tc main_arg5) := by not_written weights0
theorem dot1_keeps_main_arg5 (V : Valuation τ sig (Elt Ideal)) : after dot1 V (Proc.devRef .tc main_arg5) = V (Proc.devRef .tc main_arg5) := by not_written dot1
theorem layer1_keeps_main_arg5 (V : Valuation τ sig (Elt Ideal)) : after layer1 V (Proc.devRef .tc main_arg5) = V (Proc.devRef .tc main_arg5) := by not_written layer1
theorem relu1_keeps_main_arg5 (V : Valuation τ sig (Elt Ideal)) : after relu1 V (Proc.devRef .tc main_arg5) = V (Proc.devRef .tc main_arg5) := by not_written relu1
theorem prefix2_keeps_main_arg5 (V : Valuation τ sig (Elt Ideal)) : after prefix2 V (Proc.devRef .tc main_arg5) = V (Proc.devRef .tc main_arg5) := by not_written prefix2
theorem where2_keeps_main_arg5 (V : Valuation τ sig (Elt Ideal)) : after where2 V (Proc.devRef .tc main_arg5) = V (Proc.devRef .tc main_arg5) := by not_written where2
theorem weights2_keeps_main_arg5 (V : Valuation τ sig (Elt Ideal)) : after weights2 V (Proc.devRef .tc main_arg5) = V (Proc.devRef .tc main_arg5) := by not_written weights2
theorem dot2_keeps_main_arg5 (V : Valuation τ sig (Elt Ideal)) : after dot2 V (Proc.devRef .tc main_arg5) = V (Proc.devRef .tc main_arg5) := by not_written dot2
theorem dot1_keeps_main_v29 (V : Valuation τ sig (Elt Ideal)) : after dot1 V (Proc.devRef .tc main_v29) = V (Proc.devRef .tc main_v29) := by not_written dot1
theorem prefix2_keeps_main_v47 (V : Valuation τ sig (Elt Ideal)) : after prefix2 V (Proc.devRef .tc main_v47) = V (Proc.devRef .tc main_v47) := by not_written prefix2
theorem where2_keeps_main_v47 (V : Valuation τ sig (Elt Ideal)) : after where2 V (Proc.devRef .tc main_v47) = V (Proc.devRef .tc main_v47) := by not_written where2
theorem weights2_keeps_main_v47 (V : Valuation τ sig (Elt Ideal)) : after weights2 V (Proc.devRef .tc main_v47) = V (Proc.devRef .tc main_v47) := by not_written weights2
theorem dot2_keeps_main_v70 (V : Valuation τ sig (Elt Ideal)) : after dot2 V (Proc.devRef .tc main_v70) = V (Proc.devRef .tc main_v70) := by not_written dot2
theorem prefix3_keeps_main_v87 (V : Valuation τ sig (Elt Ideal)) : after prefix3 V (Proc.devRef .tc main_v87) = V (Proc.devRef .tc main_v87) := by not_written prefix3
theorem where3_keeps_main_v87 (V : Valuation τ sig (Elt Ideal)) : after where3 V (Proc.devRef .tc main_v87) = V (Proc.devRef .tc main_v87) := by not_written where3
theorem weights3_keeps_main_v87 (V : Valuation τ sig (Elt Ideal)) : after weights3 V (Proc.devRef .tc main_v87) = V (Proc.devRef .tc main_v87) := by not_written weights3
theorem dot3_keeps_main_v110 (V : Valuation τ sig (Elt Ideal)) : after dot3 V (Proc.devRef .tc main_v110) = V (Proc.devRef .tc main_v110) := by not_written dot3

variable (V : Valuation τ sig (Elt Ideal))

/-- The first stretch: the endpoint lists, and the degree's comparison with 0 and inverse square root. -/
theorem prefix0_sources : after prefix0 V (Proc.devRef .tc main_v3) = sources (V (Proc.devRef .tc main_arg1)) := by
  after_results
  rfl
theorem prefix0_targets : after prefix0 V (Proc.devRef .tc main_v6) = targets (V (Proc.devRef .tc main_arg1)) := by
  after_results
  rfl
theorem prefix0_positive : after prefix0 V (Proc.devRef .tc main_v12) = cmpf .ogt (degree (targets (V (Proc.devRef .tc main_arg1)))) (broadcastInDim S50000 ![] bcast_S_S50000 (constant (F := Ideal) S_ .f32 0x00000000#32)) := by
  after_results
  rfl
theorem prefix0_rsqrt : after prefix0 V (Proc.devRef .tc main_v13) = Host.rsqrt (degree (targets (V (Proc.devRef .tc main_arg1)))) := by
  after_results
  rfl
theorem prefix0_zero : after prefix0 V (Proc.devRef .tc main_cst_2) = constant (F := Ideal) S_ .f32 0x00000000#32 := by
  after_results
/-- The selection: the inverse square root where the degree is positive, 0 elsewhere. -/
theorem where0_select : after where0 V (Proc.devRef .tc main_v14) = select (V (Proc.devRef .tc main_v12)) (V (Proc.devRef .tc main_v13)) (broadcastInDim S50000 ![] bcast_S_S50000 (V (Proc.devRef .tc main_cst_2))) := by
  after_results
  rfl
/-- The edge weights from the selected values and the endpoint lists. -/
theorem weights0_weights : after weights0 V (Proc.devRef .tc main_v29) = weightsFrom (V (Proc.devRef .tc main_v14)) (V (Proc.devRef .tc main_v3)) (V (Proc.devRef .tc main_v6)) := by
  after_results_simp
  rfl
/-- The three matrix products, the three aggregations, the rectifier. -/
theorem dot1_product : after dot1 V (Proc.devRef .tc main_v30) = product1 (V (Proc.devRef .tc main_arg0)) (V (Proc.devRef .tc main_arg2)) := by
  after_results
  rfl
theorem layer1_aggregate : after layer1 V (Proc.devRef .tc main_v46) = aggregate256 (V (Proc.devRef .tc main_v30)) (V (Proc.devRef .tc main_v3)) (V (Proc.devRef .tc main_v6)) (V (Proc.devRef .tc main_v29)) (V (Proc.devRef .tc main_arg3)) := by
  after_results_simp
  rfl
theorem relu1_rectify : after relu1 V (Proc.devRef .tc main_v47) = rectified (V (Proc.devRef .tc main_v46)) := by
  after_results
  rfl
theorem dot2_product : after dot2 V (Proc.devRef .tc main_v71) = product2 (V (Proc.devRef .tc main_v47)) (V (Proc.devRef .tc main_arg4)) := by
  after_results
  rfl
theorem layer2_aggregate : after layer2 V (Proc.devRef .tc main_v87) = aggregate128 (V (Proc.devRef .tc main_v71)) (V (Proc.devRef .tc main_v3)) (V (Proc.devRef .tc main_v6)) (V (Proc.devRef .tc main_v70)) (V (Proc.devRef .tc main_arg5)) := by
  after_results_simp
  rfl
theorem dot3_product : after dot3 V (Proc.devRef .tc main_v111) = product1 (V (Proc.devRef .tc main_v87)) (V (Proc.devRef .tc main_arg2)) := by
  after_results
  rfl
theorem layer3_aggregate : after layer3 V (Proc.devRef .tc main_v127) = aggregate256 (V (Proc.devRef .tc main_v111)) (V (Proc.devRef .tc main_v3)) (V (Proc.devRef .tc main_v6)) (V (Proc.devRef .tc main_v110)) (V (Proc.devRef .tc main_arg3)) := by
  after_results_simp
  rfl
/-- The degree factor and the weights computed again from the target list, before the second and the third product. -/
theorem prefix2_positive : after prefix2 V (Proc.devRef .tc main_v53) = cmpf .ogt (degree (V (Proc.devRef .tc main_v6))) (broadcastInDim S50000 ![] bcast_S_S50000 (constant (F := Ideal) S_ .f32 0x00000000#32)) := by
  after_results_simp
  rfl
theorem prefix2_rsqrt : after prefix2 V (Proc.devRef .tc main_v54) = Host.rsqrt (degree (V (Proc.devRef .tc main_v6))) := by
  after_results_simp
  rfl
theorem prefix2_zero : after prefix2 V (Proc.devRef .tc main_cst_12) = constant (F := Ideal) S_ .f32 0x00000000#32 := by
  after_results
theorem where2_select : after where2 V (Proc.devRef .tc main_v55) = select (V (Proc.devRef .tc main_v53)) (V (Proc.devRef .tc main_v54)) (broadcastInDim S50000 ![] bcast_S_S50000 (V (Proc.devRef .tc main_cst_12))) := by
  after_results
  rfl
theorem weights2_weights : after weights2 V (Proc.devRef .tc main_v70) = weightsFrom (V (Proc.devRef .tc main_v55)) (V (Proc.devRef .tc main_v3)) (V (Proc.devRef .tc main_v6)) := by
  after_results_simp
  rfl
theorem prefix3_positive : after prefix3 V (Proc.devRef .tc main_v93) = cmpf .ogt (degree (V (Proc.devRef .tc main_v6))) (broadcastInDim S50000 ![] bcast_S_S50000 (constant (F := Ideal) S_ .f32 0x00000000#32)) := by
  after_results_simp
  rfl
theorem prefix3_rsqrt : after prefix3 V (Proc.devRef .tc main_v94) = Host.rsqrt (degree (V (Proc.devRef .tc main_v6))) := by
  after_results_simp
  rfl
theorem prefix3_zero : after prefix3 V (Proc.devRef .tc main_cst_23) = constant (F := Ideal) S_ .f32 0x00000000#32 := by
  after_results
theorem where3_select : after where3 V (Proc.devRef .tc main_v95) = select (V (Proc.devRef .tc main_v93)) (V (Proc.devRef .tc main_v94)) (broadcastInDim S50000 ![] bcast_S_S50000 (V (Proc.devRef .tc main_cst_23))) := by
  after_results
  rfl
theorem weights3_weights : after weights3 V (Proc.devRef .tc main_v110) = weightsFrom (V (Proc.devRef .tc main_v95)) (V (Proc.devRef .tc main_v3)) (V (Proc.devRef .tc main_v6)) := by
  after_results_simp
  rfl

end Stretches

/-! ## Level by level, from the launch contents -/

section Levels

variable (m : (ℓ : Loc nD τ sig) → Buf (Elt Ideal) ℓ)

/-! ### After `prefix0` -/

theorem u1_arg0 (c : Dev nD) : (after prefix0 (launchContents m c)) (Proc.devRef .tc main_arg0) = (m ((c : Thread nD τ).loc main_arg0)) :=
  prefix0_keeps_main_arg0 _
theorem u1_arg2 (c : Dev nD) : (after prefix0 (launchContents m c)) (Proc.devRef .tc main_arg2) = (m ((c : Thread nD τ).loc main_arg2)) :=
  prefix0_keeps_main_arg2 _
theorem u1_arg3 (c : Dev nD) : (after prefix0 (launchContents m c)) (Proc.devRef .tc main_arg3) = (m ((c : Thread nD τ).loc main_arg3)) :=
  prefix0_keeps_main_arg3 _
theorem u1_arg4 (c : Dev nD) : (after prefix0 (launchContents m c)) (Proc.devRef .tc main_arg4) = (m ((c : Thread nD τ).loc main_arg4)) :=
  prefix0_keeps_main_arg4 _
theorem u1_arg5 (c : Dev nD) : (after prefix0 (launchContents m c)) (Proc.devRef .tc main_arg5) = (m ((c : Thread nD τ).loc main_arg5)) :=
  prefix0_keeps_main_arg5 _
theorem u1_v3 (c : Dev nD) : (after prefix0 (launchContents m c)) (Proc.devRef .tc main_v3) = (sources (m ((c : Thread nD τ).loc main_arg1))) :=
  prefix0_sources _
theorem u1_v6 (c : Dev nD) : (after prefix0 (launchContents m c)) (Proc.devRef .tc main_v6) = (targets (m ((c : Thread nD τ).loc main_arg1))) :=
  prefix0_targets _

/-! ### After `where0` -/

/-- The per-node factor: the degree's inverse square root where the degree is positive. -/
theorem u2_v14 (c : Dev nD) : (after where0 (after prefix0 (launchContents m c))) (Proc.devRef .tc main_v14) = (invSqrtDegree (targets (m ((c : Thread nD τ).loc main_arg1)))) :=
  (where0_select (after prefix0 (launchContents m c))).trans (by
    rw [prefix0_positive, prefix0_rsqrt, prefix0_zero]
    rfl)
theorem u2_v3 (c : Dev nD) : (after where0 (after prefix0 (launchContents m c))) (Proc.devRef .tc main_v3) = (sources (m ((c : Thread nD τ).loc main_arg1))) :=
  (where0_keeps_main_v3 _).trans (u1_v3 m c)
theorem u2_v6 (c : Dev nD) : (after where0 (after prefix0 (launchContents m c))) (Proc.devRef .tc main_v6) = (targets (m ((c : Thread nD τ).loc main_arg1))) :=
  (where0_keeps_main_v6 _).trans (u1_v6 m c)
theorem u2_arg0 (c : Dev nD) : (after where0 (after prefix0 (launchContents m c))) (Proc.devRef .tc main_arg0) = (m ((c : Thread nD τ).loc main_arg0)) :=
  (where0_keeps_main_arg0 _).trans (u1_arg0 m c)
theorem u2_arg2 (c : Dev nD) : (after where0 (after prefix0 (launchContents m c))) (Proc.devRef .tc main_arg2) = (m ((c : Thread nD τ).loc main_arg2)) :=
  (where0_keeps_main_arg2 _).trans (u1_arg2 m c)
theorem u2_arg3 (c : Dev nD) : (after where0 (after prefix0 (launchContents m c))) (Proc.devRef .tc main_arg3) = (m ((c : Thread nD τ).loc main_arg3)) :=
  (where0_keeps_main_arg3 _).trans (u1_arg3 m c)
theorem u2_arg4 (c : Dev nD) : (after where0 (after prefix0 (launchContents m c))) (Proc.devRef .tc main_arg4) = (m ((c : Thread nD τ).loc main_arg4)) :=
  (where0_keeps_main_arg4 _).trans (u1_arg4 m c)
theorem u2_arg5 (c : Dev nD) : (after where0 (after prefix0 (launchContents m c))) (Proc.devRef .tc main_arg5) = (m ((c : Thread nD τ).loc main_arg5)) :=
  (where0_keeps_main_arg5 _).trans (u1_arg5 m c)

/-! ### After `weights0` -/

theorem u3_v29 (c : Dev nD) : (after weights0 (after where0 (after prefix0 (launchContents m c)))) (Proc.devRef .tc main_v29) = (edgeWeights (sources (m ((c : Thread nD τ).loc main_arg1))) (targets (m ((c : Thread nD τ).loc main_arg1)))) :=
  (weights0_weights (after where0 (after prefix0 (launchContents m c)))).trans (by
    rw [u2_v14 m c, u2_v3 m c, u2_v6 m c]
    rfl)
theorem u3_v3 (c : Dev nD) : (after weights0 (after where0 (after prefix0 (launchContents m c)))) (Proc.devRef .tc main_v3) = (sources (m ((c : Thread nD τ).loc main_arg1))) :=
  (weights0_keeps_main_v3 _).trans (u2_v3 m c)
theorem u3_v6 (c : Dev nD) : (after weights0 (after where0 (after prefix0 (launchContents m c)))) (Proc.devRef .tc main_v6) = (targets (m ((c : Thread nD τ).loc main_arg1))) :=
  (weights0_keeps_main_v6 _).trans (u2_v6 m c)
theorem u3_arg0 (c : Dev nD) : (after weights0 (after where0 (after prefix0 (launchContents m c)))) (Proc.devRef .tc main_arg0) = (m ((c : Thread nD τ).loc main_arg0)) :=
  (weights0_keeps_main_arg0 _).trans (u2_arg0 m c)
theorem u3_arg2 (c : Dev nD) : (after weights0 (after where0 (after prefix0 (launchContents m c)))) (Proc.devRef .tc main_arg2) = (m ((c : Thread nD τ).loc main_arg2)) :=
  (weights0_keeps_main_arg2 _).trans (u2_arg2 m c)
theorem u3_arg3 (c : Dev nD) : (after weights0 (after where0 (after prefix0 (launchContents m c)))) (Proc.devRef .tc main_arg3) = (m ((c : Thread nD τ).loc main_arg3)) :=
  (weights0_keeps_main_arg3 _).trans (u2_arg3 m c)
theorem u3_arg4 (c : Dev nD) : (after weights0 (after where0 (after prefix0 (launchContents m c)))) (Proc.devRef .tc main_arg4) = (m ((c : Thread nD τ).loc main_arg4)) :=
  (weights0_keeps_main_arg4 _).trans (u2_arg4 m c)
theorem u3_arg5 (c : Dev nD) : (after weights0 (after where0 (after prefix0 (launchContents m c)))) (Proc.devRef .tc main_arg5) = (m ((c : Thread nD τ).loc main_arg5)) :=
  (weights0_keeps_main_arg5 _).trans (u2_arg5 m c)

/-! ### After `dot1` -/

theorem u4_v30 (c : Dev nD) : (after dot1 (after weights0 (after where0 (after prefix0 (launchContents m c))))) (Proc.devRef .tc main_v30) = (product1 (m ((c : Thread nD τ).loc main_arg0)) (m ((c : Thread nD τ).loc main_arg2))) :=
  (dot1_product (after weights0 (after where0 (after prefix0 (launchContents m c))))).trans (by
    rw [u3_arg0 m c, u3_arg2 m c])
theorem u4_v3 (c : Dev nD) : (after dot1 (after weights0 (after where0 (after prefix0 (launchContents m c))))) (Proc.devRef .tc main_v3) = (sources (m ((c : Thread nD τ).loc main_arg1))) :=
  (dot1_keeps_main_v3 _).trans (u3_v3 m c)
theorem u4_v6 (c : Dev nD) : (after dot1 (after weights0 (after where0 (after prefix0 (launchContents m c))))) (Proc.devRef .tc main_v6) = (targets (m ((c : Thread nD τ).loc main_arg1))) :=
  (dot1_keeps_main_v6 _).trans (u3_v6 m c)
theorem u4_arg2 (c : Dev nD) : (after dot1 (after weights0 (after where0 (after prefix0 (launchContents m c))))) (Proc.devRef .tc main_arg2) = (m ((c : Thread nD τ).loc main_arg2)) :=
  (dot1_keeps_main_arg2 _).trans (u3_arg2 m c)
theorem u4_arg3 (c : Dev nD) : (after dot1 (after weights0 (after where0 (after prefix0 (launchContents m c))))) (Proc.devRef .tc main_arg3) = (m ((c : Thread nD τ).loc main_arg3)) :=
  (dot1_keeps_main_arg3 _).trans (u3_arg3 m c)
theorem u4_arg4 (c : Dev nD) : (after dot1 (after weights0 (after where0 (after prefix0 (launchContents m c))))) (Proc.devRef .tc main_arg4) = (m ((c : Thread nD τ).loc main_arg4)) :=
  (dot1_keeps_main_arg4 _).trans (u3_arg4 m c)
theorem u4_arg5 (c : Dev nD) : (after dot1 (after weights0 (after where0 (after prefix0 (launchContents m c))))) (Proc.devRef .tc main_arg5) = (m ((c : Thread nD τ).loc main_arg5)) :=
  (dot1_keeps_main_arg5 _).trans (u3_arg5 m c)
theorem u4_v29 (c : Dev nD) : (after dot1 (after weights0 (after where0 (after prefix0 (launchContents m c))))) (Proc.devRef .tc main_v29) = (edgeWeights (sources (m ((c : Thread nD τ).loc main_arg1))) (targets (m ((c : Thread nD τ).loc main_arg1)))) :=
  (dot1_keeps_main_v29 _).trans (u3_v29 m c)

/-! ### After `layer1` -/

theorem u5_v46 (c : Dev nD) : (after layer1 (after dot1 (after weights0 (after where0 (after prefix0 (launchContents m c)))))) (Proc.devRef .tc main_v46) = (aggregate256 (product1 (m ((c : Thread nD τ).loc main_arg0)) (m ((c : Thread nD τ).loc main_arg2))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg3))) :=
  (layer1_aggregate (after dot1 (after weights0 (after where0 (after prefix0 (launchContents m c)))))).trans (by
    rw [u4_v30 m c, u4_v3 m c, u4_v6 m c, u4_v29 m c, u4_arg3 m c])
theorem u5_v3 (c : Dev nD) : (after layer1 (after dot1 (after weights0 (after where0 (after prefix0 (launchContents m c)))))) (Proc.devRef .tc main_v3) = (sources (m ((c : Thread nD τ).loc main_arg1))) :=
  (layer1_keeps_main_v3 _).trans (u4_v3 m c)
theorem u5_v6 (c : Dev nD) : (after layer1 (after dot1 (after weights0 (after where0 (after prefix0 (launchContents m c)))))) (Proc.devRef .tc main_v6) = (targets (m ((c : Thread nD τ).loc main_arg1))) :=
  (layer1_keeps_main_v6 _).trans (u4_v6 m c)
theorem u5_arg2 (c : Dev nD) : (after layer1 (after dot1 (after weights0 (after where0 (after prefix0 (launchContents m c)))))) (Proc.devRef .tc main_arg2) = (m ((c : Thread nD τ).loc main_arg2)) :=
  (layer1_keeps_main_arg2 _).trans (u4_arg2 m c)
theorem u5_arg3 (c : Dev nD) : (after layer1 (after dot1 (after weights0 (after where0 (after prefix0 (launchContents m c)))))) (Proc.devRef .tc main_arg3) = (m ((c : Thread nD τ).loc main_arg3)) :=
  (layer1_keeps_main_arg3 _).trans (u4_arg3 m c)
theorem u5_arg4 (c : Dev nD) : (after layer1 (after dot1 (after weights0 (after where0 (after prefix0 (launchContents m c)))))) (Proc.devRef .tc main_arg4) = (m ((c : Thread nD τ).loc main_arg4)) :=
  (layer1_keeps_main_arg4 _).trans (u4_arg4 m c)
theorem u5_arg5 (c : Dev nD) : (after layer1 (after dot1 (after weights0 (after where0 (after prefix0 (launchContents m c)))))) (Proc.devRef .tc main_arg5) = (m ((c : Thread nD τ).loc main_arg5)) :=
  (layer1_keeps_main_arg5 _).trans (u4_arg5 m c)

/-! ### After `relu1` -/

theorem u6_v47 (c : Dev nD) : (after relu1 (after layer1 (after dot1 (after weights0 (after where0 (after prefix0 (launchContents m c))))))) (Proc.devRef .tc main_v47) = (rectified (aggregate256 (product1 (m ((c : Thread nD τ).loc main_arg0)) (m ((c : Thread nD τ).loc main_arg2))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg3)))) :=
  (relu1_rectify (after layer1 (after dot1 (after weights0 (after where0 (after prefix0 (launchContents m c))))))).trans (by
    rw [u5_v46 m c])
theorem u6_v3 (c : Dev nD) : (after relu1 (after layer1 (after dot1 (after weights0 (after where0 (after prefix0 (launchContents m c))))))) (Proc.devRef .tc main_v3) = (sources (m ((c : Thread nD τ).loc main_arg1))) :=
  (relu1_keeps_main_v3 _).trans (u5_v3 m c)
theorem u6_v6 (c : Dev nD) : (after relu1 (after layer1 (after dot1 (after weights0 (after where0 (after prefix0 (launchContents m c))))))) (Proc.devRef .tc main_v6) = (targets (m ((c : Thread nD τ).loc main_arg1))) :=
  (relu1_keeps_main_v6 _).trans (u5_v6 m c)
theorem u6_arg2 (c : Dev nD) : (after relu1 (after layer1 (after dot1 (after weights0 (after where0 (after prefix0 (launchContents m c))))))) (Proc.devRef .tc main_arg2) = (m ((c : Thread nD τ).loc main_arg2)) :=
  (relu1_keeps_main_arg2 _).trans (u5_arg2 m c)
theorem u6_arg3 (c : Dev nD) : (after relu1 (after layer1 (after dot1 (after weights0 (after where0 (after prefix0 (launchContents m c))))))) (Proc.devRef .tc main_arg3) = (m ((c : Thread nD τ).loc main_arg3)) :=
  (relu1_keeps_main_arg3 _).trans (u5_arg3 m c)
theorem u6_arg4 (c : Dev nD) : (after relu1 (after layer1 (after dot1 (after weights0 (after where0 (after prefix0 (launchContents m c))))))) (Proc.devRef .tc main_arg4) = (m ((c : Thread nD τ).loc main_arg4)) :=
  (relu1_keeps_main_arg4 _).trans (u5_arg4 m c)
theorem u6_arg5 (c : Dev nD) : (after relu1 (after layer1 (after dot1 (after weights0 (after where0 (after prefix0 (launchContents m c))))))) (Proc.devRef .tc main_arg5) = (m ((c : Thread nD τ).loc main_arg5)) :=
  (relu1_keeps_main_arg5 _).trans (u5_arg5 m c)

/-! ### After `prefix2` -/

theorem u7_v3 (c : Dev nD) : (after prefix2 (after relu1 (after layer1 (after dot1 (after weights0 (after where0 (after prefix0 (launchContents m c)))))))) (Proc.devRef .tc main_v3) = (sources (m ((c : Thread nD τ).loc main_arg1))) :=
  (prefix2_keeps_main_v3 _).trans (u6_v3 m c)
theorem u7_v6 (c : Dev nD) : (after prefix2 (after relu1 (after layer1 (after dot1 (after weights0 (after where0 (after prefix0 (launchContents m c)))))))) (Proc.devRef .tc main_v6) = (targets (m ((c : Thread nD τ).loc main_arg1))) :=
  (prefix2_keeps_main_v6 _).trans (u6_v6 m c)
theorem u7_arg2 (c : Dev nD) : (after prefix2 (after relu1 (after layer1 (after dot1 (after weights0 (after where0 (after prefix0 (launchContents m c)))))))) (Proc.devRef .tc main_arg2) = (m ((c : Thread nD τ).loc main_arg2)) :=
  (prefix2_keeps_main_arg2 _).trans (u6_arg2 m c)
theorem u7_arg3 (c : Dev nD) : (after prefix2 (after relu1 (after layer1 (after dot1 (after weights0 (after where0 (after prefix0 (launchContents m c)))))))) (Proc.devRef .tc main_arg3) = (m ((c : Thread nD τ).loc main_arg3)) :=
  (prefix2_keeps_main_arg3 _).trans (u6_arg3 m c)
theorem u7_arg4 (c : Dev nD) : (after prefix2 (after relu1 (after layer1 (after dot1 (after weights0 (after where0 (after prefix0 (launchContents m c)))))))) (Proc.devRef .tc main_arg4) = (m ((c : Thread nD τ).loc main_arg4)) :=
  (prefix2_keeps_main_arg4 _).trans (u6_arg4 m c)
theorem u7_arg5 (c : Dev nD) : (after prefix2 (after relu1 (after layer1 (after dot1 (after weights0 (after where0 (after prefix0 (launchContents m c)))))))) (Proc.devRef .tc main_arg5) = (m ((c : Thread nD τ).loc main_arg5)) :=
  (prefix2_keeps_main_arg5 _).trans (u6_arg5 m c)
theorem u7_v47 (c : Dev nD) : (after prefix2 (after relu1 (after layer1 (after dot1 (after weights0 (after where0 (after prefix0 (launchContents m c)))))))) (Proc.devRef .tc main_v47) = (rectified (aggregate256 (product1 (m ((c : Thread nD τ).loc main_arg0)) (m ((c : Thread nD τ).loc main_arg2))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg3)))) :=
  (prefix2_keeps_main_v47 _).trans (u6_v47 m c)

/-! ### After `where2` -/

theorem u8_v55 (c : Dev nD) : (after where2 (after prefix2 (after relu1 (after layer1 (after dot1 (after weights0 (after where0 (after prefix0 (launchContents m c))))))))) (Proc.devRef .tc main_v55) = (invSqrtDegree (targets (m ((c : Thread nD τ).loc main_arg1)))) :=
  (where2_select (after prefix2 (after relu1 (after layer1 (after dot1 (after weights0 (after where0 (after prefix0 (launchContents m c))))))))).trans (by
    rw [prefix2_positive, prefix2_rsqrt, prefix2_zero, u6_v6 m c]
    rfl)
theorem u8_v3 (c : Dev nD) : (after where2 (after prefix2 (after relu1 (after layer1 (after dot1 (after weights0 (after where0 (after prefix0 (launchContents m c))))))))) (Proc.devRef .tc main_v3) = (sources (m ((c : Thread nD τ).loc main_arg1))) :=
  (where2_keeps_main_v3 _).trans (u7_v3 m c)
theorem u8_v6 (c : Dev nD) : (after where2 (after prefix2 (after relu1 (after layer1 (after dot1 (after weights0 (after where0 (after prefix0 (launchContents m c))))))))) (Proc.devRef .tc main_v6) = (targets (m ((c : Thread nD τ).loc main_arg1))) :=
  (where2_keeps_main_v6 _).trans (u7_v6 m c)
theorem u8_arg2 (c : Dev nD) : (after where2 (after prefix2 (after relu1 (after layer1 (after dot1 (after weights0 (after where0 (after prefix0 (launchContents m c))))))))) (Proc.devRef .tc main_arg2) = (m ((c : Thread nD τ).loc main_arg2)) :=
  (where2_keeps_main_arg2 _).trans (u7_arg2 m c)
theorem u8_arg3 (c : Dev nD) : (after where2 (after prefix2 (after relu1 (after layer1 (after dot1 (after weights0 (after where0 (after prefix0 (launchContents m c))))))))) (Proc.devRef .tc main_arg3) = (m ((c : Thread nD τ).loc main_arg3)) :=
  (where2_keeps_main_arg3 _).trans (u7_arg3 m c)
theorem u8_arg4 (c : Dev nD) : (after where2 (after prefix2 (after relu1 (after layer1 (after dot1 (after weights0 (after where0 (after prefix0 (launchContents m c))))))))) (Proc.devRef .tc main_arg4) = (m ((c : Thread nD τ).loc main_arg4)) :=
  (where2_keeps_main_arg4 _).trans (u7_arg4 m c)
theorem u8_arg5 (c : Dev nD) : (after where2 (after prefix2 (after relu1 (after layer1 (after dot1 (after weights0 (after where0 (after prefix0 (launchContents m c))))))))) (Proc.devRef .tc main_arg5) = (m ((c : Thread nD τ).loc main_arg5)) :=
  (where2_keeps_main_arg5 _).trans (u7_arg5 m c)
theorem u8_v47 (c : Dev nD) : (after where2 (after prefix2 (after relu1 (after layer1 (after dot1 (after weights0 (after where0 (after prefix0 (launchContents m c))))))))) (Proc.devRef .tc main_v47) = (rectified (aggregate256 (product1 (m ((c : Thread nD τ).loc main_arg0)) (m ((c : Thread nD τ).loc main_arg2))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg3)))) :=
  (where2_keeps_main_v47 _).trans (u7_v47 m c)

/-! ### After `weights2` -/

theorem u9_v70 (c : Dev nD) : (after weights2 (after where2 (after prefix2 (after relu1 (after layer1 (after dot1 (after weights0 (after where0 (after prefix0 (launchContents m c)))))))))) (Proc.devRef .tc main_v70) = (edgeWeights (sources (m ((c : Thread nD τ).loc main_arg1))) (targets (m ((c : Thread nD τ).loc main_arg1)))) :=
  (weights2_weights (after where2 (after prefix2 (after relu1 (after layer1 (after dot1 (after weights0 (after where0 (after prefix0 (launchContents m c)))))))))).trans (by
    rw [u8_v55 m c, u8_v3 m c, u8_v6 m c]
    rfl)
theorem u9_v3 (c : Dev nD) : (after weights2 (after where2 (after prefix2 (after relu1 (after layer1 (after dot1 (after weights0 (after where0 (after prefix0 (launchContents m c)))))))))) (Proc.devRef .tc main_v3) = (sources (m ((c : Thread nD τ).loc main_arg1))) :=
  (weights2_keeps_main_v3 _).trans (u8_v3 m c)
theorem u9_v6 (c : Dev nD) : (after weights2 (after where2 (after prefix2 (after relu1 (after layer1 (after dot1 (after weights0 (after where0 (after prefix0 (launchContents m c)))))))))) (Proc.devRef .tc main_v6) = (targets (m ((c : Thread nD τ).loc main_arg1))) :=
  (weights2_keeps_main_v6 _).trans (u8_v6 m c)
theorem u9_arg2 (c : Dev nD) : (after weights2 (after where2 (after prefix2 (after relu1 (after layer1 (after dot1 (after weights0 (after where0 (after prefix0 (launchContents m c)))))))))) (Proc.devRef .tc main_arg2) = (m ((c : Thread nD τ).loc main_arg2)) :=
  (weights2_keeps_main_arg2 _).trans (u8_arg2 m c)
theorem u9_arg3 (c : Dev nD) : (after weights2 (after where2 (after prefix2 (after relu1 (after layer1 (after dot1 (after weights0 (after where0 (after prefix0 (launchContents m c)))))))))) (Proc.devRef .tc main_arg3) = (m ((c : Thread nD τ).loc main_arg3)) :=
  (weights2_keeps_main_arg3 _).trans (u8_arg3 m c)
theorem u9_arg4 (c : Dev nD) : (after weights2 (after where2 (after prefix2 (after relu1 (after layer1 (after dot1 (after weights0 (after where0 (after prefix0 (launchContents m c)))))))))) (Proc.devRef .tc main_arg4) = (m ((c : Thread nD τ).loc main_arg4)) :=
  (weights2_keeps_main_arg4 _).trans (u8_arg4 m c)
theorem u9_arg5 (c : Dev nD) : (after weights2 (after where2 (after prefix2 (after relu1 (after layer1 (after dot1 (after weights0 (after where0 (after prefix0 (launchContents m c)))))))))) (Proc.devRef .tc main_arg5) = (m ((c : Thread nD τ).loc main_arg5)) :=
  (weights2_keeps_main_arg5 _).trans (u8_arg5 m c)
theorem u9_v47 (c : Dev nD) : (after weights2 (after where2 (after prefix2 (after relu1 (after layer1 (after dot1 (after weights0 (after where0 (after prefix0 (launchContents m c)))))))))) (Proc.devRef .tc main_v47) = (rectified (aggregate256 (product1 (m ((c : Thread nD τ).loc main_arg0)) (m ((c : Thread nD τ).loc main_arg2))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg3)))) :=
  (weights2_keeps_main_v47 _).trans (u8_v47 m c)

/-! ### After `dot2` -/

theorem u10_v71 (c : Dev nD) : (after dot2 (after weights2 (after where2 (after prefix2 (after relu1 (after layer1 (after dot1 (after weights0 (after where0 (after prefix0 (launchContents m c))))))))))) (Proc.devRef .tc main_v71) = (product2 (rectified (aggregate256 (product1 (m ((c : Thread nD τ).loc main_arg0)) (m ((c : Thread nD τ).loc main_arg2))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg3)))) (m ((c : Thread nD τ).loc main_arg4))) :=
  (dot2_product (after weights2 (after where2 (after prefix2 (after relu1 (after layer1 (after dot1 (after weights0 (after where0 (after prefix0 (launchContents m c))))))))))).trans (by
    rw [u9_v47 m c, u9_arg4 m c])
theorem u10_v3 (c : Dev nD) : (after dot2 (after weights2 (after where2 (after prefix2 (after relu1 (after layer1 (after dot1 (after weights0 (after where0 (after prefix0 (launchContents m c))))))))))) (Proc.devRef .tc main_v3) = (sources (m ((c : Thread nD τ).loc main_arg1))) :=
  (dot2_keeps_main_v3 _).trans (u9_v3 m c)
theorem u10_v6 (c : Dev nD) : (after dot2 (after weights2 (after where2 (after prefix2 (after relu1 (after layer1 (after dot1 (after weights0 (after where0 (after prefix0 (launchContents m c))))))))))) (Proc.devRef .tc main_v6) = (targets (m ((c : Thread nD τ).loc main_arg1))) :=
  (dot2_keeps_main_v6 _).trans (u9_v6 m c)
theorem u10_arg2 (c : Dev nD) : (after dot2 (after weights2 (after where2 (after prefix2 (after relu1 (after layer1 (after dot1 (after weights0 (after where0 (after prefix0 (launchContents m c))))))))))) (Proc.devRef .tc main_arg2) = (m ((c : Thread nD τ).loc main_arg2)) :=
  (dot2_keeps_main_arg2 _).trans (u9_arg2 m c)
theorem u10_arg3 (c : Dev nD) : (after dot2 (after weights2 (after where2 (after prefix2 (after relu1 (after layer1 (after dot1 (after weights0 (after where0 (after prefix0 (launchContents m c))))))))))) (Proc.devRef .tc main_arg3) = (m ((c : Thread nD τ).loc main_arg3)) :=
  (dot2_keeps_main_arg3 _).trans (u9_arg3 m c)
theorem u10_arg5 (c : Dev nD) : (after dot2 (after weights2 (after where2 (after prefix2 (after relu1 (after layer1 (after dot1 (after weights0 (after where0 (after prefix0 (launchContents m c))))))))))) (Proc.devRef .tc main_arg5) = (m ((c : Thread nD τ).loc main_arg5)) :=
  (dot2_keeps_main_arg5 _).trans (u9_arg5 m c)
theorem u10_v70 (c : Dev nD) : (after dot2 (after weights2 (after where2 (after prefix2 (after relu1 (after layer1 (after dot1 (after weights0 (after where0 (after prefix0 (launchContents m c))))))))))) (Proc.devRef .tc main_v70) = (edgeWeights (sources (m ((c : Thread nD τ).loc main_arg1))) (targets (m ((c : Thread nD τ).loc main_arg1)))) :=
  (dot2_keeps_main_v70 _).trans (u9_v70 m c)

/-! ### After `layer2` -/

theorem u11_v87 (c : Dev nD) : (after layer2 (after dot2 (after weights2 (after where2 (after prefix2 (after relu1 (after layer1 (after dot1 (after weights0 (after where0 (after prefix0 (launchContents m c)))))))))))) (Proc.devRef .tc main_v87) = (aggregate128 (product2 (rectified (aggregate256 (product1 (m ((c : Thread nD τ).loc main_arg0)) (m ((c : Thread nD τ).loc main_arg2))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg3)))) (m ((c : Thread nD τ).loc main_arg4))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg5))) :=
  (layer2_aggregate (after dot2 (after weights2 (after where2 (after prefix2 (after relu1 (after layer1 (after dot1 (after weights0 (after where0 (after prefix0 (launchContents m c)))))))))))).trans (by
    rw [u10_v71 m c, u10_v3 m c, u10_v6 m c, u10_v70 m c, u10_arg5 m c])
theorem u11_v3 (c : Dev nD) : (after layer2 (after dot2 (after weights2 (after where2 (after prefix2 (after relu1 (after layer1 (after dot1 (after weights0 (after where0 (after prefix0 (launchContents m c)))))))))))) (Proc.devRef .tc main_v3) = (sources (m ((c : Thread nD τ).loc main_arg1))) :=
  (layer2_keeps_main_v3 _).trans (u10_v3 m c)
theorem u11_v6 (c : Dev nD) : (after layer2 (after dot2 (after weights2 (after where2 (after prefix2 (after relu1 (after layer1 (after dot1 (after weights0 (after where0 (after prefix0 (launchContents m c)))))))))))) (Proc.devRef .tc main_v6) = (targets (m ((c : Thread nD τ).loc main_arg1))) :=
  (layer2_keeps_main_v6 _).trans (u10_v6 m c)
theorem u11_arg2 (c : Dev nD) : (after layer2 (after dot2 (after weights2 (after where2 (after prefix2 (after relu1 (after layer1 (after dot1 (after weights0 (after where0 (after prefix0 (launchContents m c)))))))))))) (Proc.devRef .tc main_arg2) = (m ((c : Thread nD τ).loc main_arg2)) :=
  (layer2_keeps_main_arg2 _).trans (u10_arg2 m c)
theorem u11_arg3 (c : Dev nD) : (after layer2 (after dot2 (after weights2 (after where2 (after prefix2 (after relu1 (after layer1 (after dot1 (after weights0 (after where0 (after prefix0 (launchContents m c)))))))))))) (Proc.devRef .tc main_arg3) = (m ((c : Thread nD τ).loc main_arg3)) :=
  (layer2_keeps_main_arg3 _).trans (u10_arg3 m c)

/-! ### After `prefix3` -/

theorem u12_v3 (c : Dev nD) : (after prefix3 (after layer2 (after dot2 (after weights2 (after where2 (after prefix2 (after relu1 (after layer1 (after dot1 (after weights0 (after where0 (after prefix0 (launchContents m c))))))))))))) (Proc.devRef .tc main_v3) = (sources (m ((c : Thread nD τ).loc main_arg1))) :=
  (prefix3_keeps_main_v3 _).trans (u11_v3 m c)
theorem u12_v6 (c : Dev nD) : (after prefix3 (after layer2 (after dot2 (after weights2 (after where2 (after prefix2 (after relu1 (after layer1 (after dot1 (after weights0 (after where0 (after prefix0 (launchContents m c))))))))))))) (Proc.devRef .tc main_v6) = (targets (m ((c : Thread nD τ).loc main_arg1))) :=
  (prefix3_keeps_main_v6 _).trans (u11_v6 m c)
theorem u12_arg2 (c : Dev nD) : (after prefix3 (after layer2 (after dot2 (after weights2 (after where2 (after prefix2 (after relu1 (after layer1 (after dot1 (after weights0 (after where0 (after prefix0 (launchContents m c))))))))))))) (Proc.devRef .tc main_arg2) = (m ((c : Thread nD τ).loc main_arg2)) :=
  (prefix3_keeps_main_arg2 _).trans (u11_arg2 m c)
theorem u12_arg3 (c : Dev nD) : (after prefix3 (after layer2 (after dot2 (after weights2 (after where2 (after prefix2 (after relu1 (after layer1 (after dot1 (after weights0 (after where0 (after prefix0 (launchContents m c))))))))))))) (Proc.devRef .tc main_arg3) = (m ((c : Thread nD τ).loc main_arg3)) :=
  (prefix3_keeps_main_arg3 _).trans (u11_arg3 m c)
theorem u12_v87 (c : Dev nD) : (after prefix3 (after layer2 (after dot2 (after weights2 (after where2 (after prefix2 (after relu1 (after layer1 (after dot1 (after weights0 (after where0 (after prefix0 (launchContents m c))))))))))))) (Proc.devRef .tc main_v87) = (aggregate128 (product2 (rectified (aggregate256 (product1 (m ((c : Thread nD τ).loc main_arg0)) (m ((c : Thread nD τ).loc main_arg2))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg3)))) (m ((c : Thread nD τ).loc main_arg4))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg5))) :=
  (prefix3_keeps_main_v87 _).trans (u11_v87 m c)

/-! ### After `where3` -/

theorem u13_v95 (c : Dev nD) : (after where3 (after prefix3 (after layer2 (after dot2 (after weights2 (after where2 (after prefix2 (after relu1 (after layer1 (after dot1 (after weights0 (after where0 (after prefix0 (launchContents m c)))))))))))))) (Proc.devRef .tc main_v95) = (invSqrtDegree (targets (m ((c : Thread nD τ).loc main_arg1)))) :=
  (where3_select (after prefix3 (after layer2 (after dot2 (after weights2 (after where2 (after prefix2 (after relu1 (after layer1 (after dot1 (after weights0 (after where0 (after prefix0 (launchContents m c)))))))))))))).trans (by
    rw [prefix3_positive, prefix3_rsqrt, prefix3_zero, u11_v6 m c]
    rfl)
theorem u13_v3 (c : Dev nD) : (after where3 (after prefix3 (after layer2 (after dot2 (after weights2 (after where2 (after prefix2 (after relu1 (after layer1 (after dot1 (after weights0 (after where0 (after prefix0 (launchContents m c)))))))))))))) (Proc.devRef .tc main_v3) = (sources (m ((c : Thread nD τ).loc main_arg1))) :=
  (where3_keeps_main_v3 _).trans (u12_v3 m c)
theorem u13_v6 (c : Dev nD) : (after where3 (after prefix3 (after layer2 (after dot2 (after weights2 (after where2 (after prefix2 (after relu1 (after layer1 (after dot1 (after weights0 (after where0 (after prefix0 (launchContents m c)))))))))))))) (Proc.devRef .tc main_v6) = (targets (m ((c : Thread nD τ).loc main_arg1))) :=
  (where3_keeps_main_v6 _).trans (u12_v6 m c)
theorem u13_arg2 (c : Dev nD) : (after where3 (after prefix3 (after layer2 (after dot2 (after weights2 (after where2 (after prefix2 (after relu1 (after layer1 (after dot1 (after weights0 (after where0 (after prefix0 (launchContents m c)))))))))))))) (Proc.devRef .tc main_arg2) = (m ((c : Thread nD τ).loc main_arg2)) :=
  (where3_keeps_main_arg2 _).trans (u12_arg2 m c)
theorem u13_arg3 (c : Dev nD) : (after where3 (after prefix3 (after layer2 (after dot2 (after weights2 (after where2 (after prefix2 (after relu1 (after layer1 (after dot1 (after weights0 (after where0 (after prefix0 (launchContents m c)))))))))))))) (Proc.devRef .tc main_arg3) = (m ((c : Thread nD τ).loc main_arg3)) :=
  (where3_keeps_main_arg3 _).trans (u12_arg3 m c)
theorem u13_v87 (c : Dev nD) : (after where3 (after prefix3 (after layer2 (after dot2 (after weights2 (after where2 (after prefix2 (after relu1 (after layer1 (after dot1 (after weights0 (after where0 (after prefix0 (launchContents m c)))))))))))))) (Proc.devRef .tc main_v87) = (aggregate128 (product2 (rectified (aggregate256 (product1 (m ((c : Thread nD τ).loc main_arg0)) (m ((c : Thread nD τ).loc main_arg2))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg3)))) (m ((c : Thread nD τ).loc main_arg4))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg5))) :=
  (where3_keeps_main_v87 _).trans (u12_v87 m c)

/-! ### After `weights3` -/

theorem u14_v110 (c : Dev nD) : (after weights3 (after where3 (after prefix3 (after layer2 (after dot2 (after weights2 (after where2 (after prefix2 (after relu1 (after layer1 (after dot1 (after weights0 (after where0 (after prefix0 (launchContents m c))))))))))))))) (Proc.devRef .tc main_v110) = (edgeWeights (sources (m ((c : Thread nD τ).loc main_arg1))) (targets (m ((c : Thread nD τ).loc main_arg1)))) :=
  (weights3_weights (after where3 (after prefix3 (after layer2 (after dot2 (after weights2 (after where2 (after prefix2 (after relu1 (after layer1 (after dot1 (after weights0 (after where0 (after prefix0 (launchContents m c))))))))))))))).trans (by
    rw [u13_v95 m c, u13_v3 m c, u13_v6 m c]
    rfl)
theorem u14_v3 (c : Dev nD) : (after weights3 (after where3 (after prefix3 (after layer2 (after dot2 (after weights2 (after where2 (after prefix2 (after relu1 (after layer1 (after dot1 (after weights0 (after where0 (after prefix0 (launchContents m c))))))))))))))) (Proc.devRef .tc main_v3) = (sources (m ((c : Thread nD τ).loc main_arg1))) :=
  (weights3_keeps_main_v3 _).trans (u13_v3 m c)
theorem u14_v6 (c : Dev nD) : (after weights3 (after where3 (after prefix3 (after layer2 (after dot2 (after weights2 (after where2 (after prefix2 (after relu1 (after layer1 (after dot1 (after weights0 (after where0 (after prefix0 (launchContents m c))))))))))))))) (Proc.devRef .tc main_v6) = (targets (m ((c : Thread nD τ).loc main_arg1))) :=
  (weights3_keeps_main_v6 _).trans (u13_v6 m c)
theorem u14_arg2 (c : Dev nD) : (after weights3 (after where3 (after prefix3 (after layer2 (after dot2 (after weights2 (after where2 (after prefix2 (after relu1 (after layer1 (after dot1 (after weights0 (after where0 (after prefix0 (launchContents m c))))))))))))))) (Proc.devRef .tc main_arg2) = (m ((c : Thread nD τ).loc main_arg2)) :=
  (weights3_keeps_main_arg2 _).trans (u13_arg2 m c)
theorem u14_arg3 (c : Dev nD) : (after weights3 (after where3 (after prefix3 (after layer2 (after dot2 (after weights2 (after where2 (after prefix2 (after relu1 (after layer1 (after dot1 (after weights0 (after where0 (after prefix0 (launchContents m c))))))))))))))) (Proc.devRef .tc main_arg3) = (m ((c : Thread nD τ).loc main_arg3)) :=
  (weights3_keeps_main_arg3 _).trans (u13_arg3 m c)
theorem u14_v87 (c : Dev nD) : (after weights3 (after where3 (after prefix3 (after layer2 (after dot2 (after weights2 (after where2 (after prefix2 (after relu1 (after layer1 (after dot1 (after weights0 (after where0 (after prefix0 (launchContents m c))))))))))))))) (Proc.devRef .tc main_v87) = (aggregate128 (product2 (rectified (aggregate256 (product1 (m ((c : Thread nD τ).loc main_arg0)) (m ((c : Thread nD τ).loc main_arg2))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg3)))) (m ((c : Thread nD τ).loc main_arg4))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg5))) :=
  (weights3_keeps_main_v87 _).trans (u13_v87 m c)

/-! ### After `dot3` -/

theorem u15_v111 (c : Dev nD) : (after dot3 (after weights3 (after where3 (after prefix3 (after layer2 (after dot2 (after weights2 (after where2 (after prefix2 (after relu1 (after layer1 (after dot1 (after weights0 (after where0 (after prefix0 (launchContents m c)))))))))))))))) (Proc.devRef .tc main_v111) = (product1 (aggregate128 (product2 (rectified (aggregate256 (product1 (m ((c : Thread nD τ).loc main_arg0)) (m ((c : Thread nD τ).loc main_arg2))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg3)))) (m ((c : Thread nD τ).loc main_arg4))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg5))) (m ((c : Thread nD τ).loc main_arg2))) :=
  (dot3_product (after weights3 (after where3 (after prefix3 (after layer2 (after dot2 (after weights2 (after where2 (after prefix2 (after relu1 (after layer1 (after dot1 (after weights0 (after where0 (after prefix0 (launchContents m c)))))))))))))))).trans (by
    rw [u14_v87 m c, u14_arg2 m c])
theorem u15_v3 (c : Dev nD) : (after dot3 (after weights3 (after where3 (after prefix3 (after layer2 (after dot2 (after weights2 (after where2 (after prefix2 (after relu1 (after layer1 (after dot1 (after weights0 (after where0 (after prefix0 (launchContents m c)))))))))))))))) (Proc.devRef .tc main_v3) = (sources (m ((c : Thread nD τ).loc main_arg1))) :=
  (dot3_keeps_main_v3 _).trans (u14_v3 m c)
theorem u15_v6 (c : Dev nD) : (after dot3 (after weights3 (after where3 (after prefix3 (after layer2 (after dot2 (after weights2 (after where2 (after prefix2 (after relu1 (after layer1 (after dot1 (after weights0 (after where0 (after prefix0 (launchContents m c)))))))))))))))) (Proc.devRef .tc main_v6) = (targets (m ((c : Thread nD τ).loc main_arg1))) :=
  (dot3_keeps_main_v6 _).trans (u14_v6 m c)
theorem u15_arg3 (c : Dev nD) : (after dot3 (after weights3 (after where3 (after prefix3 (after layer2 (after dot2 (after weights2 (after where2 (after prefix2 (after relu1 (after layer1 (after dot1 (after weights0 (after where0 (after prefix0 (launchContents m c)))))))))))))))) (Proc.devRef .tc main_arg3) = (m ((c : Thread nD τ).loc main_arg3)) :=
  (dot3_keeps_main_arg3 _).trans (u14_arg3 m c)
theorem u15_v110 (c : Dev nD) : (after dot3 (after weights3 (after where3 (after prefix3 (after layer2 (after dot2 (after weights2 (after where2 (after prefix2 (after relu1 (after layer1 (after dot1 (after weights0 (after where0 (after prefix0 (launchContents m c)))))))))))))))) (Proc.devRef .tc main_v110) = (edgeWeights (sources (m ((c : Thread nD τ).loc main_arg1))) (targets (m ((c : Thread nD τ).loc main_arg1)))) :=
  (dot3_keeps_main_v110 _).trans (u14_v110 m c)

/-! ### After `layer3` -/

theorem u16_v127 (c : Dev nD) : (after layer3 (after dot3 (after weights3 (after where3 (after prefix3 (after layer2 (after dot2 (after weights2 (after where2 (after prefix2 (after relu1 (after layer1 (after dot1 (after weights0 (after where0 (after prefix0 (launchContents m c))))))))))))))))) (Proc.devRef .tc main_v127) = (aggregate256 (product1 (aggregate128 (product2 (rectified (aggregate256 (product1 (m ((c : Thread nD τ).loc main_arg0)) (m ((c : Thread nD τ).loc main_arg2))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg3)))) (m ((c : Thread nD τ).loc main_arg4))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg5))) (m ((c : Thread nD τ).loc main_arg2))) (sources (m ((c : Thread nD τ).loc main_arg1))) (targets (m ((c : Thread nD τ).loc main_arg1))) (edgeWeights (sources (m ((c : Thread nD τ).loc main_arg1))) (targets (m ((c : Thread nD τ).loc main_arg1)))) (m ((c : Thread nD τ).loc main_arg3))) :=
  (layer3_aggregate (after dot3 (after weights3 (after where3 (after prefix3 (after layer2 (after dot2 (after weights2 (after where2 (after prefix2 (after relu1 (after layer1 (after dot1 (after weights0 (after where0 (after prefix0 (launchContents m c))))))))))))))))).trans (by
    rw [u15_v111 m c, u15_v3 m c, u15_v6 m c, u15_v110 m c, u15_arg3 m c])

/-! ### The whole line -/

/-- The result buffer after the whole line: the three-layer network of the six arguments. -/
theorem result (c : Dev nD) :
    after (ops (F := Ideal)) (launchContents m c) (Proc.devRef .tc main_v127)
      = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [ops_eq]
  simp only [after_append]
  exact (u16_v127 m c).trans rfl

end Levels

/-! ## The arguments -/

set_option maxRecDepth 65536 in
theorem ops_keeps_main_arg0 (V : Valuation τ sig (Elt Ideal)) : after (ops (F := Ideal)) V (Proc.devRef .tc main_arg0) = V (Proc.devRef .tc main_arg0) := by not_written ops
set_option maxRecDepth 65536 in
theorem ops_keeps_main_arg1 (V : Valuation τ sig (Elt Ideal)) : after (ops (F := Ideal)) V (Proc.devRef .tc main_arg1) = V (Proc.devRef .tc main_arg1) := by not_written ops
set_option maxRecDepth 65536 in
theorem ops_keeps_main_arg2 (V : Valuation τ sig (Elt Ideal)) : after (ops (F := Ideal)) V (Proc.devRef .tc main_arg2) = V (Proc.devRef .tc main_arg2) := by not_written ops
set_option maxRecDepth 65536 in
theorem ops_keeps_main_arg3 (V : Valuation τ sig (Elt Ideal)) : after (ops (F := Ideal)) V (Proc.devRef .tc main_arg3) = V (Proc.devRef .tc main_arg3) := by not_written ops
set_option maxRecDepth 65536 in
theorem ops_keeps_main_arg4 (V : Valuation τ sig (Elt Ideal)) : after (ops (F := Ideal)) V (Proc.devRef .tc main_arg4) = V (Proc.devRef .tc main_arg4) := by not_written ops
set_option maxRecDepth 65536 in
theorem ops_keeps_main_arg5 (V : Valuation τ sig (Elt Ideal)) : after (ops (F := Ideal)) V (Proc.devRef .tc main_arg5) = V (Proc.devRef .tc main_arg5) := by not_written ops

end Cert.ReferenceIdeal.Fold

end
-- ==== Proof.lean ====
/-
  Both programs are a three-layer graph convolution over 50000 nodes and 800000 edges (a self loop added per node). A
  layer multiplies the node features by its weight matrix and then, along the edges, gathers each edge's source row,
  scales it by `deg(src)^(-1/2) · deg(dst)^(-1/2)`, adds the rows up at the targets, and adds the bias; the first layer is
  followed by a rectifier, and the third layer uses the first one's weight and bias again.

  The programs differ in two ways only. The kernel computes each matrix product on the TensorCore, 5000 rows at a time,
  casting both operands to bf16 and accumulating in f32 from zero; the reference computes one whole product. And the kernel
  computes the edge weights once, the reference before every layer. At the ideal values a change of float format is the
  identity and a product into a zero accumulator is the plain sum over the contracted positions, so each row block of the
  kernel's product is the matching rows of the whole product, and the ten row blocks tile the array: each of the kernel's
  three regions leaves the whole product (Proof/RowBlocks0, RowBlocks1, RowBlocks2). The edge weights are the same
  function of the edge list each time they are computed. Every other operation is the same on both sides, so followed
  through their segments both programs end with the same function of the six arguments in the result buffer,
  `Cert.Layers.network` (Proof/Layers; the kernel's side in Proof/KernelRun and Proof/KernelFold, the reference's in
  Proof/ReferenceRun and Proof/ReferenceFold). No law of the extended reals beyond this is used, so the precondition —
  finite inputs — is never opened: the two results are equal for all inputs.

  The three frames: the kernel's at both instances are the generated frame certificates; the reference is a straight line
  of host operations none of which writes an argument. The idealization rewrote no operation, so there is nothing to
  preserve.
-/
import proofs.«165587_j32126355374294_1_alg».proof.Defs
import proofs.«165587_j32126355374294_1_alg».proof.Proof.Gen.Kernel
import proofs.«165587_j32126355374294_1_alg».proof.Proof.Gen.Kernel.Frame
import proofs.«165587_j32126355374294_1_alg».proof.Proof.Gen.KernelIdeal
import proofs.«165587_j32126355374294_1_alg».proof.Proof.Gen.KernelIdeal.Frame
import proofs.«165587_j32126355374294_1_alg».proof.Proof.Gen.ReferenceIdeal
import proofs.«165587_j32126355374294_1_alg».proof.Proof.Gen.Pre_finite_inputs
import proofs.«165587_j32126355374294_1_alg».proof.Proof.KernelRun
import proofs.«165587_j32126355374294_1_alg».proof.Proof.KernelFold
import proofs.«165587_j32126355374294_1_alg».proof.Proof.ReferenceRun
import proofs.«165587_j32126355374294_1_alg».proof.Proof.ReferenceFold
import Idealize.ShloMosaic.Adequacy
import Idealize.ShloMosaic.Init

noncomputable section

namespace Cert.Proof

open Idealize.ShloMosaic Idealize.ShloMosaic.TcCoe Idealize.SL.Sem

/-- The kernel as printed runs and leaves its arguments: the generated frame certificate. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference is a straight line of host operations, none of which writes an argument. -/
theorem frame_referenceIdeal : Cert.frame_ReferenceIdeal := fun m ρ _ =>
  (θ_run Cert.ReferenceIdeal.defs _ _).mono (fun r h c =>
      ⟨(h c Cert.ReferenceIdeal.main_arg0).trans (Cert.ReferenceIdeal.Fold.ops_keeps_main_arg0 _),
       (h c Cert.ReferenceIdeal.main_arg1).trans (Cert.ReferenceIdeal.Fold.ops_keeps_main_arg1 _),
       (h c Cert.ReferenceIdeal.main_arg2).trans (Cert.ReferenceIdeal.Fold.ops_keeps_main_arg2 _),
       (h c Cert.ReferenceIdeal.main_arg3).trans (Cert.ReferenceIdeal.Fold.ops_keeps_main_arg3 _),
       (h c Cert.ReferenceIdeal.main_arg4).trans (Cert.ReferenceIdeal.Fold.ops_keeps_main_arg4 _),
       (h c Cert.ReferenceIdeal.main_arg5).trans (Cert.ReferenceIdeal.Fold.ops_keeps_main_arg5 _)⟩)
    (Cert.ReferenceIdeal.Straight.run_fold (F := Ideal) m ρ)

/-- The idealization rewrote no operation. -/
theorem preserves : Cert.preserves_Kernel_KernelIdeal := trivial

/-- From memories agreeing on the arguments both idealized programs run, and both end with the three-layer network of
    the arguments in the result buffer. -/
theorem algebraic : Cert.algebraic_KernelIdeal_ReferenceIdeal := by
  intro m ρ m' ρ' _ hagree
  refine ⟨fun c => Cert.Layers.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result m ρ c), (h c).2⟩)
      (Cert.KernelIdeal.WholeRun.run_result (F := Ideal) m ρ)
  · refine (θ_run Cert.ReferenceIdeal.defs _ _).mono (fun r h c => ?_) (Cert.ReferenceIdeal.Straight.run_fold (F := Ideal) m' ρ')
    obtain ⟨a0, a1, a2, a3, a4, a5⟩ := hagree c
    refine ⟨?_,
      (h c Cert.ReferenceIdeal.main_arg0).trans (Cert.ReferenceIdeal.Fold.ops_keeps_main_arg0 _),
      (h c Cert.ReferenceIdeal.main_arg1).trans (Cert.ReferenceIdeal.Fold.ops_keeps_main_arg1 _),
      (h c Cert.ReferenceIdeal.main_arg2).trans (Cert.ReferenceIdeal.Fold.ops_keeps_main_arg2 _),
      (h c Cert.ReferenceIdeal.main_arg3).trans (Cert.ReferenceIdeal.Fold.ops_keeps_main_arg3 _),
      (h c Cert.ReferenceIdeal.main_arg4).trans (Cert.ReferenceIdeal.Fold.ops_keeps_main_arg4 _),
      (h c Cert.ReferenceIdeal.main_arg5).trans (Cert.ReferenceIdeal.Fold.ops_keeps_main_arg5 _)⟩
    refine (h c Cert.ReferenceIdeal.main_v127).trans ((Cert.ReferenceIdeal.Fold.result m' c).trans ?_)
    rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
